-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x4 : Shape := ⟨3, ![32, 2048, 4]⟩
abbrev S32x2048 : Shape := ⟨2, ![32, 2048]⟩
abbrev S32x128x4 : Shape := ⟨3, ![32, 128, 4]⟩
abbrev S_ : Shape := ⟨0, ![]⟩
abbrev S32 : Shape := ⟨1, ![32]⟩

class Facts : Prop where
  bcast_S_S32x2048x4 : S_.BroadcastsInDim S32x2048x4 (![] : Fin 0 → Fin S32x2048x4.rank)
  reducesTo_S32x2048x4_S_d0_1_2 : S32x2048x4.ReducesTo [0, 1, 2] S_
  h_S_ : 0 < S_.numel
  bcast_S_S32x2048 : S_.BroadcastsInDim S32x2048 (![] : Fin 0 → Fin S32x2048.rank)
  reducesTo_S32x2048_S_d0_1 : S32x2048.ReducesTo [0, 1] S_
  bcast_S_S32x128x4 : S_.BroadcastsInDim S32x128x4 (![] : Fin 0 → Fin S32x128x4.rank)
  reducesTo_S32x128x4_S_d0_1_2 : S32x128x4.ReducesTo [0, 1, 2] S_
  reducesTo_S32x2048_S32_d1 : S32x2048.ReducesTo [1] S32
  bcast_S_S32 : S_.BroadcastsInDim S32 (![] : Fin 0 → Fin S32.rank)
  reducesTo_S32_S_d0 : S32.ReducesTo [0] S_

variable [Facts]

def fn_part1 {F : FTy → Type} [FloatOps F] (main_arg1 : FVec F S32x2048 .f32) (main_v13 : IVec S_ 1) (main_v15 : IVec S32x2048 1) (main_cst_5 : FVec F S_ .f32) : IVec S_ 1 :=
  let main_v16 : FVec F S32x2048 .f32 := broadcastInDim S32x2048 ![] bcast_S_S32x2048 main_cst_5
  let main_v17 : FVec F S32x2048 .f32 := select main_v15 main_arg1 main_v16
  let main_cst_6 : FVec F S_ .f32 := constant S_ .f32 0xFF800000#32
  let main_v18 : FVec F S32 .f32 := (fun x v => Host.reduce FloatOps.maximumf x v reducesTo_S32x2048_S32_d1 h_S_) main_v17 main_cst_6
  let main_cst_7 : FVec F S_ .f32 := constant S_ .f32 0xBF800000#32
  let main_v19 : FVec F S32 .f32 := broadcastInDim S32 ![] bcast_S_S32 main_cst_7
  let main_v20 : IVec S32 1 := cmpf .oge main_v18 main_v19
  let main_c_8 : IVec S_ 1 := constantI S_ 1 1#1
  let main_v21 : IVec S_ 1 := (fun x v => Host.reduce IntOp.andi x v reducesTo_S32_S_d0 h_S_) main_v20 main_c_8
  let main_v22 : IVec S_ 1 := andi main_v13 main_v21
  main_v22

def fn {F : FTy → Type} [FloatOps F] (main_arg0 : FVec F S32x2048x4 .f32) (main_arg1 : FVec F S32x2048 .f32) (main_arg2 : IVec S32x2048 32) (main_arg3 : FVec F S32x128x4 .f32) : IVec S_ 1 :=
  let main_v0 : FVec F S32x2048x4 .f32 := Host.absf main_arg0
  let main_cst : FVec F S_ .f32 := constant S_ .f32 0x7F800000#32
  let main_v1 : FVec F S32x2048x4 .f32 := broadcastInDim S32x2048x4 ![] bcast_S_S32x2048x4 main_cst
  let main_v2 : IVec S32x2048x4 1 := cmpf .olt main_v0 main_v1
  let main_c : IVec S_ 1 := constantI S_ 1 1#1
  let main_v3 : IVec S_ 1 := (fun x v => Host.reduce IntOp.andi x v reducesTo_S32x2048x4_S_d0_1_2 h_S_) main_v2 main_c
  let main_v4 : FVec F S32x2048 .f32 := Host.absf main_arg1
  let main_cst_0 : FVec F S_ .f32 := constant S_ .f32 0x7F800000#32
  let main_v5 : FVec F S32x2048 .f32 := broadcastInDim S32x2048 ![] bcast_S_S32x2048 main_cst_0
  let main_v6 : IVec S32x2048 1 := cmpf .olt main_v4 main_v5
  let main_c_1 : IVec S_ 1 := constantI S_ 1 1#1
  let main_v7 : IVec S_ 1 := (fun x v => Host.reduce IntOp.andi x v reducesTo_S32x2048_S_d0_1 h_S_) main_v6 main_c_1
  let main_v8 : IVec S_ 1 := andi main_v3 main_v7
  let main_v9 : FVec F S32x128x4 .f32 := Host.absf main_arg3
  let main_cst_2 : FVec F S_ .f32 := constant S_ .f32 0x7F800000#32
  let main_v10 : FVec F S32x128x4 .f32 := broadcastInDim S32x128x4 ![] bcast_S_S32x128x4 main_cst_2
  let main_v11 : IVec S32x128x4 1 := cmpf .olt main_v9 main_v10
  let main_c_3 : IVec S_ 1 := constantI S_ 1 1#1
  let main_v12 : IVec S_ 1 := (fun x v => Host.reduce IntOp.andi x v reducesTo_S32x128x4_S_d0_1_2 h_S_) main_v11 main_c_3
  let main_v13 : IVec S_ 1 := andi main_v8 main_v12
  let main_c_4 : IVec S_ 32 := constantI S_ 32 0#32
  let main_v14 : IVec S32x2048 32 := broadcastInDim S32x2048 ![] bcast_S_S32x2048 main_c_4
  let main_v15 : IVec S32x2048 1 := cmpi .eq main_arg2 main_v14
  let main_cst_5 : FVec F S_ .f32 := constant S_ .f32 0xBF800000#32
  fn_part1 (F := F) main_arg1 main_v13 main_v15 main_cst_5
-- ==== Kernel.lean ====
abbrev S32x2048x4 : Shape := ⟨3, ![32, 2048, 4]⟩
abbrev S32x2048 : Shape := ⟨2, ![32, 2048]⟩
abbrev S32x128x4 : Shape := ⟨3, ![32, 128, 4]⟩
abbrev S32x2048x1 : Shape := ⟨3, ![32, 2048, 1]⟩
abbrev S32x128x1 : Shape := ⟨3, ![32, 128, 1]⟩
abbrev S32x128 : Shape := ⟨2, ![32, 128]⟩
abbrev S_ : Shape := ⟨0, ![]⟩
abbrev S32x1 : Shape := ⟨2, ![32, 1]⟩
abbrev S16x256 : Shape := ⟨2, ![16, 256]⟩
abbrev S16x128 : Shape := ⟨2, ![16, 128]⟩
abbrev S16x1 : Shape := ⟨2, ![16, 1]⟩
abbrev S16x256x1 : Shape := ⟨3, ![16, 256, 1]⟩
abbrev S16x1x128 : Shape := ⟨3, ![16, 1, 128]⟩
abbrev S16x256x128 : Shape := ⟨3, ![16, 256, 128]⟩
abbrev S16 : Shape := ⟨1, ![16]⟩
abbrev S32 : Shape := ⟨1, ![32]⟩

abbrev nBuf : Space → Nat
  | .hbm => 40
  | .vmem => 33
  | .smem => 0
  | _ => 0

abbrev bufTy : (tb : Table) → Fin (tcTables nBuf tb) → BufTy
  | .hbm, ⟨0, _⟩ => ⟨S32x2048x4, .f32⟩
  | .hbm, ⟨1, _⟩ => ⟨S32x2048, .f32⟩
  | .hbm, ⟨2, _⟩ => ⟨S32x2048, .i32⟩
  | .hbm, ⟨3, _⟩ => ⟨S32x128x4, .f32⟩
  | .hbm, ⟨4, _⟩ => ⟨S32x2048x1, .f32⟩
  | .hbm, ⟨5, _⟩ => ⟨S32x2048, .f32⟩
  | .hbm, ⟨6, _⟩ => ⟨S32x2048x1, .f32⟩
  | .hbm, ⟨7, _⟩ => ⟨S32x2048, .f32⟩
  | .hbm, ⟨8, _⟩ => ⟨S32x2048x1, .f32⟩
  | .hbm, ⟨9, _⟩ => ⟨S32x2048, .f32⟩
  | .hbm, ⟨10, _⟩ => ⟨S32x2048x1, .f32⟩
  | .hbm, ⟨11, _⟩ => ⟨S32x2048, .f32⟩
  | .hbm, ⟨12, _⟩ => ⟨S32x128x1, .f32⟩
  | .hbm, ⟨13, _⟩ => ⟨S32x128, .f32⟩
  | .hbm, ⟨14, _⟩ => ⟨S32x128x1, .f32⟩
  | .hbm, ⟨15, _⟩ => ⟨S32x128, .f32⟩
  | .hbm, ⟨16, _⟩ => ⟨S32x128x1, .f32⟩
  | .hbm, ⟨17, _⟩ => ⟨S32x128, .f32⟩
  | .hbm, ⟨18, _⟩ => ⟨S32x128x1, .f32⟩
  | .hbm, ⟨19, _⟩ => ⟨S32x128, .f32⟩
  | .hbm, ⟨20, _⟩ => ⟨S_, .i32⟩
  | .hbm, ⟨21, _⟩ => ⟨S32x2048, .i32⟩
  | .hbm, ⟨22, _⟩ => ⟨S32x2048, .i1⟩
  | .hbm, ⟨23, _⟩ => ⟨S32x2048, .f32⟩
  | .hbm, ⟨24, _⟩ => ⟨S_, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .i1⟩
  | .hbm, ⟨29, _⟩ => ⟨S32x128, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S32x128, .f32⟩
  | .hbm, ⟨34, _⟩ => ⟨S32x128, .f32⟩
  | .hbm, ⟨35, _⟩ => ⟨S32x128, .f32⟩
  | .hbm, ⟨36, _⟩ => ⟨S32x1, .f32⟩
  | .hbm, ⟨37, _⟩ => ⟨S32x1, .f32⟩
  | .hbm, ⟨38, _⟩ => ⟨S32, .f32⟩
  | .hbm, ⟨39, _⟩ => ⟨S32, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x256, .f32⟩
  | .local _ .vmem, ⟨9, _⟩ => ⟨S16x256, .f32⟩
  | .local _ .vmem, ⟨10, _⟩ => ⟨S16x256, .f32⟩
  | .local _ .vmem, ⟨11, _⟩ => ⟨S16x256, .f32⟩
  | .local _ .vmem, ⟨12, _⟩ => ⟨S16x256, .f32⟩
  | .local _ .vmem, ⟨13, _⟩ => ⟨S16x256, .f32⟩
  | .local _ .vmem, ⟨14, _⟩ => ⟨S16x128, .f32⟩
  | .local _ .vmem, ⟨15, _⟩ => ⟨S16x128, .f32⟩
  | .local _ .vmem, ⟨16, _⟩ => ⟨S16x128, .f32⟩
  | .local _ .vmem, ⟨17, _⟩ => ⟨S16x128, .f32⟩
  | .local _ .vmem, ⟨18, _⟩ => ⟨S16x128, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .vmem, ⟨24, _⟩ => ⟨S16x128, .f32⟩
  | .local _ .vmem, ⟨25, _⟩ => ⟨S16x128, .f32⟩
  | .local _ .vmem, ⟨26, _⟩ => ⟨S16x1, .f32⟩
  | .local _ .vmem, ⟨27, _⟩ => ⟨S16x1, .f32⟩
  | .local _ .vmem, ⟨28, _⟩ => ⟨S16x1, .f32⟩
  | .local _ .vmem, ⟨29, _⟩ => ⟨S16x1, .f32⟩
  | .local _ .vmem, ⟨30, _⟩ => ⟨S16x1, .f32⟩
  | .local _ .vmem, ⟨31, _⟩ => ⟨S16x1, .f32⟩
  | .local _ .vmem, ⟨32, _⟩ => ⟨S16x1, .f32⟩
  | _, _ => ⟨S32x2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29_0 : Ref sig .tc := ⟨.hbm, 36, rfl⟩
abbrev main_v29_1 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v98 : BitVec 1 := Scalar.cmpi .eq arg1 c7_i32
  let v99 : BitVec 32 := Scalar.extui v98
  let c0_i32_47 : BitVec 32 := 0#32
  let v100 : BitVec 1 := Scalar.cmpi .ne v99 c0_i32_47
  v100

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S16x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S16x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

class Facts₀ : Prop where
  slices_S32x2048x4_S32x2048x1_0_0_0 : S32x2048x4.Slices ![0, 0, 0] S32x2048x1
  shapeCasts_S32x2048x1_S32x2048 : S32x2048x1.ShapeCasts S32x2048
  slices_S32x2048x4_S32x2048x1_0_0_1 : S32x2048x4.Slices ![0, 0, 1] S32x2048x1
  slices_S32x2048x4_S32x2048x1_0_0_2 : S32x2048x4.Slices ![0, 0, 2] S32x2048x1
  slices_S32x2048x4_S32x2048x1_0_0_3 : S32x2048x4.Slices ![0, 0, 3] S32x2048x1
  slices_S32x128x4_S32x128x1_0_0_0 : S32x128x4.Slices ![0, 0, 0] S32x128x1
  shapeCasts_S32x128x1_S32x128 : S32x128x1.ShapeCasts S32x128
  slices_S32x128x4_S32x128x1_0_0_1 : S32x128x4.Slices ![0, 0, 1] S32x128x1
  slices_S32x128x4_S32x128x1_0_0_2 : S32x128x4.Slices ![0, 0, 2] S32x128x1
  slices_S32x128x4_S32x128x1_0_0_3 : S32x128x4.Slices ![0, 0, 3] S32x128x1
  bcast_S_S32x2048 : S_.BroadcastsInDim S32x2048 (![] : Fin 0 → Fin S32x2048.rank)
  reducesTo_S32x128x4_S32x128_d2 : S32x128x4.ReducesTo [2] S32x128
  h_S_ : 0 < S_.numel
  bcast_S_S32x128 : S_.BroadcastsInDim S32x128 (![] : Fin 0 → Fin S32x128.rank)
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S16x128_S16x128_0_0 : ∀ a, (![0, 0] : Fin 2 → Nat) a + S16x128.size a ≤ S16x128.size a
  h_S16x128 : 0 < S16x128.numel
  shapeCasts_S16x128_S16x128 : S16x128.ShapeCasts S16x128
  shapeCasts_S16x256_S16x256x1 : S16x256.ShapeCasts S16x256x1
  shapeCasts_S16x128_S16x1x128 : S16x128.ShapeCasts S16x1x128
  broadcasts_S16x1x128_S16x256x128 : S16x1x128.Broadcasts S16x256x128
  broadcasts_S16x256x1_S16x256x128 : S16x256x1.Broadcasts S16x256x128
  reduces_S16x256x128_S16x256 : S16x256x128.Reduces [2] S16x256
  reduces_S16x256_S16 : S16x256.Reduces [1] S16
  shapeCasts_S16_S16x1 : S16.ShapeCasts S16x1
  shapeCasts_S32x1_S32 : S32x1.ShapeCasts S32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256.size a ≤ S32x2048.size a
  hwx0_0 : ∀ i : grid0.Coords, EltTy.bits .f32 = 32 ∨ (Rect.block (s := S32x2048) S16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S32x2048.size a
  hwx0_1 : ∀ i : grid0.Coords, EltTy.bits .f32 = 32 ∨ (Rect.block (s := S32x2048) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S32x2048.size a
  hwx0_2 : ∀ i : grid0.Coords, EltTy.bits .f32 = 32 ∨ (Rect.block (s := S32x2048) S16x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S32x2048.size a
  hwx0_3 : ∀ i : grid0.Coords, EltTy.bits .f32 = 32 ∨ (Rect.block (s := S32x2048) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S32x2048.size a
  hwx0_4 : ∀ i : grid0.Coords, EltTy.bits .f32 = 32 ∨ (Rect.block (s := S32x2048) S16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x256.size a ≤ S32x2048.size a
  hwx0_5 : ∀ i : grid0.Coords, EltTy.bits .f32 = 32 ∨ (Rect.block (s := S32x2048) S16x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x256.size a ≤ S32x2048.size a
  hwx0_6 : ∀ i : grid0.Coords, EltTy.bits .f32 = 32 ∨ (Rect.block (s := S32x2048) S16x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x128.size a ≤ S32x128.size a
  hwx0_7 : ∀ i : grid0.Coords, EltTy.bits .f32 = 32 ∨ (Rect.block (s := S32x128) S16x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x128.size a ≤ S32x128.size a
  hwx0_8 : ∀ i : grid0.Coords, EltTy.bits .f32 = 32 ∨ (Rect.block (s := S32x128) S16x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S32x128.size a
  hwx0_9 : ∀ i : grid0.Coords, EltTy.bits .f32 = 32 ∨ (Rect.block (s := S32x128) S16x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x128.size a ≤ S32x128.size a
  hwx0_10 : ∀ i : grid0.Coords, EltTy.bits .f32 = 32 ∨ (Rect.block (s := S32x128) S16x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x128.size a ≤ S32x128.size a
  hwx0_11 : ∀ i : grid0.Coords, EltTy.bits .f32 = 32 ∨ (Rect.block (s := S32x128) S16x128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x128.size a ≤ S32x128.size a
  hwx0_12 : ∀ i : grid0.Coords, EltTy.bits .f32 = 32 ∨ (Rect.block (s := S32x128) S16x128.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x1.size a ≤ S32x1.size a
  hwx0_13 : ∀ i : grid0.Coords, EltTy.bits .f32 = 32 ∨ (Rect.block (s := S32x1) S16x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x1.size a ≤ S32x1.size a
  hwx0_14 : ∀ i : grid0.Coords, EltTy.bits .f32 = 32 ∨ (Rect.block (s := S32x1) S16x1.size (cc0_transform_14 i) (hinb0_14 i)).WholeWords (EltTy.packing .f32)

variable [Facts₀]

abbrev win0_0 : Pipeline.Window sig grid0 :=
  Pipeline.Window.ofSpec (Memref.whole main_v1) S16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S16x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S16x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S16x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9) S16x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11) S16x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13) S16x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v15) S16x128.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v22) S16x128.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v28) S16x128.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v29_0) S16x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v29_1) S16x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev idle0 : Fin 15 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | 14 => fun i => !(k0_cond2 i == 1#1) | ⟨_ + 15, h⟩ => absurd h (Nat.not_lt.2 (Nat.le_add_left _ _))

class Facts : Prop extends Facts₀ where

variable [Facts]
-- ==== ReferenceIdeal.lean ====
abbrev S32x2048x4 : Shape := ⟨3, ![32, 2048, 4]⟩
abbrev S32x2048 : Shape := ⟨2, ![32, 2048]⟩
abbrev S32x128x4 : Shape := ⟨3, ![32, 128, 4]⟩
abbrev S_ : Shape := ⟨0, ![]⟩
abbrev S32x128 : Shape := ⟨2, ![32, 128]⟩
abbrev S32x2048x1x4 : Shape := ⟨4, ![32, 2048, 1, 4]⟩
abbrev S32x1x128x4 : Shape := ⟨4, ![32, 1, 128, 4]⟩
abbrev S32x1x128x1 : Shape := ⟨4, ![32, 1, 128, 1]⟩
abbrev S32x1x128 : Shape := ⟨3, ![32, 1, 128]⟩
abbrev S32x2048x1x1 : Shape := ⟨4, ![32, 2048, 1, 1]⟩
abbrev S32x2048x1 : Shape := ⟨3, ![32, 2048, 1]⟩
abbrev S32x2048x128 : Shape := ⟨3, ![32, 2048, 128]⟩
abbrev S32x128x1 : Shape := ⟨3, ![32, 128, 1]⟩
abbrev S32 : Shape := ⟨1, ![32]⟩

abbrev nBuf : Space → Nat
  | .hbm => 118
  | .vmem => 0
  | .smem => 0
  | _ => 0

abbrev bufTy : (tb : Table) → Fin (tcTables nBuf tb) → BufTy
  | .hbm, ⟨0, _⟩ => ⟨S32x2048x4, .f32⟩
  | .hbm, ⟨1, _⟩ => ⟨S32x2048, .f32⟩
  | .hbm, ⟨2, _⟩ => ⟨S32x2048, .i32⟩
  | .hbm, ⟨3, _⟩ => ⟨S32x128x4, .f32⟩
  | .hbm, ⟨4, _⟩ => ⟨S_, .i32⟩
  | .hbm, ⟨5, _⟩ => ⟨S32x2048, .i32⟩
  | .hbm, ⟨6, _⟩ => ⟨S32x2048, .i1⟩
  | .hbm, ⟨7, _⟩ => ⟨S_, .f32⟩
  | .hbm, ⟨8, _⟩ => ⟨S32x128, .f32⟩
  | .hbm, ⟨9, _⟩ => ⟨S_, .f32⟩
  | .hbm, ⟨10, _⟩ => ⟨S32x128, .f32⟩
  | .hbm, ⟨11, _⟩ => ⟨S32x128, .i1⟩
  | .hbm, ⟨12, _⟩ => ⟨S32x2048x1x4, .f32⟩
  | .hbm, ⟨13, _⟩ => ⟨S32x1x128x4, .f32⟩
  | .hbm, ⟨14, _⟩ => ⟨S32x1x128x1, .f32⟩
  | .hbm, ⟨15, _⟩ => ⟨S32x1x128, .f32⟩
  | .hbm, ⟨16, _⟩ => ⟨S32x2048x1x1, .f32⟩
  | .hbm, ⟨17, _⟩ => ⟨S32x2048x1, .f32⟩
  | .hbm, ⟨18, _⟩ => ⟨S32x2048x128, .f32⟩
  | .hbm, ⟨19, _⟩ => ⟨S32x2048x128, .f32⟩
  | .hbm, ⟨20, _⟩ => ⟨S32x2048x128, .f32⟩
  | .hbm, ⟨21, _⟩ => ⟨S32x1x128x1, .f32⟩
  | .hbm, ⟨22, _⟩ => ⟨S32x1x128, .f32⟩
  | .hbm, ⟨23, _⟩ => ⟨S32x2048x1x1, .f32⟩
  | .hbm, ⟨24, _⟩ => ⟨S32x2048x1, .f32⟩
  | .hbm, ⟨25, _⟩ => ⟨S32x2048x128, .f32⟩
  | .hbm, ⟨26, _⟩ => ⟨S32x2048x128, .f32⟩
  | .hbm, ⟨27, _⟩ => ⟨S32x2048x128, .f32⟩
  | .hbm, ⟨28, _⟩ => ⟨S32x1x128x1, .f32⟩
  | .hbm, ⟨29, _⟩ => ⟨S32x1x128, .f32⟩
  | .hbm, ⟨30, _⟩ => ⟨S32x2048x1x1, .f32⟩
  | .hbm, ⟨31, _⟩ => ⟨S32x2048x1, .f32⟩
  | .hbm, ⟨32, _⟩ => ⟨S32x2048x128, .f32⟩
  | .hbm, ⟨33, _⟩ => ⟨S32x2048x128, .f32⟩
  | .hbm, ⟨34, _⟩ => ⟨S32x2048x128, .f32⟩
  | .hbm, ⟨35, _⟩ => ⟨S32x1x128x1, .f32⟩
  | .hbm, ⟨36, _⟩ => ⟨S32x1x128, .f32⟩
  | .hbm, ⟨37, _⟩ => ⟨S32x2048x1x1, .f32⟩
  | .hbm, ⟨38, _⟩ => ⟨S32x2048x1, .f32⟩
  | .hbm, ⟨39, _⟩ => ⟨S32x2048x128, .f32⟩
  | .hbm, ⟨40, _⟩ => ⟨S32x2048x128, .f32⟩
  | .hbm, ⟨41, _⟩ => ⟨S32x2048x128, .f32⟩
  | .hbm, ⟨42, _⟩ => ⟨S32x2048x128, .f32⟩
  | .hbm, ⟨43, _⟩ => ⟨S_, .f32⟩
  | .hbm, ⟨44, _⟩ => ⟨S32x2048x128, .f32⟩
  | .hbm, ⟨45, _⟩ => ⟨S32x2048x128, .f32⟩
  | .hbm, ⟨46, _⟩ => ⟨S32x2048x128, .f32⟩
  | .hbm, ⟨47, _⟩ => ⟨S_, .f32⟩
  | .hbm, ⟨48, _⟩ => ⟨S32x2048x128, .f32⟩
  | .hbm, ⟨49, _⟩ => ⟨S32x2048x128, .f32⟩
  | .hbm, ⟨50, _⟩ => ⟨S32x2048x128, .f32⟩
  | .hbm, ⟨51, _⟩ => ⟨S32x2048x1, .f32⟩
  | .hbm, ⟨52, _⟩ => ⟨S32x2048, .f32⟩
  | .hbm, ⟨53, _⟩ => ⟨S32x2048x1, .f32⟩
  | .hbm, ⟨54, _⟩ => ⟨S32x2048, .f32⟩
  | .hbm, ⟨55, _⟩ => ⟨S32x2048, .f32⟩
  | .hbm, ⟨56, _⟩ => ⟨S32x2048x1, .f32⟩
  | .hbm, ⟨57, _⟩ => ⟨S32x2048, .f32⟩
  | .hbm, ⟨58, _⟩ => ⟨S32x2048x1, .f32⟩
  | .hbm, ⟨59, _⟩ => ⟨S32x2048, .f32⟩
  | .hbm, ⟨60, _⟩ => ⟨S32x2048, .f32⟩
  | .hbm, ⟨61, _⟩ => ⟨S32x2048, .f32⟩
  | .hbm, ⟨62, _⟩ => ⟨S32x128x1, .f32⟩
  | .hbm, ⟨63, _⟩ => ⟨S32x128, .f32⟩
  | .hbm, ⟨64, _⟩ => ⟨S32x128x1, .f32⟩
  | .hbm, ⟨65, _⟩ => ⟨S32x128, .f32⟩
  | .hbm, ⟨66, _⟩ => ⟨S32x128, .f32⟩
  | .hbm, ⟨67, _⟩ => ⟨S32x128x1, .f32⟩
  | .hbm, ⟨68, _⟩ => ⟨S32x128, .f32⟩
  | .hbm, ⟨69, _⟩ => ⟨S32x128x1, .f32⟩
  | .hbm, ⟨70, _⟩ => ⟨S32x128, .f32⟩
  | .hbm, ⟨71, _⟩ => ⟨S32x128, .f32⟩
  | .hbm, ⟨72, _⟩ => ⟨S32x128, .f32⟩
  | .hbm, ⟨73, _⟩ => ⟨S32x2048x1, .f32⟩
  | .hbm, ⟨74, _⟩ => ⟨S32x1x128, .f32⟩
  | .hbm, ⟨75, _⟩ => ⟨S32x2048x128, .f32⟩
  | .hbm, ⟨76, _⟩ => ⟨S32x2048x128, .f32⟩
  | .hbm, ⟨77, _⟩ => ⟨S32x2048x128, .f32⟩
  | .hbm, ⟨78, _⟩ => ⟨S32x2048x128, .f32⟩
  | .hbm, ⟨79, _⟩ => ⟨S32x2048x1, .i1⟩
  | .hbm, ⟨80, _⟩ => ⟨S32x1x128, .i1⟩
  | .hbm, ⟨81, _⟩ => ⟨S32x2048x128, .i1⟩
  | .hbm, ⟨82, _⟩ => ⟨S32x2048x128, .i1⟩
  | .hbm, ⟨83, _⟩ => ⟨S32x2048x128, .i1⟩
  | .hbm, ⟨84, _⟩ => ⟨S_, .f32⟩
  | .hbm, ⟨85, _⟩ => ⟨S32x2048x128, .f32⟩
  | .hbm, ⟨86, _⟩ => ⟨S32x2048x128, .i1⟩
  | .hbm, ⟨87, _⟩ => ⟨S_, .f32⟩
  | .hbm, ⟨88, _⟩ => ⟨S_, .f32⟩
  | .hbm, ⟨89, _⟩ => ⟨S32x2048x128, .f32⟩
  | .hbm, ⟨90, _⟩ => ⟨S32x2048x128, .f32⟩
  | .hbm, ⟨91, _⟩ => ⟨S32x2048x128, .f32⟩
  | .hbm, ⟨92, _⟩ => ⟨S_, .f32⟩
  | .hbm, ⟨93, _⟩ => ⟨S_, .f32⟩
  | .hbm, ⟨94, _⟩ => ⟨S32x2048x128, .f32⟩
  | .hbm, ⟨95, _⟩ => ⟨S32x2048x128, .f32⟩
  | .hbm, ⟨96, _⟩ => ⟨S_, .f32⟩
  | .hbm, ⟨97, _⟩ => ⟨S32, .f32⟩
  | .hbm, ⟨98, _⟩ => ⟨S_, .i1⟩
  | .hbm, ⟨99, _⟩ => ⟨S32, .i1⟩
  | .hbm, ⟨100, _⟩ => ⟨S_, .f32⟩
  | .hbm, ⟨101, _⟩ => ⟨S_, .f32⟩
  | .hbm, ⟨102, _⟩ => ⟨S32x2048, .f32⟩
  | .hbm, ⟨103, _⟩ => ⟨S32x2048, .f32⟩
  | .hbm, ⟨104, _⟩ => ⟨S_, .f32⟩
  | .hbm, ⟨105, _⟩ => ⟨S32, .f32⟩
  | .hbm, ⟨106, _⟩ => ⟨S_, .f32⟩
  | .hbm, ⟨107, _⟩ => ⟨S32, .f32⟩
  | .hbm, ⟨108, _⟩ => ⟨S32, .f32⟩
  | .hbm, ⟨109, _⟩ => ⟨S32, .f32⟩
  | .hbm, ⟨110, _⟩ => ⟨S_, .f32⟩
  | .hbm, ⟨111, _⟩ => ⟨S_, .f32⟩
  | .hbm, ⟨112, _⟩ => ⟨S32, .f32⟩
  | .hbm, ⟨113, _⟩ => ⟨S32, .f32⟩
  | .hbm, ⟨114, _⟩ => ⟨S_, .f32⟩
  | .hbm, ⟨115, _⟩ => ⟨S_, .f32⟩
  | .hbm, ⟨116, _⟩ => ⟨S32, .f32⟩
  | .hbm, ⟨117, _⟩ => ⟨S32, .f32⟩
  | _, _ => ⟨S32x2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_2 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_cst_3 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_call0_v0 : Ref sig .tc := ⟨.hbm, 88, rfl⟩
abbrev main_call0_v1 : Ref sig .tc := ⟨.hbm, 89, rfl⟩
abbrev main_v77 : Ref sig .tc := ⟨.hbm, 90, rfl⟩
abbrev main_v78 : Ref sig .tc := ⟨.hbm, 91, rfl⟩
abbrev main_cst_5 : Ref sig .tc := ⟨.hbm, 92, rfl⟩
abbrev main_call1_v0 : Ref sig .tc := ⟨.hbm, 93, rfl⟩
abbrev main_call1_v1 : Ref sig .tc := ⟨.hbm, 94, rfl⟩
abbrev main_v79 : Ref sig .tc := ⟨.hbm, 95, rfl⟩
abbrev main_cst_6 : Ref sig .tc := ⟨.hbm, 96, rfl⟩
abbrev main_v80 : Ref sig .tc := ⟨.hbm, 97, rfl⟩
abbrev main_c_7 : Ref sig .tc := ⟨.hbm, 98, rfl⟩
abbrev main_v81 : Ref sig .tc := ⟨.hbm, 99, rfl⟩
abbrev main_cst_8 : Ref sig .tc := ⟨.hbm, 100, rfl⟩
abbrev main_call2_v0 : Ref sig .tc := ⟨.hbm, 101, rfl⟩
abbrev main_call2_v1 : Ref sig .tc := ⟨.hbm, 102, rfl⟩
abbrev main_v82 : Ref sig .tc := ⟨.hbm, 103, rfl⟩
abbrev main_cst_9 : Ref sig .tc := ⟨.hbm, 104, rfl⟩
abbrev main_v83 : Ref sig .tc := ⟨.hbm, 105, rfl⟩
abbrev main_cst_10 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_11 : Ref sig .tc := ⟨.hbm, 110, rfl⟩
abbrev main_call3_v0 : Ref sig .tc := ⟨.hbm, 111, rfl⟩
abbrev main_call3_v1 : Ref sig .tc := ⟨.hbm, 112, rfl⟩
abbrev main_v87 : Ref sig .tc := ⟨.hbm, 113, rfl⟩
abbrev main_cst_12 : Ref sig .tc := ⟨.hbm, 114, rfl⟩
abbrev main_call4_v0 : Ref sig .tc := ⟨.hbm, 115, rfl⟩
abbrev main_call4_v1 : Ref sig .tc := ⟨.hbm, 116, rfl⟩
abbrev main_v88 : Ref sig .tc := ⟨.hbm, 117, rfl⟩

abbrev nD : Nat := 1
abbrev τ : Topo := Topo.v7x

variable {F : FTy → Type} [FloatOps F]

class Facts₀ : Prop where
  bcast_S_S32x2048 : S_.BroadcastsInDim S32x2048 (![] : Fin 0 → Fin S32x2048.rank)
  reducesTo_S32x128x4_S32x128_d2 : S32x128x4.ReducesTo [2] S32x128
  h_S_ : 0 < S_.numel
  bcast_S_S32x128 : S_.BroadcastsInDim S32x128 (![] : Fin 0 → Fin S32x128.rank)
  bcast_S32x2048x4_S32x2048x1x4_0_1_3 : S32x2048x4.BroadcastsInDim S32x2048x1x4 (![0, 1, 3] : Fin 3 → Fin S32x2048x1x4.rank)
  bcast_S32x128x4_S32x1x128x4_0_2_3 : S32x128x4.BroadcastsInDim S32x1x128x4 (![0, 2, 3] : Fin 3 → Fin S32x1x128x4.rank)
  slices_S32x1x128x4_S32x1x128x1_0_0_0_0 : S32x1x128x4.Slices ![0, 0, 0, 0] S32x1x128x1
  shapeCasts_S32x1x128x1_S32x1x128 : S32x1x128x1.ShapeCasts S32x1x128
  slices_S32x2048x1x4_S32x2048x1x1_0_0_0_0 : S32x2048x1x4.Slices ![0, 0, 0, 0] S32x2048x1x1
  shapeCasts_S32x2048x1x1_S32x2048x1 : S32x2048x1x1.ShapeCasts S32x2048x1
  bcast_S32x1x128_S32x2048x128_0_1_2 : S32x1x128.BroadcastsInDim S32x2048x128 (![0, 1, 2] : Fin 3 → Fin S32x2048x128.rank)
  bcast_S32x2048x1_S32x2048x128_0_1_2 : S32x2048x1.BroadcastsInDim S32x2048x128 (![0, 1, 2] : Fin 3 → Fin S32x2048x128.rank)
  slices_S32x1x128x4_S32x1x128x1_0_0_0_1 : S32x1x128x4.Slices ![0, 0, 0, 1] S32x1x128x1
  slices_S32x2048x1x4_S32x2048x1x1_0_0_0_1 : S32x2048x1x4.Slices ![0, 0, 0, 1] S32x2048x1x1
  slices_S32x1x128x4_S32x1x128x1_0_0_0_2 : S32x1x128x4.Slices ![0, 0, 0, 2] S32x1x128x1
  slices_S32x2048x1x4_S32x2048x1x1_0_0_0_2 : S32x2048x1x4.Slices ![0, 0, 0, 2] S32x2048x1x1
  slices_S32x1x128x4_S32x1x128x1_0_0_0_3 : S32x1x128x4.Slices ![0, 0, 0, 3] S32x1x128x1
  slices_S32x2048x1x4_S32x2048x1x1_0_0_0_3 : S32x2048x1x4.Slices ![0, 0, 0, 3] S32x2048x1x1
  bcast_S_S32x2048x128 : S_.BroadcastsInDim S32x2048x128 (![] : Fin 0 → Fin S32x2048x128.rank)
  slices_S32x2048x4_S32x2048x1_0_0_2 : S32x2048x4.Slices ![0, 0, 2] S32x2048x1
  shapeCasts_S32x2048x1_S32x2048 : S32x2048x1.ShapeCasts S32x2048
  slices_S32x2048x4_S32x2048x1_0_0_0 : S32x2048x4.Slices ![0, 0, 0] S32x2048x1
  slices_S32x2048x4_S32x2048x1_0_0_3 : S32x2048x4.Slices ![0, 0, 3] S32x2048x1
  slices_S32x2048x4_S32x2048x1_0_0_1 : S32x2048x4.Slices ![0, 0, 1] S32x2048x1
  slices_S32x128x4_S32x128x1_0_0_2 : S32x128x4.Slices ![0, 0, 2] S32x128x1
  shapeCasts_S32x128x1_S32x128 : S32x128x1.ShapeCasts S32x128
  slices_S32x128x4_S32x128x1_0_0_0 : S32x128x4.Slices ![0, 0, 0] S32x128x1
  slices_S32x128x4_S32x128x1_0_0_3 : S32x128x4.Slices ![0, 0, 3] S32x128x1
  slices_S32x128x4_S32x128x1_0_0_1 : S32x128x4.Slices ![0, 0, 1] S32x128x1
  bcast_S32x2048_S32x2048x1_0_1 : S32x2048.BroadcastsInDim S32x2048x1 (![0, 1] : Fin 2 → Fin S32x2048x1.rank)
  bcast_S32x128_S32x1x128_0_2 : S32x128.BroadcastsInDim S32x1x128 (![0, 2] : Fin 2 → Fin S32x1x128.rank)
  reducesTo_S32x2048x128_S32_d1_2 : S32x2048x128.ReducesTo [1, 2] S32
  reducesTo_S32x2048_S32_d1 : S32x2048.ReducesTo [1] S32
  bcast_S_S32 : S_.BroadcastsInDim S32 (![] : Fin 0 → Fin S32.rank)

variable [Facts₀]

class Facts : Prop extends Facts₀ where

variable [Facts]
-- ==== Proof.Blocks.lean ====
import proofs.«131841_j54657753808935_1_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

/-! Where a block of a window sits in its array. The grid has 2 × 8 points, visited row block by row block: point `t`
    works on batch rows `16 (t / 8) … 16 (t / 8) + 15` and, for the prediction arrays, on predictions
    `256 (t % 8) … 256 (t % 8) + 255`; the ground-truth arrays' blocks hold all 128 rows of those batch rows. -/

namespace Cert.KernelIdeal.Blocks
open Cert.KernelIdeal Cert.KernelIdeal.Gen Idealize.ShloMosaic.ValueIdx
variable {F : FTy → Type} [FloatOps F]
variable (m : (ℓ : Loc nD τ sig) → Buf (Elt F) ℓ) (c : Dev nD)

/-- The batch row of the whole arrays that row `r` of point `t`'s blocks is. -/
def rowOf (t : Fin cfg0.N) (r : Fin 16) : Fin 32 :=
  ⟨16 * (t.val / 8) + r.val, by have := t.isLt; have hN : cfg0.N = 16 := N_0; omega⟩

/-- The prediction of the whole arrays that column `q` of point `t`'s blocks is. -/
def colOf (t : Fin cfg0.N) (q : Fin 256) : Fin 2048 :=
  ⟨256 * (t.val % 8) + q.val, by omega⟩

theorem idx0 : ∀ t : Fin cfg0.N, win0_0.index t (0 : Fin 2) = t.val / 8 ∧ win0_0.index t (1 : Fin 2) = t.val % 8 :=
  (by decide +kernel : ∀ t : Fin grid0.N, _)

/-- Window 0's block at point `t`, entry (r, q): the array's entry (row of r, prediction of q). -/
theorem iblk0 (t : Fin cfg0.N) (r : Fin 16) (q : Fin 256) :
    iblk m c 0 t (ix2 r q) = V m c main_v1 (ix2 (rowOf t r) (colOf t q)) := by
  unfold iblk
  rw [View.read_apply]
  show V m c main_v1 _ = V m c main_v1 _
  refine congrArg _ ?_
  funext a
  apply Fin.ext
  match a with
  | ⟨0, _⟩ => show win0_0.index t 0 * 16 + 1 * r.val = 16 * (t.val / 8) + r.val; rw [(idx0 t).1]; omega
  | ⟨1, _⟩ => show win0_0.index t 1 * 256 + 1 * q.val = 256 * (t.val % 8) + q.val; rw [(idx0 t).2]; omega

theorem idx1 : ∀ t : Fin cfg0.N, win0_1.index t (0 : Fin 2) = t.val / 8 ∧ win0_1.index t (1 : Fin 2) = t.val % 8 :=
  (by decide +kernel : ∀ t : Fin grid0.N, _)

/-- Window 1's block at point `t`, entry (r, q): the array's entry (row of r, prediction of q). -/
theorem iblk1 (t : Fin cfg0.N) (r : Fin 16) (q : Fin 256) :
    iblk m c 1 t (ix2 r q) = V m c main_v3 (ix2 (rowOf t r) (colOf t q)) := by
  unfold iblk
  rw [View.read_apply]
  show V m c main_v3 _ = V m c main_v3 _
  refine congrArg _ ?_
  funext a
  apply Fin.ext
  match a with
  | ⟨0, _⟩ => show win0_1.index t 0 * 16 + 1 * r.val = 16 * (t.val / 8) + r.val; rw [(idx1 t).1]; omega
  | ⟨1, _⟩ => show win0_1.index t 1 * 256 + 1 * q.val = 256 * (t.val % 8) + q.val; rw [(idx1 t).2]; omega

theorem idx2 : ∀ t : Fin cfg0.N, win0_2.index t (0 : Fin 2) = t.val / 8 ∧ win0_2.index t (1 : Fin 2) = t.val % 8 :=
  (by decide +kernel : ∀ t : Fin grid0.N, _)

/-- Window 2's block at point `t`, entry (r, q): the array's entry (row of r, prediction of q). -/
theorem iblk2 (t : Fin cfg0.N) (r : Fin 16) (q : Fin 256) :
    iblk m c 2 t (ix2 r q) = V m c main_v5 (ix2 (rowOf t r) (colOf t q)) := by
  unfold iblk
  rw [View.read_apply]
  show V m c main_v5 _ = V m c main_v5 _
  refine congrArg _ ?_
  funext a
  apply Fin.ext
  match a with
  | ⟨0, _⟩ => show win0_2.index t 0 * 16 + 1 * r.val = 16 * (t.val / 8) + r.val; rw [(idx2 t).1]; omega
  | ⟨1, _⟩ => show win0_2.index t 1 * 256 + 1 * q.val = 256 * (t.val % 8) + q.val; rw [(idx2 t).2]; omega

theorem idx3 : ∀ t : Fin cfg0.N, win0_3.index t (0 : Fin 2) = t.val / 8 ∧ win0_3.index t (1 : Fin 2) = t.val % 8 :=
  (by decide +kernel : ∀ t : Fin grid0.N, _)

/-- Window 3's block at point `t`, entry (r, q): the array's entry (row of r, prediction of q). -/
theorem iblk3 (t : Fin cfg0.N) (r : Fin 16) (q : Fin 256) :
    iblk m c 3 t (ix2 r q) = V m c main_v7 (ix2 (rowOf t r) (colOf t q)) := by
  unfold iblk
  rw [View.read_apply]
  show V m c main_v7 _ = V m c main_v7 _
  refine congrArg _ ?_
  funext a
  apply Fin.ext
  match a with
  | ⟨0, _⟩ => show win0_3.index t 0 * 16 + 1 * r.val = 16 * (t.val / 8) + r.val; rw [(idx3 t).1]; omega
  | ⟨1, _⟩ => show win0_3.index t 1 * 256 + 1 * q.val = 256 * (t.val % 8) + q.val; rw [(idx3 t).2]; omega

theorem idx4 : ∀ t : Fin cfg0.N, win0_4.index t (0 : Fin 2) = t.val / 8 ∧ win0_4.index t (1 : Fin 2) = t.val % 8 :=
  (by decide +kernel : ∀ t : Fin grid0.N, _)

/-- Window 4's block at point `t`, entry (r, q): the array's entry (row of r, prediction of q). -/
theorem iblk4 (t : Fin cfg0.N) (r : Fin 16) (q : Fin 256) :
    iblk m c 4 t (ix2 r q) = V m c main_v18 (ix2 (rowOf t r) (colOf t q)) := by
  unfold iblk
  rw [View.read_apply]
  show V m c main_v18 _ = V m c main_v18 _
  refine congrArg _ ?_
  funext a
  apply Fin.ext
  match a with
  | ⟨0, _⟩ => show win0_4.index t 0 * 16 + 1 * r.val = 16 * (t.val / 8) + r.val; rw [(idx4 t).1]; omega
  | ⟨1, _⟩ => show win0_4.index t 1 * 256 + 1 * q.val = 256 * (t.val % 8) + q.val; rw [(idx4 t).2]; omega

theorem idx5 : ∀ t : Fin cfg0.N, win0_5.index t (0 : Fin 2) = t.val / 8 ∧ win0_5.index t (1 : Fin 2) = t.val % 8 :=
  (by decide +kernel : ∀ t : Fin grid0.N, _)

/-- Window 5's block at point `t`, entry (r, q): the array's entry (row of r, prediction of q). -/
theorem iblk5 (t : Fin cfg0.N) (r : Fin 16) (q : Fin 256) :
    iblk m c 5 t (ix2 r q) = V m c main_v25 (ix2 (rowOf t r) (colOf t q)) := by
  unfold iblk
  rw [View.read_apply]
  show V m c main_v25 _ = V m c main_v25 _
  refine congrArg _ ?_
  funext a
  apply Fin.ext
  match a with
  | ⟨0, _⟩ => show win0_5.index t 0 * 16 + 1 * r.val = 16 * (t.val / 8) + r.val; rw [(idx5 t).1]; omega
  | ⟨1, _⟩ => show win0_5.index t 1 * 256 + 1 * q.val = 256 * (t.val % 8) + q.val; rw [(idx5 t).2]; omega

theorem idx6 : ∀ t : Fin cfg0.N, win0_6.index t (0 : Fin 2) = t.val / 8 ∧ win0_6.index t (1 : Fin 2) = t.val % 8 :=
  (by decide +kernel : ∀ t : Fin grid0.N, _)

/-- Window 6's block at point `t`, entry (r, q): the array's entry (row of r, prediction of q). -/
theorem iblk6 (t : Fin cfg0.N) (r : Fin 16) (q : Fin 256) :
    iblk m c 6 t (ix2 r q) = V m c main_arg1 (ix2 (rowOf t r) (colOf t q)) := by
  unfold iblk
  rw [View.read_apply]
  show V m c main_arg1 _ = V m c main_arg1 _
  refine congrArg _ ?_
  funext a
  apply Fin.ext
  match a with
  | ⟨0, _⟩ => show win0_6.index t 0 * 16 + 1 * r.val = 16 * (t.val / 8) + r.val; rw [(idx6 t).1]; omega
  | ⟨1, _⟩ => show win0_6.index t 1 * 256 + 1 * q.val = 256 * (t.val % 8) + q.val; rw [(idx6 t).2]; omega

theorem idx7 : ∀ t : Fin cfg0.N, win0_7.index t (0 : Fin 2) = t.val / 8 ∧ win0_7.index t (1 : Fin 2) = 0 :=
  (by decide +kernel : ∀ t : Fin grid0.N, _)

/-- Window 7's block at point `t`, entry (r, g): the array's entry (row of r, g). -/
theorem iblk7 (t : Fin cfg0.N) (r : Fin 16) (g : Fin 128) :
    iblk m c 7 t (ix2 r g) = V m c main_v9 (ix2 (rowOf t r) g) := by
  unfold iblk
  rw [View.read_apply]
  show V m c main_v9 _ = V m c main_v9 _
  refine congrArg _ ?_
  funext a
  apply Fin.ext
  match a with
  | ⟨0, _⟩ => show win0_7.index t 0 * 16 + 1 * r.val = 16 * (t.val / 8) + r.val; rw [(idx7 t).1]; omega
  | ⟨1, _⟩ => show win0_7.index t 1 * 128 + 1 * g.val = g.val; rw [(idx7 t).2]; omega

theorem idx8 : ∀ t : Fin cfg0.N, win0_8.index t (0 : Fin 2) = t.val / 8 ∧ win0_8.index t (1 : Fin 2) = 0 :=
  (by decide +kernel : ∀ t : Fin grid0.N, _)

/-- Window 8's block at point `t`, entry (r, g): the array's entry (row of r, g). -/
theorem iblk8 (t : Fin cfg0.N) (r : Fin 16) (g : Fin 128) :
    iblk m c 8 t (ix2 r g) = V m c main_v11 (ix2 (rowOf t r) g) := by
  unfold iblk
  rw [View.read_apply]
  show V m c main_v11 _ = V m c main_v11 _
  refine congrArg _ ?_
  funext a
  apply Fin.ext
  match a with
  | ⟨0, _⟩ => show win0_8.index t 0 * 16 + 1 * r.val = 16 * (t.val / 8) + r.val; rw [(idx8 t).1]; omega
  | ⟨1, _⟩ => show win0_8.index t 1 * 128 + 1 * g.val = g.val; rw [(idx8 t).2]; omega

theorem idx9 : ∀ t : Fin cfg0.N, win0_9.index t (0 : Fin 2) = t.val / 8 ∧ win0_9.index t (1 : Fin 2) = 0 :=
  (by decide +kernel : ∀ t : Fin grid0.N, _)

/-- Window 9's block at point `t`, entry (r, g): the array's entry (row of r, g). -/
theorem iblk9 (t : Fin cfg0.N) (r : Fin 16) (g : Fin 128) :
    iblk m c 9 t (ix2 r g) = V m c main_v13 (ix2 (rowOf t r) g) := by
  unfold iblk
  rw [View.read_apply]
  show V m c main_v13 _ = V m c main_v13 _
  refine congrArg _ ?_
  funext a
  apply Fin.ext
  match a with
  | ⟨0, _⟩ => show win0_9.index t 0 * 16 + 1 * r.val = 16 * (t.val / 8) + r.val; rw [(idx9 t).1]; omega
  | ⟨1, _⟩ => show win0_9.index t 1 * 128 + 1 * g.val = g.val; rw [(idx9 t).2]; omega

theorem idx10 : ∀ t : Fin cfg0.N, win0_10.index t (0 : Fin 2) = t.val / 8 ∧ win0_10.index t (1 : Fin 2) = 0 :=
  (by decide +kernel : ∀ t : Fin grid0.N, _)

/-- Window 10's block at point `t`, entry (r, g): the array's entry (row of r, g). -/
theorem iblk10 (t : Fin cfg0.N) (r : Fin 16) (g : Fin 128) :
    iblk m c 10 t (ix2 r g) = V m c main_v15 (ix2 (rowOf t r) g) := by
  unfold iblk
  rw [View.read_apply]
  show V m c main_v15 _ = V m c main_v15 _
  refine congrArg _ ?_
  funext a
  apply Fin.ext
  match a with
  | ⟨0, _⟩ => show win0_10.index t 0 * 16 + 1 * r.val = 16 * (t.val / 8) + r.val; rw [(idx10 t).1]; omega
  | ⟨1, _⟩ => show win0_10.index t 1 * 128 + 1 * g.val = g.val; rw [(idx10 t).2]; omega

theorem idx11 : ∀ t : Fin cfg0.N, win0_11.index t (0 : Fin 2) = t.val / 8 ∧ win0_11.index t (1 : Fin 2) = 0 :=
  (by decide +kernel : ∀ t : Fin grid0.N, _)

/-- Window 11's block at point `t`, entry (r, g): the array's entry (row of r, g). -/
theorem iblk11 (t : Fin cfg0.N) (r : Fin 16) (g : Fin 128) :
    iblk m c 11 t (ix2 r g) = V m c main_v22 (ix2 (rowOf t r) g) := by
  unfold iblk
  rw [View.read_apply]
  show V m c main_v22 _ = V m c main_v22 _
  refine congrArg _ ?_
  funext a
  apply Fin.ext
  match a with
  | ⟨0, _⟩ => show win0_11.index t 0 * 16 + 1 * r.val = 16 * (t.val / 8) + r.val; rw [(idx11 t).1]; omega
  | ⟨1, _⟩ => show win0_11.index t 1 * 128 + 1 * g.val = g.val; rw [(idx11 t).2]; omega

theorem idx12 : ∀ t : Fin cfg0.N, win0_12.index t (0 : Fin 2) = t.val / 8 ∧ win0_12.index t (1 : Fin 2) = 0 :=
  (by decide +kernel : ∀ t : Fin grid0.N, _)

/-- Window 12's block at point `t`, entry (r, g): the array's entry (row of r, g). -/
theorem iblk12 (t : Fin cfg0.N) (r : Fin 16) (g : Fin 128) :
    iblk m c 12 t (ix2 r g) = V m c main_v28 (ix2 (rowOf t r) g) := by
  unfold iblk
  rw [View.read_apply]
  show V m c main_v28 _ = V m c main_v28 _
  refine congrArg _ ?_
  funext a
  apply Fin.ext
  match a with
  | ⟨0, _⟩ => show win0_12.index t 0 * 16 + 1 * r.val = 16 * (t.val / 8) + r.val; rw [(idx12 t).1]; omega
  | ⟨1, _⟩ => show win0_12.index t 1 * 128 + 1 * g.val = g.val; rw [(idx12 t).2]; omega

theorem idx13 : ∀ t : Fin cfg0.N, win0_13.index t (0 : Fin 2) = t.val / 8 ∧ win0_13.index t (1 : Fin 2) = 0 :=
  (by decide +kernel : ∀ t : Fin grid0.N, _)

theorem idx14 : ∀ t : Fin cfg0.N, win0_14.index t (0 : Fin 2) = t.val / 8 ∧ win0_14.index t (1 : Fin 2) = 0 :=
  (by decide +kernel : ∀ t : Fin grid0.N, _)

end Cert.KernelIdeal.Blocks
end
-- ==== Proof.Spec.lean ====
/-
  The mathematics both programs compute, stated once over the extended reals, index by index.

  The inputs: `pb` the predicted boxes [32, 2048, 4] (x1, y1, x2, y2 on the last axis), `ps` their scores [32, 2048],
  `pc` their classes [32, 2048] (class 0 is "person"), `gb` the ground-truth boxes [32, 128, 4] (a row that sums to zero
  is padding). For a batch row `b`: a prediction `p` counts when its class is 0, a ground-truth row `g` counts when its
  four coordinates do not sum to zero; for a pair (p, g) the intersection is the product of the clipped overlaps along x
  and along y, the union is the two areas minus the intersection, and the quotient divides the intersection by the union
  (by 1 where the union is 0).

  Two spellings of the two results follow. The first reads the masks as the numbers 0 and 1, multiplies the quotient by
  their product, and starts its running maxima from 0 (quotients, "has a person") and from -1 (scores). The second selects
  on the masks as truth values and takes plain maxima from -∞. That the two agree on finite inputs whose row-wise largest
  person score is at least -1 is proved elsewhere; here are only the definitions, the five float words the programs spell,
  and the characterisation of each maximum by its upper bounds.
-/
import Idealize.ShloMosaic.PureOps.Ideal
import Idealize.ShloMosaic.PureOps.Ideal.Laws
import Idealize.ShloMosaic.Lib.ValueIdx

noncomputable section

open scoped BigOperators
open Classical

namespace Cert.IouSpec

open Idealize.ShloMosaic Idealize.ShloMosaic.ValueIdx

/-! ## The float words the programs spell -/

theorem word_zero : Ideal.ofBits .f32 0x00000000#32 = 0 := by
  simp [Ideal.ofBits, Ideal.ieee]

theorem word_one : Ideal.ofBits .f32 0x3F800000#32 = 1 := by
  simp [Ideal.ofBits, Ideal.ieee, -EReal.coe_mul]; norm_num

theorem word_negOne : Ideal.ofBits .f32 0xBF800000#32 = ((-1 : ℝ) : EReal) := by
  simp [Ideal.ofBits, Ideal.ieee, -EReal.coe_mul]; norm_num

theorem word_half : Ideal.ofBits .f32 0x3F000000#32 = ((1 / 2 : ℝ) : EReal) := by
  simp [Ideal.ofBits, Ideal.ieee, -EReal.coe_mul]; norm_num

theorem word_negInf : Ideal.ofBits .f32 0xFF800000#32 = ⊥ := by
  simp [Ideal.ofBits, Ideal.ieee]

/-! ## The shared quantities -/

section Defs

variable (pb : (⟨3, ![32, 2048, 4]⟩ : Shape).Idx → EReal) (ps : (⟨2, ![32, 2048]⟩ : Shape).Idx → EReal)
  (pc : (⟨2, ![32, 2048]⟩ : Shape).Idx → BitVec 32) (gb : (⟨3, ![32, 128, 4]⟩ : Shape).Idx → EReal)

/-- Prediction `p` of row `b` is a person: its class word is 0. -/
def isPerson (b : Fin 32) (p : Fin 2048) : Prop := pc (ix2 b p) = 0#32

/-- The sum of ground-truth row `g`'s four coordinates, from 0. -/
def gtSum (b : Fin 32) (g : Fin 128) : EReal := 0 + ∑ k : Fin 4, gb (ix3 b g k)

/-- Ground-truth row `g` of batch row `b` is not padding. -/
def isGt (b : Fin 32) (g : Fin 128) : Prop := gtSum gb b g ≠ 0

/-- The intersection's area: the overlap along x clipped at 0, times the overlap along y clipped at 0. -/
def inter (b : Fin 32) (p : Fin 2048) (g : Fin 128) : EReal :=
  max (min (gb (ix3 b g 2)) (pb (ix3 b p 2)) - max (gb (ix3 b g 0)) (pb (ix3 b p 0))) 0
    * max (min (gb (ix3 b g 3)) (pb (ix3 b p 3)) - max (gb (ix3 b g 1)) (pb (ix3 b p 1))) 0

/-- The predicted box's area, (x2 - x1)(y2 - y1). -/
def areaP (b : Fin 32) (p : Fin 2048) : EReal :=
  (pb (ix3 b p 2) - pb (ix3 b p 0)) * (pb (ix3 b p 3) - pb (ix3 b p 1))

/-- The ground-truth box's area. -/
def areaG (b : Fin 32) (g : Fin 128) : EReal :=
  (gb (ix3 b g 2) - gb (ix3 b g 0)) * (gb (ix3 b g 3) - gb (ix3 b g 1))

/-- The union's area: the two areas minus the intersection. -/
def union (b : Fin 32) (p : Fin 2048) (g : Fin 128) : EReal :=
  areaP pb b p + areaG gb b g - inter pb gb b p g

/-- Intersection over union, the union replaced by 1 where it is 0. -/
def quot (b : Fin 32) (p : Fin 2048) (g : Fin 128) : EReal :=
  Ideal.div (inter pb gb b p g) (if union pb gb b p g = 0 then 1 else union pb gb b p g)

/-! ## The first spelling: masks as the numbers 0 and 1, running maxima from 0 and from -1 -/

/-- The person mask as a number. -/
def personF (b : Fin 32) (p : Fin 2048) : EReal := if isPerson pc b p then 1 else 0

/-- The ground-truth mask as a number. -/
def gtF (b : Fin 32) (g : Fin 128) : EReal := if isGt gb b g then 1 else 0

/-- The masked quotient: the product of the two masks times the quotient. -/
def iouK (b : Fin 32) (p : Fin 2048) (g : Fin 128) : EReal :=
  (personF pc b p * gtF gb b g) * quot pb gb b p g

/-- The masked score: the score where the person mask exceeds 1/2, else -1. -/
def maskedK (b : Fin 32) (p : Fin 2048) : EReal :=
  if ((1 / 2 : ℝ) : EReal) < personF pc b p then ps (ix2 b p) else ((-1 : ℝ) : EReal)

/-- The running "has a person" maximum, from 0. -/
def hasMaxK (b : Fin 32) : EReal := max 0 (Finset.univ.sup fun p : Fin 2048 => personF pc b p)

/-- The running score maximum, from -1. -/
def scoreK (b : Fin 32) : EReal := max ((-1 : ℝ) : EReal) (Finset.univ.sup fun p : Fin 2048 => maskedK ps pc b p)

/-- The running quotient maximum, from 0. -/
def iouMaxK (b : Fin 32) : EReal :=
  max 0 (Finset.univ.sup fun pg : Fin 2048 × Fin 128 => iouK pb pc gb b pg.1 pg.2)

/-- The first result, first spelling: the root of the largest person score plus one, or 0 without a person. -/
def probK (b : Fin 32) : EReal :=
  if ((1 / 2 : ℝ) : EReal) < hasMaxK pc b then Ideal.sqrt (scoreK ps pc b + 1) else 0

/-- The second result, first spelling: the largest masked quotient, or 0 without a person. -/
def outIouK (b : Fin 32) : EReal :=
  if ((1 / 2 : ℝ) : EReal) < hasMaxK pc b then iouMaxK pb pc gb b else 0

/-! ## The second spelling: masks as truth values, plain maxima -/

/-- The selected quotient: the quotient where both masks hold, else 0. -/
def iouR (b : Fin 32) (p : Fin 2048) (g : Fin 128) : EReal :=
  if isPerson pc b p ∧ isGt gb b g then quot pb gb b p g else 0

/-- The selected score: the score of a person, else -1. -/
def maskedR (b : Fin 32) (p : Fin 2048) : EReal :=
  if isPerson pc b p then ps (ix2 b p) else ((-1 : ℝ) : EReal)

/-- Row `b` has a person. -/
def hasR (b : Fin 32) : Prop := ∃ p : Fin 2048, isPerson pc b p

/-- The largest selected score of row `b`. -/
def scoreR (b : Fin 32) : EReal := Finset.univ.sup fun p : Fin 2048 => maskedR ps pc b p

/-- The largest selected quotient of row `b`. -/
def iouMaxR (b : Fin 32) : EReal :=
  Finset.univ.sup fun pg : Fin 2048 × Fin 128 => iouR pb pc gb b pg.1 pg.2

/-- The first result, second spelling. -/
def probR (b : Fin 32) : EReal := if hasR pc b then Ideal.sqrt (scoreR ps pc b + 1) else 0

/-- The second result, second spelling. -/
def outIouR (b : Fin 32) : EReal := if hasR pc b then iouMaxR pb pc gb b else 0

end Defs

/-! ## A maximum is known by its upper bounds -/

/-- A fold of `max` from `a` over a whole finite type lies below `c` exactly when `a` and every term do. -/
theorem fold_max_le_iff {ι : Type*} [Fintype ι] (a : EReal) (f : ι → EReal) (c : EReal) :
    (Finset.univ : Finset ι).fold max a f ≤ c ↔ a ≤ c ∧ ∀ i, f i ≤ c := by
  rw [Finset.fold_max_le]
  simp

/-- The supremum over a whole finite type lies below `c` exactly when every term does. -/
theorem sup_le_iff' {ι : Type*} [Fintype ι] (f : ι → EReal) (c : EReal) :
    (Finset.univ : Finset ι).sup f ≤ c ↔ ∀ i, f i ≤ c := by
  rw [Finset.sup_le_iff]
  simp

end Cert.IouSpec

end
-- ==== Proof.InvDef.lean ====
import proofs.«131841_j54657753808935_1_alg».proof.Proof.Blocks
import proofs.«131841_j54657753808935_1_alg».proof.Proof.Spec

set_option maxRecDepth 16384

noncomputable section

open Idealize.ShloMosaic Idealize.ShloMosaic.TcCoe Idealize.SL.Sem
open Idealize.ShloMosaic.Pipeline (Dat)

/-! The statement that ties the kernel's three scratch rows to the specification, point by point. -/

namespace Cert.KernelIdeal.Accum
open Cert.KernelIdeal Cert.KernelIdeal.Gen Idealize.ShloMosaic.ValueIdx Cert.KernelIdeal.Blocks
variable (m : (ℓ : Loc nD τ sig) → Buf (Elt Ideal) ℓ) (c : Dev nD)

/-- What the three scratch rows hold after point `n`: each lies below `cc` exactly when its reset value (0, -1, 0) and
    the masked quantity of every prediction seen so far in the row block do. -/
def Inv (n : ℕ) (h : n < cfg0.N) : Prop :=
  ∀ (r : Fin 16) (cc : EReal),
    ((outsAt0 m c n h).2.2.1 (ix2 r (0 : Fin 1)) ≤ cc ↔ (0 : EReal) ≤ cc ∧ ∀ p : Fin 2048, p.val < 256 * (n % 8 + 1) →
        ∀ g : Fin 128, Cert.IouSpec.iouK (m ((c.tc : Thread nD τ).loc main_arg0)) (m ((c.tc : Thread nD τ).loc main_arg2)) (m ((c.tc : Thread nD τ).loc main_arg3)) (rowOf ⟨n, h⟩ r) p g ≤ cc)
    ∧ ((outsAt0 m c n h).2.2.2.1 (ix2 r (0 : Fin 1)) ≤ cc ↔ ((-1 : ℝ) : EReal) ≤ cc ∧ ∀ p : Fin 2048, p.val < 256 * (n % 8 + 1) →
        Cert.IouSpec.maskedK (m ((c.tc : Thread nD τ).loc main_arg1)) (m ((c.tc : Thread nD τ).loc main_arg2)) (rowOf ⟨n, h⟩ r) p ≤ cc)
    ∧ ((outsAt0 m c n h).2.2.2.2 (ix2 r (0 : Fin 1)) ≤ cc ↔ (0 : EReal) ≤ cc ∧ ∀ p : Fin 2048, p.val < 256 * (n % 8 + 1) →
        Cert.IouSpec.personF (m ((c.tc : Thread nD τ).loc main_arg2)) (rowOf ⟨n, h⟩ r) p ≤ cc)

end Cert.KernelIdeal.Accum
end
-- ==== Proof.Pieces.lean ====
import proofs.«131841_j54657753808935_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What one run of the kernel body leaves behind, case by case, as values of the input blocks.

    The body keeps three running maxima in scratch rows (one entry per batch row of the block): of the masked quotients,
    of the masked scores, of the person mask. At the first tile of a row block it resets them (to 0, -1, 0) and folds the
    tile in; at a later tile it folds the tile into what the tile before left; at the last tile it also writes the two
    results from the maxima it has just updated. -/

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- One tile's largest masked quotient per batch row, from the twelve input blocks it depends on. -/
abbrev tileIou (x0 x1 x2 x3 x4 x5 : Vec F S16x256 .f32) (x7 x8 x9 x10 x11 x12 : Vec F S16x128 .f32) : FVec F S16x1 .f32 :=
  k0_pay22 (k0_pay10 x1) (k0_pay11 x2) (k0_pay12 x3) (k0_pay13 x4) (k0_pay14 x5) (k0_pay15 x7) (k0_pay16 x8)
    (k0_pay17 x9) (k0_pay18 x10) (k0_pay19 x11) (k0_pay20 x12) (k0_pay21 x0)

/-- One tile's largest masked score per batch row, from the person mask and the scores. -/
abbrev tileScore (x4 x6 : Vec F S16x256 .f32) : FVec F S16 .f32 := k0_pay23 (k0_pay13 x4) x6

/-- Case A, running maximum 0: the reset value folded with this tile's. -/
theorem sout_A_0 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : cond0_0 i) (hc1 : ¬cond0_1 i) (x0 x1 x2 x3 x4 x5 x6 : Vec F S16x256 .f32) (x7 x8 x9 x10 x11 x12 : Vec F S16x128 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay1 (tileIou x0 x1 x2 x3 x4 x5 x7 x8 x9 x10 x11 x12) k0_pay7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S16x1) hz, View.readCov_unit_zero (S := S16x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case A, running maximum 1: the reset value folded with this tile's. -/
theorem sout_A_1 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : cond0_0 i) (hc1 : ¬cond0_1 i) (x0 x1 x2 x3 x4 x5 x6 : Vec F S16x256 .f32) (x7 x8 x9 x10 x11 x12 : Vec F S16x128 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay2 (tileScore x4 x6) k0_pay8 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S16x1) hz, View.readCov_unit_zero (S := S16x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case A, running maximum 2: the reset value folded with this tile's. -/
theorem sout_A_2 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : cond0_0 i) (hc1 : ¬cond0_1 i) (x0 x1 x2 x3 x4 x5 x6 : Vec F S16x256 .f32) (x7 x8 x9 x10 x11 x12 : Vec F S16x128 .f32) :
    sout0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay3 (k0_pay13 x4) k0_pay9 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S16x1) hz, View.readCov_unit_zero (S := S16x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case B, running maximum 0: what the tile before left folded with this tile's. -/
theorem sout_B_0 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : ¬cond0_1 i) (x0 x1 x2 x3 x4 x5 x6 : Vec F S16x256 .f32) (x7 x8 x9 x10 x11 x12 : Vec F S16x128 .f32) (xs0 xs1 xs2 : Vec F S16x1 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay1 (tileIou x0 x1 x2 x3 x4 x5 x7 x8 x9 x10 x11 x12) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case B, running maximum 1: what the tile before left folded with this tile's. -/
theorem sout_B_1 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : ¬cond0_1 i) (x0 x1 x2 x3 x4 x5 x6 : Vec F S16x256 .f32) (x7 x8 x9 x10 x11 x12 : Vec F S16x128 .f32) (xs0 xs1 xs2 : Vec F S16x1 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay2 (tileScore x4 x6) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case B, running maximum 2: what the tile before left folded with this tile's. -/
theorem sout_B_2 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : ¬cond0_1 i) (x0 x1 x2 x3 x4 x5 x6 : Vec F S16x256 .f32) (x7 x8 x9 x10 x11 x12 : Vec F S16x128 .f32) (xs0 xs1 xs2 : Vec F S16x1 .f32) :
    sout0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay3 (k0_pay13 x4) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case C, running maximum 0: what the tile before left folded with this tile's. -/
theorem sout_C_0 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : cond0_1 i) (x0 x1 x2 x3 x4 x5 x6 : Vec F S16x256 .f32) (x7 x8 x9 x10 x11 x12 : Vec F S16x128 .f32) (xs0 xs1 xs2 : Vec F S16x1 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay1 (tileIou x0 x1 x2 x3 x4 x5 x7 x8 x9 x10 x11 x12) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case C, running maximum 1: what the tile before left folded with this tile's. -/
theorem sout_C_1 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : cond0_1 i) (x0 x1 x2 x3 x4 x5 x6 : Vec F S16x256 .f32) (x7 x8 x9 x10 x11 x12 : Vec F S16x128 .f32) (xs0 xs1 xs2 : Vec F S16x1 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay2 (tileScore x4 x6) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- Case C, running maximum 2: what the tile before left folded with this tile's. -/
theorem sout_C_2 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : cond0_1 i) (x0 x1 x2 x3 x4 x5 x6 : Vec F S16x256 .f32) (x7 x8 x9 x10 x11 x12 : Vec F S16x128 .f32) (xs0 xs1 xs2 : Vec F S16x1 .f32) :
    sout0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay3 (k0_pay13 x4) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- The last tile's first result: where the person maximum exceeds 1/2 the root of the score maximum plus one, else 0 —
    of the maxima this very tile has just updated. -/
theorem out_C_13 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : cond0_1 i) (x0 x1 x2 x3 x4 x5 x6 : Vec F S16x256 .f32) (x7 x8 x9 x10 x11 x12 : Vec F S16x128 .f32) (xs0 xs1 xs2 : Vec F S16x1 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay5 (k0_pay3 (k0_pay13 x4) xs2) (k0_pay2 (tileScore x4 x6) xs1) := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_C
  dsimp only
  sl_unfold_words
  rw [View.canon_unit_zero hz]
  simp only [View.readCov_unit_zero (S := S16x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

/-- The last tile's second result: where the person maximum exceeds 1/2 the quotient maximum, else 0. -/
theorem out_C_14 (c : Dev nD) (i : grid0.Coords) (arg2 : Memref sig .tc .vmem S16x256 .f32) (harg2 : arg2.IsWhole) (arg3 : Memref sig .tc .vmem S16x256 .f32) (harg3 : arg3.IsWhole) (arg4 : Memref sig .tc .vmem S16x256 .f32) (harg4 : arg4.IsWhole) (arg5 : Memref sig .tc .vmem S16x256 .f32) (harg5 : arg5.IsWhole) (arg6 : Memref sig .tc .vmem S16x256 .f32) (harg6 : arg6.IsWhole) (arg7 : Memref sig .tc .vmem S16x256 .f32) (harg7 : arg7.IsWhole) (arg8 : Memref sig .tc .vmem S16x256 .f32) (harg8 : arg8.IsWhole) (arg9 : Memref sig .tc .vmem S16x128 .f32) (harg9 : arg9.IsWhole) (arg10 : Memref sig .tc .vmem S16x128 .f32) (harg10 : arg10.IsWhole) (arg11 : Memref sig .tc .vmem S16x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S16x128 .f32) (harg14 : arg14.IsWhole) (arg15 : Memref sig .tc .vmem S16x1 .f32) (harg15 : arg15.IsWhole) (arg16 : Memref sig .tc .vmem S16x1 .f32) (harg16 : arg16.IsWhole) (arg17 : Memref sig .tc .vmem S16x1 .f32) (harg17 : arg17.IsWhole) (arg18 : Memref sig .tc .vmem S16x1 .f32) (harg18 : arg18.IsWhole) (arg19 : Memref sig .tc .vmem S16x1 .f32) (harg19 : arg19.IsWhole) (hc0 : ¬cond0_0 i) (hc1 : cond0_1 i) (x0 x1 x2 x3 x4 x5 x6 : Vec F S16x256 .f32) (x7 x8 x9 x10 x11 x12 : Vec F S16x128 .f32) (xs0 xs1 xs2 : Vec F S16x1 .f32) :
    out0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2 = k0_pay6 (k0_pay3 (k0_pay13 x4) xs2) (k0_pay1 (tileIou x0 x1 x2 x3 x4 x5 x7 x8 x9 x10 x11 x12) xs0) := by
  unfold out0_C_14
  rw [View.read_writes_eq_canon _ _ _ (cover0_C_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xs0 xs1 xs2)]
  unfold kernelRun0_C
  dsimp only
  sl_unfold_words
  rw [View.canon_unit_zero hz]
  simp only [View.readCov_unit_zero (S := S16x1) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg17.read_unread, harg18.read_unread, harg19.read_unread, View.ld_unit_zero (S := S16x1) hz, View.ld_unit_zero (S := S16x256) hz, View.ld_unit_zero (S := S16x128) hz]

end Cert.KernelIdeal.Pieces
end
-- ==== Proof.TileSpec.lean ====
/-
  One tile of the pairwise maximum, stated on its blocks: sixteen batch rows, 256 predictions and 128 ground-truth rows
  per batch row. The blocks are, for the predictions, x1, y1, x2, y2, the person mask, the area and the score; for the
  ground truth, x1, y1, x2, y2, the mask and the area.
-/
import Idealize.ShloMosaic.PureOps.Ideal
import Idealize.ShloMosaic.Lib.ValueIdx

noncomputable section

open Classical

namespace Cert.IouTile

open Idealize.ShloMosaic Idealize.ShloMosaic.ValueIdx

/-- A block of 16 × 256 extended reals. -/
abbrev B256 := (⟨2, ![16, 256]⟩ : Shape).Idx → EReal
/-- A block of 16 × 128 extended reals. -/
abbrev B128 := (⟨2, ![16, 128]⟩ : Shape).Idx → EReal

/-- The intersection's area of prediction `q` and ground-truth row `g` of batch row `r`: the clipped overlap along x
    times the clipped overlap along y. -/
def pairInter (px1 py1 px2 py2 : B256) (gx1 gy1 gx2 gy2 : B128) (r : Fin 16) (q : Fin 256) (g : Fin 128) : EReal :=
  max (min (gx2 (ix2 r g)) (px2 (ix2 r q)) - max (gx1 (ix2 r g)) (px1 (ix2 r q))) 0
    * max (min (gy2 (ix2 r g)) (py2 (ix2 r q)) - max (gy1 (ix2 r g)) (py1 (ix2 r q))) 0

/-- The masked quotient of the pair: the product of the two masks times intersection over union, the union (the two
    areas minus the intersection) replaced by 1 where it is 0. -/
def pairK (px1 py1 px2 py2 vp ap : B256) (gx1 gy1 gx2 gy2 vg ag : B128) (r : Fin 16) (q : Fin 256) (g : Fin 128) : EReal :=
  (vp (ix2 r q) * vg (ix2 r g))
    * Ideal.div (pairInter px1 py1 px2 py2 gx1 gy1 gx2 gy2 r q g)
        (if ap (ix2 r q) + ag (ix2 r g) - pairInter px1 py1 px2 py2 gx1 gy1 gx2 gy2 r q g = 0 then 1
         else ap (ix2 r q) + ag (ix2 r g) - pairInter px1 py1 px2 py2 gx1 gy1 gx2 gy2 r q g)

/-- The masked score of prediction `q` of batch row `r`: the score where the mask exceeds 1/2, else -1. -/
def maskedScore (vp sc : B256) (r : Fin 16) (q : Fin 256) : EReal :=
  if ((1 / 2 : ℝ) : EReal) < vp (ix2 r q) then sc (ix2 r q) else ((-1 : ℝ) : EReal)

end Cert.IouTile

end
-- ==== Proof.Payloads.lean ====
/-
  The kernel body's arithmetic, read index by index on the extended reals.

  Each payload is a short chain of pointwise operations, layout operations (a cast that adds a unit axis, a broadcast
  along it) and maxima along one axis. Read at an index, a pointwise operation is the operation on the entries, a layout
  operation is the operand at one index, and a maximum along an axis from -∞ lies below c exactly when every entry
  along the axis does.
-/
import proofs.«131841_j54657753808935_1_alg».proof.Proof.Spec
import proofs.«131841_j54657753808935_1_alg».proof.Proof.TileSpec
import proofs.«131841_j54657753808935_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open Classical

namespace Cert.KernelIdeal.Payloads

open Cert.KernelIdeal Cert.KernelIdeal.Gen Idealize.ShloMosaic Idealize.ShloMosaic.ValueIdx

/-! ## A selection on a comparison -/

/-- Selecting on "y < x" as a one-bit word is the conditional on y < x. -/
theorem select_ogt {α : Type} (x y : EReal) (a b : α) :
    Scalar.select (Ideal.cmp .ogt x y) a b = if y < x then a else b := by
  unfold Scalar.select Ideal.cmp
  by_cases h : y < x <;> simp [h]

/-- Selecting on "x = y" as a one-bit word is the conditional on x = y. -/
theorem select_oeq {α : Type} (x y : EReal) (a b : α) :
    Scalar.select (Ideal.cmp .oeq x y) a b = if x = y then a else b := by
  unfold Scalar.select Ideal.cmp
  by_cases h : x = y <;> simp [h]

/-! ## The payloads of one row's three running values -/

theorem pay1_apply (t : FVec Ideal S16x1 .f32) (a : Vec Ideal S16x1 .f32) (r : Fin 16) :
    k0_pay1 (F := Ideal) t a (ix2 r (0 : Fin 1)) = max (a (ix2 r (0 : Fin 1))) (t (ix2 r (0 : Fin 1))) := by
  unfold k0_pay1
  rw [shapeCast_self]
  rfl

theorem pay7_apply (r : Fin 16) : k0_pay7 (F := Ideal) (ix2 r (0 : Fin 1)) = 0 := by
  unfold k0_pay7
  rw [shapeCast_self]
  exact Cert.IouSpec.word_zero

theorem pay8_apply (r : Fin 16) : k0_pay8 (F := Ideal) (ix2 r (0 : Fin 1)) = ((-1 : ℝ) : EReal) := by
  unfold k0_pay8
  rw [shapeCast_self]
  exact Cert.IouSpec.word_negOne

theorem pay9_apply (r : Fin 16) : k0_pay9 (F := Ideal) (ix2 r (0 : Fin 1)) = 0 := by
  unfold k0_pay9
  rw [shapeCast_self]
  exact Cert.IouSpec.word_zero

theorem pay5_apply (h s : Vec Ideal S16x1 .f32) (r : Fin 16) :
    k0_pay5 (F := Ideal) h s (ix2 r (0 : Fin 1))
      = if ((1 / 2 : ℝ) : EReal) < h (ix2 r (0 : Fin 1)) then Ideal.sqrt (s (ix2 r (0 : Fin 1)) + 1) else 0 := by
  unfold k0_pay5 k0_pay4
  dsimp only
  refine (select_ogt (h (ix2 r (0 : Fin 1))) (Ideal.ofBits .f32 0x3F000000#32) _ _).trans ?_
  rw [Cert.IouSpec.word_half]
  show (if _ then Ideal.sqrt (s (ix2 r (0 : Fin 1)) + Ideal.ofBits .f32 0x3F800000#32) else Ideal.ofBits .f32 0x00000000#32) = _
  rw [Cert.IouSpec.word_one, Cert.IouSpec.word_zero]

theorem pay6_apply (h v : Vec Ideal S16x1 .f32) (r : Fin 16) :
    k0_pay6 (F := Ideal) h v (ix2 r (0 : Fin 1))
      = if ((1 / 2 : ℝ) : EReal) < h (ix2 r (0 : Fin 1)) then v (ix2 r (0 : Fin 1)) else 0 := by
  unfold k0_pay6 k0_pay4
  dsimp only
  refine (select_ogt (h (ix2 r (0 : Fin 1))) (Ideal.ofBits .f32 0x3F000000#32) _ _).trans ?_
  rw [Cert.IouSpec.word_half]
  show (if _ then v (ix2 r (0 : Fin 1)) else Ideal.ofBits .f32 0x00000000#32) = _
  rw [Cert.IouSpec.word_zero]

/-! ## Layout operations at an index, by coordinates -/

section Layout
variable {α : Type}

/-- A column of 16 cast to 16 × 1 reads, at (r, u), the operand at r. -/
theorem cast_16_16x1 (x : S16.Idx → α) (h : S16.ShapeCasts S16x1) (r : Fin 16) (u : Fin 1) :
    shapeCast S16x1 x h (ix2 r u) = x (ix1 r) :=
  shapeCast_apply x h _ _ (by
    have hu : u.val = 0 := by omega
    rw [Shape.rowMajor_val_two, Shape.rowMajor_val_one]
    show r.val = r.val * 1 + u.val
    omega)

/-- A 16 × 256 block cast to 16 × 256 × 1 reads, at (r, q, u), the operand at (r, q). -/
theorem cast_16x256_16x256x1 (x : S16x256.Idx → α) (h : S16x256.ShapeCasts S16x256x1) (r : Fin 16) (q : Fin 256)
    (u : Fin 1) : shapeCast S16x256x1 x h (ix3 r q u) = x (ix2 r q) :=
  shapeCast_apply x h _ _ (by
    have hu : u.val = 0 := by omega
    rw [Shape.rowMajor_val_three, Shape.rowMajor_val_two]
    show r.val * 256 + q.val = (r.val * 256 + q.val) * 1 + u.val
    omega)

/-- A 16 × 128 block cast to 16 × 1 × 128 reads, at (r, u, g), the operand at (r, g). -/
theorem cast_16x128_16x1x128 (x : S16x128.Idx → α) (h : S16x128.ShapeCasts S16x1x128) (r : Fin 16) (u : Fin 1)
    (g : Fin 128) : shapeCast S16x1x128 x h (ix3 r u g) = x (ix2 r g) :=
  shapeCast_apply x h _ _ (by
    have hu : u.val = 0 := by omega
    rw [Shape.rowMajor_val_three, Shape.rowMajor_val_two]
    show r.val * 128 + g.val = (r.val * 1 + u.val) * 128 + g.val
    omega)

/-- A 16 × 256 × 1 block broadcast to 16 × 256 × 128 reads, at (r, q, g), the operand at (r, q, 0). -/
theorem bcast_16x256x1 (x : S16x256x1.Idx → α) (h : S16x256x1.Broadcasts S16x256x128) (r : Fin 16) (q : Fin 256)
    (g : Fin 128) : broadcastTo S16x256x128 x h (ix3 r q g) = x (ix3 r q (0 : Fin 1)) := by
  refine broadcastTo_apply x h (ix3 r q g) (ix3 r q (0 : Fin 1)) fun ax => ?_
  match ax with
  | ⟨0, _⟩ => rfl
  | ⟨1, _⟩ => rfl
  | ⟨2, _⟩ => rfl

/-- A 16 × 1 × 128 block broadcast to 16 × 256 × 128 reads, at (r, q, g), the operand at (r, 0, g). -/
theorem bcast_16x1x128 (x : S16x1x128.Idx → α) (h : S16x1x128.Broadcasts S16x256x128) (r : Fin 16) (q : Fin 256)
    (g : Fin 128) : broadcastTo S16x256x128 x h (ix3 r q g) = x (ix3 r (0 : Fin 1) g) := by
  refine broadcastTo_apply x h (ix3 r q g) (ix3 r (0 : Fin 1) g) fun ax => ?_
  match ax with
  | ⟨0, _⟩ => rfl
  | ⟨1, _⟩ => rfl
  | ⟨2, _⟩ => rfl

/-- A 16 × 256 block, with a unit axis added last and broadcast along it, reads at (r, q, g) the block at (r, q). -/
theorem spreadP (x : S16x256.Idx → α) (hc : S16x256.ShapeCasts S16x256x1) (hb : S16x256x1.Broadcasts S16x256x128)
    (r : Fin 16) (q : Fin 256) (g : Fin 128) :
    broadcastTo S16x256x128 (shapeCast S16x256x1 x hc) hb (ix3 r q g) = x (ix2 r q) :=
  (bcast_16x256x1 _ hb r q g).trans (cast_16x256_16x256x1 x hc r q 0)

/-- A 16 × 128 block, with a unit axis added in the middle and broadcast along it, reads at (r, q, g) the block at
    (r, g). -/
theorem spreadG (x : S16x128.Idx → α) (hc : S16x128.ShapeCasts S16x1x128) (hb : S16x1x128.Broadcasts S16x256x128)
    (r : Fin 16) (q : Fin 256) (g : Fin 128) :
    broadcastTo S16x256x128 (shapeCast S16x1x128 x hc) hb (ix3 r q g) = x (ix2 r g) :=
  (bcast_16x1x128 _ hb r q g).trans (cast_16x128_16x1x128 x hc r 0 g)

end Layout

/-! ## A maximum along one axis, from -∞, by its upper bounds -/

section Reductions

/-- The row index r with q put back on the last axis is the index (r, q). -/
theorem lift_row (h : S16x256.Reduces [1] S16) (r : Fin 16) (q : Fin 256) : h.lift (ix1 r) q = ix2 r q := by
  funext a
  match a with
  | ⟨0, _⟩ => exact Fin.ext rfl
  | ⟨1, _⟩ => exact Fin.ext rfl

/-- The index (r, q) with g put back on the last axis is the index (r, q, g). -/
theorem lift_pair (h : S16x256x128.Reduces [2] S16x256) (r : Fin 16) (q : Fin 256) (g : Fin 128) :
    h.lift (ix2 r q) g = ix3 r q g := by
  funext a
  match a with
  | ⟨0, _⟩ => exact Fin.ext rfl
  | ⟨1, _⟩ => exact Fin.ext rfl
  | ⟨2, _⟩ => exact Fin.ext rfl

/-- The maximum along a row of a 16 × 256 block, from -∞, lies below c exactly when every entry of the row does. -/
theorem rowMax_le_iff (src : FVec Ideal S16x256 .f32) (h : S16x256.Reduces [1] S16) (hφ : FKind.Formats .f32)
    (hacc : (0xFF800000#32 : BitVec 32) = FKind.maximumf.neutral .f32 hφ) (r : Fin 16) (c : EReal) :
    multiReduction .maximumf [1] S16 src 0xFF800000#32 h hφ hacc (ix1 r) ≤ c ↔ ∀ q : Fin 256, src (ix2 r q) ≤ c := by
  rw [Ideal.multiReduction_maximumf_single src _ h hφ hacc (ix1 r)]
  refine (Cert.IouSpec.fold_max_le_iff _ _ c).trans ?_
  constructor
  · rintro ⟨_, hq⟩ q
    exact (congrArg src (lift_row h r q)).symm.trans_le (hq q)
  · intro hq
    refine ⟨?_, fun q => ?_⟩
    · show Ideal.ofBits .f32 0xFF800000#32 ≤ c
      rw [Cert.IouSpec.word_negInf]; exact bot_le
    · exact (congrArg src (lift_row h r q)).trans_le (hq q)

/-- The maximum along the last axis of a 16 × 256 × 128 block, from -∞, lies below c exactly when every entry along
    the axis does. -/
theorem laneMax_le_iff (src : FVec Ideal S16x256x128 .f32) (h : S16x256x128.Reduces [2] S16x256)
    (hφ : FKind.Formats .f32) (hacc : (0xFF800000#32 : BitVec 32) = FKind.maximumf.neutral .f32 hφ) (r : Fin 16)
    (q : Fin 256) (c : EReal) :
    multiReduction .maximumf [2] S16x256 src 0xFF800000#32 h hφ hacc (ix2 r q) ≤ c
      ↔ ∀ g : Fin 128, src (ix3 r q g) ≤ c := by
  rw [Ideal.multiReduction_maximumf_single src _ h hφ hacc (ix2 r q)]
  refine (Cert.IouSpec.fold_max_le_iff _ _ c).trans ?_
  constructor
  · rintro ⟨_, hg⟩ g
    exact (congrArg src (lift_pair h r q g)).symm.trans_le (hg g)
  · intro hg
    refine ⟨?_, fun g => ?_⟩
    · show Ideal.ofBits .f32 0xFF800000#32 ≤ c
      rw [Cert.IouSpec.word_negInf]; exact bot_le
    · exact (congrArg src (lift_pair h r q g)).trans_le (hg g)

end Reductions

/-! ## The score and the person column of one tile -/

theorem pay2_apply (s : FVec Ideal S16 .f32) (a : Vec Ideal S16x1 .f32) (r : Fin 16) :
    k0_pay2 (F := Ideal) s a (ix2 r (0 : Fin 1)) = max (a (ix2 r (0 : Fin 1))) (s (ix1 r)) := by
  unfold k0_pay2
  rw [shapeCast_self, maximumf_apply, cast_16_16x1]

theorem pay3_le_iff (x4 : Vec Ideal S16x256 .f32) (a : Vec Ideal S16x1 .f32) (r : Fin 16) (c : EReal) :
    k0_pay3 (F := Ideal) (k0_pay13 x4) a (ix2 r (0 : Fin 1)) ≤ c
      ↔ a (ix2 r (0 : Fin 1)) ≤ c ∧ ∀ q : Fin 256, x4 (ix2 r q) ≤ c := by
  unfold k0_pay3 k0_pay13
  rw [shapeCast_self, shapeCast_self, maximumf_apply, cast_16_16x1]
  refine max_le_iff.trans (and_congr Iff.rfl ?_)
  exact rowMax_le_iff x4 _ _ _ r c

theorem tileScore_le_iff (x4 x6 : Vec Ideal S16x256 .f32) (r : Fin 16) (c : EReal) :
    k0_pay23 (F := Ideal) (k0_pay13 x4) x6 (ix1 r) ≤ c ↔ ∀ q : Fin 256, Cert.IouTile.maskedScore x4 x6 r q ≤ c := by
  unfold k0_pay23 k0_pay13
  rw [shapeCast_self]
  refine (rowMax_le_iff _ _ _ _ r c).trans (forall_congr' fun q => ?_)
  have e : select (cmpf .ogt x4 (broadcast S16x256 (Scalar.ofBits (F := Ideal) .f32 0x3F000000#32))) x6
        (broadcast S16x256 (Scalar.ofBits (F := Ideal) .f32 0xBF800000#32)) (ix2 r q)
      = Cert.IouTile.maskedScore x4 x6 r q := by
    refine (select_ogt (x4 (ix2 r q)) (Ideal.ofBits .f32 0x3F000000#32) _ _).trans ?_
    rw [Cert.IouSpec.word_half]
    show (if _ then x6 (ix2 r q) else Ideal.ofBits .f32 0xBF800000#32) = _
    rw [Cert.IouSpec.word_negOne]
    rfl
  rw [e]

/-! ## The masked quotients of one tile -/

theorem tileIou_le_iff (x0 x1 x2 x3 x4 x5 : Vec Ideal S16x256 .f32) (x7 x8 x9 x10 x11 x12 : Vec Ideal S16x128 .f32)
    (r : Fin 16) (c : EReal) :
    k0_pay22 (F := Ideal) (k0_pay10 x1) (k0_pay11 x2) (k0_pay12 x3) (k0_pay13 x4) (k0_pay14 x5) (k0_pay15 x7)
        (k0_pay16 x8) (k0_pay17 x9) (k0_pay18 x10) (k0_pay19 x11) (k0_pay20 x12) (k0_pay21 x0) (ix2 r (0 : Fin 1)) ≤ c
      ↔ ∀ (q : Fin 256) (g : Fin 128), Cert.IouTile.pairK x0 x1 x2 x3 x4 x5 x7 x8 x9 x10 x11 x12 r q g ≤ c := by
  unfold k0_pay22 k0_pay10 k0_pay11 k0_pay12 k0_pay13 k0_pay14 k0_pay15 k0_pay16 k0_pay17 k0_pay18 k0_pay19 k0_pay20
    k0_pay21
  simp only [shapeCast_self]
  rw [cast_16_16x1]
  refine (rowMax_le_iff _ _ _ _ r c).trans (forall_congr' fun q => ?_)
  refine (laneMax_le_iff _ _ _ _ r q c).trans (forall_congr' fun g => ?_)
  apply Iff.of_eq
  congr 1
  simp only [mulf_apply, divf_apply, addf_apply, subf_apply, maximumf_apply, minimumf_apply, select_apply, cmpf_apply,
    broadcast_apply, spreadP, spreadG]
  simp only [Ideal.ofBits_def, Cert.IouSpec.word_zero, Cert.IouSpec.word_one]
  unfold Cert.IouTile.pairK Cert.IouTile.pairInter
  congr 1
  congr 1
  exact select_oeq _ _ _ _

end Cert.KernelIdeal.Payloads

end
-- ==== Proof.HostPrefix.lean ====
/-
  What the host operations before the region leave in the twelve arrays the region reads, at an index.

  Eight arrays are single coordinate columns of the two box arguments: a unit-width slice along the last axis followed
  by the cast that drops that axis, so entry (b, j) is the argument's entry (b, j, k). Two are masks read as the numbers
  0 and 1: "the class word is 0", and "the four coordinates of a ground-truth row do not sum to 0" (the sum taken from
  0). Two are box areas, (x2 - x1)(y2 - y1), over the coordinate columns. Each equals the specification's quantity of
  the same name.
-/
import proofs.«131841_j54657753808935_1_alg».proof.Proof.Gen.KernelIdeal.Frame
import proofs.«131841_j54657753808935_1_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open Classical

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo

variable {α : Type}

/-! ## Layout operations read at an index -/

/-- A rank-0 operand broadcast to any shape reads its one element at every index. -/
theorem bcast0_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A rank-3 array cut along its last axis to the one column `o` reads, at (a, j, u), the source at (a, j, o). -/
theorem slice3_col_apply {n0 n1 n2 : Nat} (o : Nat) (X : (⟨3, ![n0, n1, n2]⟩ : Shape).Idx → α)
    (h : (⟨3, ![n0, n1, n2]⟩ : Shape).Slices ![0, 0, o] ⟨3, ![n0, n1, 1]⟩) (a : Fin n0) (j : Fin n1) (u : Fin 1)
    (k : Fin n2) (hk : k.val = o) :
    extractStridedSlice ⟨3, ![n0, n1, 1]⟩ ![0, 0, o] X h (ix3 a j u) = X (ix3 a j k) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show k.val = o + u.val
      omega)

/-- An [a, b, 1] array cast to [a, b] reads, at (i, j), the operand at (i, j, 0). -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    omega)

/-- Column `o` of a rank-3 array, cut out and cast to a matrix, reads at (a, j) the source at (a, j, o). -/
theorem col_apply {n0 n1 n2 : Nat} (o : Nat) (X : (⟨3, ![n0, n1, n2]⟩ : Shape).Idx → α)
    (hs : (⟨3, ![n0, n1, n2]⟩ : Shape).Slices ![0, 0, o] ⟨3, ![n0, n1, 1]⟩)
    (hc : (⟨3, ![n0, n1, 1]⟩ : Shape).ShapeCasts ⟨2, ![n0, n1]⟩) (a : Fin n0) (j : Fin n1) (k : Fin n2) (hk : k.val = o) :
    shapeCast ⟨2, ![n0, n1]⟩ (extractStridedSlice ⟨3, ![n0, n1, 1]⟩ ![0, 0, o] X hs) hc (ix2 a j) = X (ix3 a j k) :=
  (shapeCast_ab1_ab_apply _ hc a j).trans (slice3_col_apply o X hs a j 0 k hk)

/-! ## Words read as numbers -/

/-- A one-bit word that is 1 exactly when `P` holds, read as an unsigned number, is 1 if `P` and 0 otherwise. -/
theorem uitofp_bit (w : BitVec 1) (P : Prop) [Decidable P] (h : w = 1#1 ↔ P) :
    FloatOps.uitofp (F := Ideal) .f32 w = if P then (1 : EReal) else 0 := by
  show (((w.toNat : ℕ) : ℝ) : EReal) = _
  by_cases hp : P
  · rw [if_pos hp, h.2 hp]
    simp
  · rw [if_neg hp, eq_zero_of_ne_one (fun h1 => hp (h.1 h1))]
    simp

/-- "Not equal" comes out 1 exactly when the two differ. -/
theorem cmp_une_eq_one (x y : EReal) : Ideal.cmp .une x y = 1#1 ↔ x ≠ y := by
  by_cases h : x = y
  · simp [Ideal.cmp, h]
  · simp [Ideal.cmp, h]

/-! ## The row sum of a ground-truth box -/

/-- Result index (b, g) with coordinate `k` put back on the last axis is (b, g, k). -/
theorem lift_ix3 (h : S32x128x4.Reduces [2] S32x128) (b : Fin 32) (g : Fin 128) (k : Fin (S32x128x4.size 2)) :
    h.lift (ix2 b g) k = ix3 b g (⟨k.val, k.isLt⟩ : Fin 4) := by
  funext a; apply Fin.ext
  fin_cases a <;> rfl

/-- The sum over the last axis from the word 0, at (b, g), is the specification's coordinate sum. -/
theorem rowSum_apply (x : FVec Ideal S32x128x4 .f32) (h' : S32x128x4.ReducesTo [2] S32x128) (hu : 0 < S_.numel)
    (b : Fin 32) (g : Fin 128) :
    Host.reduceAdd (F := Ideal) x (constant (F := Ideal) S_ .f32 0x00000000#32) h' hu (ix2 b g)
      = Cert.IouSpec.gtSum x b g := by
  have h : S32x128x4.Reduces [2] S32x128 := by decide
  show Ideal.hostReduceAdd h' x (Ideal.ofBits .f32 0x00000000#32) (ix2 b g) = _
  rw [Ideal.hostReduceAdd_single h' h, Cert.IouSpec.word_zero]
  unfold Cert.IouSpec.gtSum
  refine congrArg (fun t => (0 : EReal) + t) ?_
  exact Finset.sum_congr rfl (fun k _ => congrArg x (lift_ix3 h b g k))

/-- The bit of "R differs from B" at an index, read as a number, is 1 where they differ and 0 elsewhere. -/
theorem uneMask_apply {s : Shape} (R B : FVec Ideal s .f32) (i : s.Idx) (P : Prop) [Decidable P] (h : R i ≠ B i ↔ P) :
    uitofp (F := Ideal) .f32 (cmpf (F := Ideal) .une R B) i = if P then (1 : EReal) else 0 :=
  uitofp_bit _ _ ((cmp_une_eq_one (R i) (B i)).trans h)

/-- The ground-truth mask at (b, g) is the specification's: 1 where the row's coordinate sum is not 0. -/
theorem gtMask_apply (x : FVec Ideal S32x128x4 .f32) (h' : S32x128x4.ReducesTo [2] S32x128) (hu : 0 < S_.numel)
    (hb : S_.BroadcastsInDim S32x128 (![] : Fin 0 → Fin S32x128.rank)) (b : Fin 32) (g : Fin 128) :
    uitofp (F := Ideal) .f32 (cmpf (F := Ideal) .une
        (Host.reduceAdd (F := Ideal) x (constant (F := Ideal) S_ .f32 0x00000000#32) h' hu)
        (broadcastInDim S32x128 ![] hb (constant (F := Ideal) S_ .f32 0x00000000#32))) (ix2 b g)
      = Cert.IouSpec.gtF x b g := by
  unfold Cert.IouSpec.gtF
  refine uneMask_apply _ _ _ _ ?_
  rw [rowSum_apply, bcast0_apply, constant_apply, Cert.IouSpec.word_zero]
  exact Iff.rfl

/-- (x2 - x1)(y2 - y1) over the four coordinate columns of a box array, at (a, j). -/
theorem area_apply {n1 : Nat} (X : FVec Ideal ⟨3, ![32, n1, 4]⟩ .f32)
    (h0 : (⟨3, ![32, n1, 4]⟩ : Shape).Slices ![0, 0, 0] ⟨3, ![32, n1, 1]⟩)
    (h1 : (⟨3, ![32, n1, 4]⟩ : Shape).Slices ![0, 0, 1] ⟨3, ![32, n1, 1]⟩)
    (h2 : (⟨3, ![32, n1, 4]⟩ : Shape).Slices ![0, 0, 2] ⟨3, ![32, n1, 1]⟩)
    (h3 : (⟨3, ![32, n1, 4]⟩ : Shape).Slices ![0, 0, 3] ⟨3, ![32, n1, 1]⟩)
    (hc : (⟨3, ![32, n1, 1]⟩ : Shape).ShapeCasts ⟨2, ![32, n1]⟩) (a : Fin 32) (j : Fin n1) :
    mulf (F := Ideal) (φ := .f32)
      (subf (F := Ideal) (φ := .f32)
        (shapeCast ⟨2, ![32, n1]⟩ (extractStridedSlice ⟨3, ![32, n1, 1]⟩ ![0, 0, 2] X h2) hc : FVec Ideal ⟨2, ![32, n1]⟩ .f32)
        (shapeCast ⟨2, ![32, n1]⟩ (extractStridedSlice ⟨3, ![32, n1, 1]⟩ ![0, 0, 0] X h0) hc : FVec Ideal ⟨2, ![32, n1]⟩ .f32))
      (subf (F := Ideal) (φ := .f32)
        (shapeCast ⟨2, ![32, n1]⟩ (extractStridedSlice ⟨3, ![32, n1, 1]⟩ ![0, 0, 3] X h3) hc : FVec Ideal ⟨2, ![32, n1]⟩ .f32)
        (shapeCast ⟨2, ![32, n1]⟩ (extractStridedSlice ⟨3, ![32, n1, 1]⟩ ![0, 0, 1] X h1) hc : FVec Ideal ⟨2, ![32, n1]⟩ .f32))
      (ix2 a j)
      = (X (ix3 a j 2) - X (ix3 a j 0)) * (X (ix3 a j 3) - X (ix3 a j 1)) := by
  rw [mulf_apply, subf_apply, subf_apply, col_apply 2 X h2 hc a j 2 rfl, col_apply 0 X h0 hc a j 0 rfl,
    col_apply 3 X h3 hc a j 3 rfl, col_apply 1 X h1 hc a j 1 rfl]

/-! ## The twelve arrays the region finds -/

section Arrays

variable (m : (ℓ : Loc nD τ sig) → Buf (Elt Ideal) ℓ) (c : Dev nD)

/-- The array is column 0 of argument 0, cut out and cast to a matrix. -/
theorem v1_eq : (V m c main_v1 : S32x2048.Idx → EReal) =
    shapeCast S32x2048 (extractStridedSlice S32x2048x1 ![0, 0, 0] (m ((c.tc : Thread nD τ).loc main_arg0))
        Facts₀.slices_S32x2048x4_S32x2048x1_0_0_0) Facts₀.shapeCasts_S32x2048x1_S32x2048 := by
  show StableHlo.after hostOps0 (fun b => m (c, b)) (Proc.devRef .tc main_v1) = _
  after_results
  first | done | rfl

theorem v1_apply (b : Fin 32) (p : Fin 2048) :
    V m c main_v1 (ix2 b p) = m ((c.tc : Thread nD τ).loc main_arg0) (ix3 b p 0) :=
  (congrFun (v1_eq m c) (ix2 b p)).trans (col_apply 0 _ _ _ b p 0 rfl)

/-- The array is column 1 of argument 0, cut out and cast to a matrix. -/
theorem v3_eq : (V m c main_v3 : S32x2048.Idx → EReal) =
    shapeCast S32x2048 (extractStridedSlice S32x2048x1 ![0, 0, 1] (m ((c.tc : Thread nD τ).loc main_arg0))
        Facts₀.slices_S32x2048x4_S32x2048x1_0_0_1) Facts₀.shapeCasts_S32x2048x1_S32x2048 := by
  show StableHlo.after hostOps0 (fun b => m (c, b)) (Proc.devRef .tc main_v3) = _
  after_results
  first | done | rfl

theorem v3_apply (b : Fin 32) (p : Fin 2048) :
    V m c main_v3 (ix2 b p) = m ((c.tc : Thread nD τ).loc main_arg0) (ix3 b p 1) :=
  (congrFun (v3_eq m c) (ix2 b p)).trans (col_apply 1 _ _ _ b p 1 rfl)

/-- The array is column 2 of argument 0, cut out and cast to a matrix. -/
theorem v5_eq : (V m c main_v5 : S32x2048.Idx → EReal) =
    shapeCast S32x2048 (extractStridedSlice S32x2048x1 ![0, 0, 2] (m ((c.tc : Thread nD τ).loc main_arg0))
        Facts₀.slices_S32x2048x4_S32x2048x1_0_0_2) Facts₀.shapeCasts_S32x2048x1_S32x2048 := by
  show StableHlo.after hostOps0 (fun b => m (c, b)) (Proc.devRef .tc main_v5) = _
  after_results
  first | done | rfl

theorem v5_apply (b : Fin 32) (p : Fin 2048) :
    V m c main_v5 (ix2 b p) = m ((c.tc : Thread nD τ).loc main_arg0) (ix3 b p 2) :=
  (congrFun (v5_eq m c) (ix2 b p)).trans (col_apply 2 _ _ _ b p 2 rfl)

/-- The array is column 3 of argument 0, cut out and cast to a matrix. -/
theorem v7_eq : (V m c main_v7 : S32x2048.Idx → EReal) =
    shapeCast S32x2048 (extractStridedSlice S32x2048x1 ![0, 0, 3] (m ((c.tc : Thread nD τ).loc main_arg0))
        Facts₀.slices_S32x2048x4_S32x2048x1_0_0_3) Facts₀.shapeCasts_S32x2048x1_S32x2048 := by
  show StableHlo.after hostOps0 (fun b => m (c, b)) (Proc.devRef .tc main_v7) = _
  after_results
  first | done | rfl

theorem v7_apply (b : Fin 32) (p : Fin 2048) :
    V m c main_v7 (ix2 b p) = m ((c.tc : Thread nD τ).loc main_arg0) (ix3 b p 3) :=
  (congrFun (v7_eq m c) (ix2 b p)).trans (col_apply 3 _ _ _ b p 3 rfl)

/-- The array is column 0 of argument 3, cut out and cast to a matrix. -/
theorem v9_eq : (V m c main_v9 : S32x128.Idx → EReal) =
    shapeCast S32x128 (extractStridedSlice S32x128x1 ![0, 0, 0] (m ((c.tc : Thread nD τ).loc main_arg3))
        Facts₀.slices_S32x128x4_S32x128x1_0_0_0) Facts₀.shapeCasts_S32x128x1_S32x128 := by
  show StableHlo.after hostOps0 (fun b => m (c, b)) (Proc.devRef .tc main_v9) = _
  after_results
  first | done | rfl

theorem v9_apply (b : Fin 32) (g : Fin 128) :
    V m c main_v9 (ix2 b g) = m ((c.tc : Thread nD τ).loc main_arg3) (ix3 b g 0) :=
  (congrFun (v9_eq m c) (ix2 b g)).trans (col_apply 0 _ _ _ b g 0 rfl)

/-- The array is column 1 of argument 3, cut out and cast to a matrix. -/
theorem v11_eq : (V m c main_v11 : S32x128.Idx → EReal) =
    shapeCast S32x128 (extractStridedSlice S32x128x1 ![0, 0, 1] (m ((c.tc : Thread nD τ).loc main_arg3))
        Facts₀.slices_S32x128x4_S32x128x1_0_0_1) Facts₀.shapeCasts_S32x128x1_S32x128 := by
  show StableHlo.after hostOps0 (fun b => m (c, b)) (Proc.devRef .tc main_v11) = _
  after_results
  first | done | rfl

theorem v11_apply (b : Fin 32) (g : Fin 128) :
    V m c main_v11 (ix2 b g) = m ((c.tc : Thread nD τ).loc main_arg3) (ix3 b g 1) :=
  (congrFun (v11_eq m c) (ix2 b g)).trans (col_apply 1 _ _ _ b g 1 rfl)

/-- The array is column 2 of argument 3, cut out and cast to a matrix. -/
theorem v13_eq : (V m c main_v13 : S32x128.Idx → EReal) =
    shapeCast S32x128 (extractStridedSlice S32x128x1 ![0, 0, 2] (m ((c.tc : Thread nD τ).loc main_arg3))
        Facts₀.slices_S32x128x4_S32x128x1_0_0_2) Facts₀.shapeCasts_S32x128x1_S32x128 := by
  show StableHlo.after hostOps0 (fun b => m (c, b)) (Proc.devRef .tc main_v13) = _
  after_results
  first | done | rfl

theorem v13_apply (b : Fin 32) (g : Fin 128) :
    V m c main_v13 (ix2 b g) = m ((c.tc : Thread nD τ).loc main_arg3) (ix3 b g 2) :=
  (congrFun (v13_eq m c) (ix2 b g)).trans (col_apply 2 _ _ _ b g 2 rfl)

/-- The array is column 3 of argument 3, cut out and cast to a matrix. -/
theorem v15_eq : (V m c main_v15 : S32x128.Idx → EReal) =
    shapeCast S32x128 (extractStridedSlice S32x128x1 ![0, 0, 3] (m ((c.tc : Thread nD τ).loc main_arg3))
        Facts₀.slices_S32x128x4_S32x128x1_0_0_3) Facts₀.shapeCasts_S32x128x1_S32x128 := by
  show StableHlo.after hostOps0 (fun b => m (c, b)) (Proc.devRef .tc main_v15) = _
  after_results
  first | done | rfl

theorem v15_apply (b : Fin 32) (g : Fin 128) :
    V m c main_v15 (ix2 b g) = m ((c.tc : Thread nD τ).loc main_arg3) (ix3 b g 3) :=
  (congrFun (v15_eq m c) (ix2 b g)).trans (col_apply 3 _ _ _ b g 3 rfl)

/-- The person mask: the class word compared with the broadcast 0, the bit read as a number. -/
theorem v18_eq : (V m c main_v18 : S32x2048.Idx → EReal) =
    uitofp (F := Ideal) .f32 (cmpi .eq (m ((c.tc : Thread nD τ).loc main_arg2))
      (broadcastInDim S32x2048 ![] Facts₀.bcast_S_S32x2048 (constantI S_ 32 0#32))) := by
  show StableHlo.after hostOps0 (fun b => m (c, b)) (Proc.devRef .tc main_v18) = _
  after_results
  first | done | rfl

theorem v18_apply (b : Fin 32) (p : Fin 2048) :
    V m c main_v18 (ix2 b p) = Cert.IouSpec.personF (m ((c.tc : Thread nD τ).loc main_arg2)) b p := by
  refine (congrFun (v18_eq m c) (ix2 b p)).trans ?_
  show FloatOps.uitofp (F := Ideal) .f32 (IntOp.cmpi .eq ((m ((c.tc : Thread nD τ).loc main_arg2)) (ix2 b p)) 0#32) = _
  exact uitofp_bit _ _ IntOp.cmpi_eq

/-- The ground-truth mask: the row's coordinate sum compared "not equal" with the broadcast 0, the bit read as a number. -/
theorem v22_eq : (V m c main_v22 : S32x128.Idx → EReal) =
    uitofp (F := Ideal) .f32 (cmpf (F := Ideal) .une
      (Host.reduceAdd (F := Ideal) (m ((c.tc : Thread nD τ).loc main_arg3)) (constant (F := Ideal) S_ .f32 0x00000000#32)
        Facts₀.reducesTo_S32x128x4_S32x128_d2 Facts₀.h_S_)
      (broadcastInDim S32x128 ![] Facts₀.bcast_S_S32x128 (constant (F := Ideal) S_ .f32 0x00000000#32))) := by
  show StableHlo.after hostOps0 (fun b => m (c, b)) (Proc.devRef .tc main_v22) = _
  after_results
  first | done | rfl

theorem v22_apply (b : Fin 32) (g : Fin 128) :
    V m c main_v22 (ix2 b g) = Cert.IouSpec.gtF (m ((c.tc : Thread nD τ).loc main_arg3)) b g :=
  (congrFun (v22_eq m c) (ix2 b g)).trans (gtMask_apply _ _ _ _ b g)

/-- The predicted boxes' areas: (x2 - x1) (y2 - y1) over the four coordinate columns. -/
theorem v25_eq : (V m c main_v25 : S32x2048.Idx → EReal) =
    mulf (F := Ideal) (φ := .f32)
      (subf (F := Ideal) (φ := .f32) (shapeCast S32x2048 (extractStridedSlice S32x2048x1 ![0, 0, 2] (m ((c.tc : Thread nD τ).loc main_arg0))
        Facts₀.slices_S32x2048x4_S32x2048x1_0_0_2) Facts₀.shapeCasts_S32x2048x1_S32x2048 : FVec Ideal S32x2048 .f32)
        (shapeCast S32x2048 (extractStridedSlice S32x2048x1 ![0, 0, 0] (m ((c.tc : Thread nD τ).loc main_arg0))
        Facts₀.slices_S32x2048x4_S32x2048x1_0_0_0) Facts₀.shapeCasts_S32x2048x1_S32x2048 : FVec Ideal S32x2048 .f32))
      (subf (F := Ideal) (φ := .f32) (shapeCast S32x2048 (extractStridedSlice S32x2048x1 ![0, 0, 3] (m ((c.tc : Thread nD τ).loc main_arg0))
        Facts₀.slices_S32x2048x4_S32x2048x1_0_0_3) Facts₀.shapeCasts_S32x2048x1_S32x2048 : FVec Ideal S32x2048 .f32)
        (shapeCast S32x2048 (extractStridedSlice S32x2048x1 ![0, 0, 1] (m ((c.tc : Thread nD τ).loc main_arg0))
        Facts₀.slices_S32x2048x4_S32x2048x1_0_0_1) Facts₀.shapeCasts_S32x2048x1_S32x2048 : FVec Ideal S32x2048 .f32)) := by
  show StableHlo.after hostOps0 (fun b => m (c, b)) (Proc.devRef .tc main_v25) = _
  after_results_simp
  first | done | rfl

theorem v25_apply (b : Fin 32) (p : Fin 2048) :
    V m c main_v25 (ix2 b p) = Cert.IouSpec.areaP (m ((c.tc : Thread nD τ).loc main_arg0)) b p :=
  (congrFun (v25_eq m c) (ix2 b p)).trans (area_apply _ _ _ _ _ _ b p)

/-- The ground-truth boxes' areas. -/
theorem v28_eq : (V m c main_v28 : S32x128.Idx → EReal) =
    mulf (F := Ideal) (φ := .f32)
      (subf (F := Ideal) (φ := .f32) (shapeCast S32x128 (extractStridedSlice S32x128x1 ![0, 0, 2] (m ((c.tc : Thread nD τ).loc main_arg3))
        Facts₀.slices_S32x128x4_S32x128x1_0_0_2) Facts₀.shapeCasts_S32x128x1_S32x128 : FVec Ideal S32x128 .f32)
        (shapeCast S32x128 (extractStridedSlice S32x128x1 ![0, 0, 0] (m ((c.tc : Thread nD τ).loc main_arg3))
        Facts₀.slices_S32x128x4_S32x128x1_0_0_0) Facts₀.shapeCasts_S32x128x1_S32x128 : FVec Ideal S32x128 .f32))
      (subf (F := Ideal) (φ := .f32) (shapeCast S32x128 (extractStridedSlice S32x128x1 ![0, 0, 3] (m ((c.tc : Thread nD τ).loc main_arg3))
        Facts₀.slices_S32x128x4_S32x128x1_0_0_3) Facts₀.shapeCasts_S32x128x1_S32x128 : FVec Ideal S32x128 .f32)
        (shapeCast S32x128 (extractStridedSlice S32x128x1 ![0, 0, 1] (m ((c.tc : Thread nD τ).loc main_arg3))
        Facts₀.slices_S32x128x4_S32x128x1_0_0_1) Facts₀.shapeCasts_S32x128x1_S32x128 : FVec Ideal S32x128 .f32)) := by
  show StableHlo.after hostOps0 (fun b => m (c, b)) (Proc.devRef .tc main_v28) = _
  after_results_simp
  first | done | rfl

theorem v28_apply (b : Fin 32) (g : Fin 128) :
    V m c main_v28 (ix2 b g) = Cert.IouSpec.areaG (m ((c.tc : Thread nD τ).loc main_arg3)) b g :=
  (congrFun (v28_eq m c) (ix2 b g)).trans (area_apply _ _ _ _ _ _ b g)

end Arrays

end Cert.KernelIdeal.HostPrefix

end
-- ==== Proof.Tiles.lean ====
import proofs.«131841_j54657753808935_1_alg».proof.Proof.Blocks
import proofs.«131841_j54657753808935_1_alg».proof.Proof.Spec
import proofs.«131841_j54657753808935_1_alg».proof.Proof.TileSpec
import proofs.«131841_j54657753808935_1_alg».proof.Proof.HostPrefix

set_option maxRecDepth 16384

noncomputable section

open Idealize.ShloMosaic Idealize.ShloMosaic.TcCoe Idealize.SL.Sem
open Idealize.ShloMosaic.Pipeline (Dat)

/-! One grid point's tile, in terms of the whole arrays: the blocks the body loads are the arrays' entries at the
    point's batch rows and predictions, so a tile's masked quotients, masked scores and person-mask entries are the
    specification's, at (row of r, prediction of q, g). -/

namespace Cert.KernelIdeal.Tiles
open Cert.KernelIdeal Cert.KernelIdeal.Gen Idealize.ShloMosaic.ValueIdx Cert.KernelIdeal.Blocks
variable (m : (ℓ : Loc nD τ sig) → Buf (Elt Ideal) ℓ) (c : Dev nD)

/-- A tile's masked quotient is the specification's masked quotient of the whole arrays. -/
theorem pairK_tile (t : Fin cfg0.N) (r : Fin 16) (q : Fin 256) (g : Fin 128) :
    Cert.IouTile.pairK (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) r q g
      = Cert.IouSpec.iouK (m ((c.tc : Thread nD τ).loc main_arg0)) (m ((c.tc : Thread nD τ).loc main_arg2)) (m ((c.tc : Thread nD τ).loc main_arg3)) (rowOf t r) (colOf t q) g := by
  unfold Cert.IouTile.pairK Cert.IouTile.pairInter Cert.IouSpec.iouK Cert.IouSpec.quot Cert.IouSpec.union Cert.IouSpec.inter
  rw [iblk0 m c t r q, iblk1 m c t r q, iblk2 m c t r q, iblk3 m c t r q, iblk4 m c t r q, iblk5 m c t r q,
    iblk7 m c t r g, iblk8 m c t r g, iblk9 m c t r g, iblk10 m c t r g, iblk11 m c t r g, iblk12 m c t r g,
    HostPrefix.v1_apply, HostPrefix.v3_apply, HostPrefix.v5_apply, HostPrefix.v7_apply, HostPrefix.v9_apply,
    HostPrefix.v11_apply, HostPrefix.v13_apply, HostPrefix.v15_apply, HostPrefix.v18_apply, HostPrefix.v22_apply,
    HostPrefix.v25_apply, HostPrefix.v28_apply]

/-- A tile's masked score is the specification's. -/
theorem maskedScore_tile (t : Fin cfg0.N) (r : Fin 16) (q : Fin 256) :
    Cert.IouTile.maskedScore (iblk m c 4 t) (iblk m c 6 t) r q
      = Cert.IouSpec.maskedK (m ((c.tc : Thread nD τ).loc main_arg1)) (m ((c.tc : Thread nD τ).loc main_arg2)) (rowOf t r) (colOf t q) := by
  unfold Cert.IouTile.maskedScore Cert.IouSpec.maskedK
  rw [iblk4 m c t r q, iblk6 m c t r q, HostPrefix.v18_apply, V_main_arg1]

/-- A tile's person-mask entry is the specification's. -/
theorem person_tile (t : Fin cfg0.N) (r : Fin 16) (q : Fin 256) :
    iblk m c 4 t (ix2 r q) = Cert.IouSpec.personF (m ((c.tc : Thread nD τ).loc main_arg2)) (rowOf t r) (colOf t q) := by
  rw [iblk4 m c t r q, HostPrefix.v18_apply]

end Cert.KernelIdeal.Tiles

end
-- ==== Proof.Accum.lean ====
import proofs.«131841_j54657753808935_1_alg».proof.Proof.InvDef
import proofs.«131841_j54657753808935_1_alg».proof.Proof.Pieces
import proofs.«131841_j54657753808935_1_alg».proof.Proof.Payloads
import proofs.«131841_j54657753808935_1_alg».proof.Proof.Tiles

set_option maxRecDepth 16384

noncomputable section

open Idealize.ShloMosaic Idealize.ShloMosaic.TcCoe Idealize.SL.Sem
open Idealize.ShloMosaic.Pipeline (Dat)

/-! The running maxima, point by point. Within a row block the eight tiles are visited in order; after tile `k` each of
    the three scratch rows holds, for batch row `r`, the maximum of its reset value and of the masked quantity over the
    predictions `0 … 256 (k + 1) - 1` — stated through upper bounds: a maximum lies below `cc` exactly when the reset
    value and every term do. -/

namespace Cert.KernelIdeal.Accum
open Cert.KernelIdeal Cert.KernelIdeal.Gen Idealize.ShloMosaic.ValueIdx Cert.KernelIdeal.Blocks Cert.KernelIdeal.Pieces
variable (m : (ℓ : Loc nD τ sig) → Buf (Elt Ideal) ℓ) (c : Dev nD)

/-- The predictions of one tile are those between its first and the next tile's first. -/
theorem forall_tile (t : Fin cfg0.N) (P : Fin 2048 → Prop) :
    (∀ q : Fin 256, P (colOf t q)) ↔ ∀ p : Fin 2048, 256 * (t.val % 8) ≤ p.val → p.val < 256 * (t.val % 8 + 1) → P p := by
  constructor
  · intro h p h1 h2
    have hq : p.val - 256 * (t.val % 8) < 256 := by omega
    have e : colOf t ⟨p.val - 256 * (t.val % 8), hq⟩ = p :=
      Fin.ext (by show 256 * (t.val % 8) + (p.val - 256 * (t.val % 8)) = p.val; omega)
    exact e ▸ h ⟨p.val - 256 * (t.val % 8), hq⟩
  · intro h q
    exact h (colOf t q) (by show 256 * (t.val % 8) ≤ 256 * (t.val % 8) + q.val; omega)
      (by show 256 * (t.val % 8) + q.val < 256 * (t.val % 8 + 1); have := q.isLt; omega)

/-- The predictions seen after one more tile: those seen before, and the tile's. -/
theorem range_step (k : ℕ) (P : Fin 2048 → Prop) (I : Prop) :
    ((I ∧ ∀ p : Fin 2048, p.val < 256 * k → P p) ∧ (∀ p : Fin 2048, 256 * k ≤ p.val → p.val < 256 * (k + 1) → P p))
      ↔ (I ∧ ∀ p : Fin 2048, p.val < 256 * (k + 1) → P p) := by
  constructor
  · rintro ⟨⟨hI, h1⟩, h2⟩
    refine ⟨hI, fun p hp => ?_⟩
    by_cases hh : p.val < 256 * k
    · exact h1 p hh
    · exact h2 p (by omega) hp
  · rintro ⟨hI, h⟩
    exact ⟨⟨hI, fun p hp => h p (by omega)⟩, fun p _ hp => h p hp⟩

/-- The first tile's predictions. -/
theorem range_first (P : Fin 2048 → Prop) (I : Prop) :
    (I ∧ ∀ p : Fin 2048, 256 * 0 ≤ p.val → p.val < 256 * (0 + 1) → P p) ↔ (I ∧ ∀ p : Fin 2048, p.val < 256 * (0 + 1) → P p) :=
  and_congr Iff.rfl ⟨fun h p hp => h p (by omega) hp, fun h p _ hp => h p hp⟩

/-- One tile folded into the quotient maximum `a`. -/
theorem step0 (t : Fin cfg0.N) (a : Vec Ideal S16x1 .f32) (r : Fin 16) (cc : EReal) :
    k0_pay1 (tileIou (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t)) a (ix2 r (0 : Fin 1)) ≤ cc
      ↔ a (ix2 r (0 : Fin 1)) ≤ cc ∧ ∀ p : Fin 2048, 256 * (t.val % 8) ≤ p.val → p.val < 256 * (t.val % 8 + 1) →
          ∀ g : Fin 128, Cert.IouSpec.iouK (m ((c.tc : Thread nD τ).loc main_arg0)) (m ((c.tc : Thread nD τ).loc main_arg2)) (m ((c.tc : Thread nD τ).loc main_arg3)) (rowOf t r) p g ≤ cc := by
  rw [Payloads.pay1_apply, max_le_iff]
  refine and_congr Iff.rfl ?_
  refine (Payloads.tileIou_le_iff (iblk m c 0 t) (iblk m c 1 t) (iblk m c 2 t) (iblk m c 3 t) (iblk m c 4 t) (iblk m c 5 t) (iblk m c 7 t) (iblk m c 8 t) (iblk m c 9 t) (iblk m c 10 t) (iblk m c 11 t) (iblk m c 12 t) r cc).trans ?_
  refine Iff.trans ?_ (forall_tile t fun p => ∀ g : Fin 128, Cert.IouSpec.iouK (m ((c.tc : Thread nD τ).loc main_arg0)) (m ((c.tc : Thread nD τ).loc main_arg2)) (m ((c.tc : Thread nD τ).loc main_arg3)) (rowOf t r) p g ≤ cc)
  refine forall_congr' fun q => forall_congr' fun g => ?_
  rw [Tiles.pairK_tile m c t r q g]

/-- One tile folded into the score maximum `a`. -/
theorem step1 (t : Fin cfg0.N) (a : Vec Ideal S16x1 .f32) (r : Fin 16) (cc : EReal) :
    k0_pay2 (tileScore (iblk m c 4 t) (iblk m c 6 t)) a (ix2 r (0 : Fin 1)) ≤ cc
      ↔ a (ix2 r (0 : Fin 1)) ≤ cc ∧ ∀ p : Fin 2048, 256 * (t.val % 8) ≤ p.val → p.val < 256 * (t.val % 8 + 1) →
          Cert.IouSpec.maskedK (m ((c.tc : Thread nD τ).loc main_arg1)) (m ((c.tc : Thread nD τ).loc main_arg2)) (rowOf t r) p ≤ cc := by
  rw [Payloads.pay2_apply, max_le_iff]
  refine and_congr Iff.rfl ?_
  refine (Payloads.tileScore_le_iff (iblk m c 4 t) (iblk m c 6 t) r cc).trans ?_
  refine Iff.trans ?_ (forall_tile t fun p => Cert.IouSpec.maskedK (m ((c.tc : Thread nD τ).loc main_arg1)) (m ((c.tc : Thread nD τ).loc main_arg2)) (rowOf t r) p ≤ cc)
  refine forall_congr' fun q => ?_
  rw [Tiles.maskedScore_tile m c t r q]

/-- One tile folded into the person-mask maximum `a`. -/
theorem step2 (t : Fin cfg0.N) (a : Vec Ideal S16x1 .f32) (r : Fin 16) (cc : EReal) :
    k0_pay3 (k0_pay13 (iblk m c 4 t)) a (ix2 r (0 : Fin 1)) ≤ cc
      ↔ a (ix2 r (0 : Fin 1)) ≤ cc ∧ ∀ p : Fin 2048, 256 * (t.val % 8) ≤ p.val → p.val < 256 * (t.val % 8 + 1) →
          Cert.IouSpec.personF (m ((c.tc : Thread nD τ).loc main_arg2)) (rowOf t r) p ≤ cc := by
  refine (Payloads.pay3_le_iff (iblk m c 4 t) a r cc).trans ?_
  refine and_congr Iff.rfl ?_
  refine Iff.trans ?_ (forall_tile t fun p => Cert.IouSpec.personF (m ((c.tc : Thread nD τ).loc main_arg2)) (rowOf t r) p ≤ cc)
  refine forall_congr' fun q => ?_
  rw [Tiles.person_tile m c t r q]

/-- At the first tile of a row block the maxima are the reset values folded with that tile. -/
theorem inv_first (n : ℕ) (h : n < cfg0.N) (h0 : n % 8 = 0) : Inv m c n h := by
  have h1 : ¬(⟨n, h⟩ : Fin cfg0.N).val % 8 = 7 := by dsimp only; omega
  intro r cc
  rw [outsAt0_A m c ⟨n, h⟩ h0 h1]
  dsimp only
  rw [Pieces.sout_A_0, Pieces.sout_A_1, Pieces.sout_A_2, step0 m c ⟨n, h⟩ _ r cc, step1 m c ⟨n, h⟩ _ r cc,
    step2 m c ⟨n, h⟩ _ r cc, Payloads.pay7_apply, Payloads.pay8_apply, Payloads.pay9_apply]
  dsimp only
  rw [h0]
  exact ⟨range_first _ _, range_first _ _, range_first _ _⟩

/-- At a later tile the maxima are what the tile before left, folded with this tile. -/
theorem inv_step (n : ℕ) (h : n + 1 < cfg0.N) (h0 : ¬(n + 1) % 8 = 0) (ih : Inv m c n (Nat.lt_of_succ_lt h)) :
    Inv m c (n + 1) h := by
  intro r cc
  have hrow : rowOf ⟨n, Nat.lt_of_succ_lt h⟩ r = rowOf ⟨n + 1, h⟩ r :=
    Fin.ext (by show 16 * (n / 8) + r.val = 16 * ((n + 1) / 8) + r.val; omega)
  have hk : n % 8 + 1 = (n + 1) % 8 := by omega
  obtain ⟨i0, i1, i2⟩ := ih r cc
  rw [hrow, hk] at i0 i1 i2
  have key : ∀ (a0 a1 a2 : Vec Ideal S16x1 .f32), a0 = (outsAt0 m c n (Nat.lt_of_succ_lt h)).2.2.1 →
      a1 = (outsAt0 m c n (Nat.lt_of_succ_lt h)).2.2.2.1 → a2 = (outsAt0 m c n (Nat.lt_of_succ_lt h)).2.2.2.2 →
      (k0_pay1 (tileIou (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 7 ⟨n + 1, h⟩) (iblk m c 8 ⟨n + 1, h⟩) (iblk m c 9 ⟨n + 1, h⟩) (iblk m c 10 ⟨n + 1, h⟩) (iblk m c 11 ⟨n + 1, h⟩) (iblk m c 12 ⟨n + 1, h⟩)) a0 (ix2 r (0 : Fin 1)) ≤ cc ↔ (0 : EReal) ≤ cc ∧ ∀ p : Fin 2048, p.val < 256 * ((n + 1) % 8 + 1) →
          ∀ g : Fin 128, Cert.IouSpec.iouK (m ((c.tc : Thread nD τ).loc main_arg0)) (m ((c.tc : Thread nD τ).loc main_arg2)) (m ((c.tc : Thread nD τ).loc main_arg3)) (rowOf ⟨n + 1, h⟩ r) p g ≤ cc)
      ∧ (k0_pay2 (tileScore (iblk m c 4 ⟨n + 1, h⟩) (iblk m c 6 ⟨n + 1, h⟩)) a1 (ix2 r (0 : Fin 1)) ≤ cc ↔ ((-1 : ℝ) : EReal) ≤ cc ∧ ∀ p : Fin 2048, p.val < 256 * ((n + 1) % 8 + 1) →
          Cert.IouSpec.maskedK (m ((c.tc : Thread nD τ).loc main_arg1)) (m ((c.tc : Thread nD τ).loc main_arg2)) (rowOf ⟨n + 1, h⟩ r) p ≤ cc)
      ∧ (k0_pay3 (k0_pay13 (iblk m c 4 ⟨n + 1, h⟩)) a2 (ix2 r (0 : Fin 1)) ≤ cc ↔ (0 : EReal) ≤ cc ∧ ∀ p : Fin 2048, p.val < 256 * ((n + 1) % 8 + 1) →
          Cert.IouSpec.personF (m ((c.tc : Thread nD τ).loc main_arg2)) (rowOf ⟨n + 1, h⟩ r) p ≤ cc) := by
    rintro a0 a1 a2 rfl rfl rfl
    rw [step0 m c ⟨n + 1, h⟩ _ r cc, step1 m c ⟨n + 1, h⟩ _ r cc, step2 m c ⟨n + 1, h⟩ _ r cc, i0, i1, i2]
    exact ⟨range_step _ _ _, range_step _ _ _, range_step _ _ _⟩
  by_cases h1 : (n + 1) % 8 = 7
  · rw [outsAt0_C m c ⟨n + 1, h⟩ h0 h1]
    dsimp only
    rw [Pieces.sout_C_0, Pieces.sout_C_1, Pieces.sout_C_2]
    exact key _ _ _ rfl rfl rfl
  · rw [outsAt0_B m c ⟨n + 1, h⟩ h0 h1]
    dsimp only
    rw [Pieces.sout_B_0, Pieces.sout_B_1, Pieces.sout_B_2]
    exact key _ _ _ rfl rfl rfl

/-- The invariant at every point, by induction along the grid. -/
theorem inv : ∀ (n : ℕ) (h : n < cfg0.N), Inv m c n h
  | 0, h => inv_first m c 0 h rfl
  | n + 1, h => by
    by_cases h0 : (n + 1) % 8 = 0
    · exact inv_first m c (n + 1) h h0
    · exact inv_step m c n h h0 (inv n (Nat.lt_of_succ_lt h))

end Cert.KernelIdeal.Accum

end
-- ==== Proof.LastTile.lean ====
/-
  What the last tile of a row block writes into the two results.

  After the last tile the three running maxima have seen every prediction of the row block, so each has exactly the
  upper bounds of the specification's running maximum (from 0, from -1, from 0) over all predictions; two extended reals
  with the same upper bounds are equal. The two results are then the specification's: where the person maximum exceeds
  1/2, the root of the score maximum plus one, respectively the quotient maximum; elsewhere 0.
-/
import proofs.«131841_j54657753808935_1_alg».proof.Proof.Pieces
import proofs.«131841_j54657753808935_1_alg».proof.Proof.InvDef
import proofs.«131841_j54657753808935_1_alg».proof.Proof.Payloads
import proofs.«131841_j54657753808935_1_alg».proof.Proof.Spec

set_option maxRecDepth 16384

noncomputable section

open Idealize.ShloMosaic Idealize.ShloMosaic.TcCoe Idealize.SL.Sem
open Idealize.ShloMosaic.Pipeline (Dat)

namespace Cert.KernelIdeal.LastTile
open Cert.KernelIdeal Cert.KernelIdeal.Gen Idealize.ShloMosaic Idealize.ShloMosaic.TcCoe Idealize.SL.Sem
  Idealize.ShloMosaic.ValueIdx Cert.KernelIdeal.Blocks

/-! ## A value with a running maximum's upper bounds is that maximum -/

section Bounds

variable (pb : (⟨3, ![32, 2048, 4]⟩ : Shape).Idx → EReal) (ps : (⟨2, ![32, 2048]⟩ : Shape).Idx → EReal)
  (pc : (⟨2, ![32, 2048]⟩ : Shape).Idx → BitVec 32) (gb : (⟨3, ![32, 128, 4]⟩ : Shape).Idx → EReal)

/-- A bound on the predictions that every prediction meets is no bound. -/
theorem forall_lt_iff (k : ℕ) (hk : 2048 ≤ k) (P : Fin 2048 → Prop) :
    (∀ p : Fin 2048, p.val < k → P p) ↔ ∀ p : Fin 2048, P p :=
  ⟨fun h p => h p (lt_of_lt_of_le p.isLt hk), fun h p _ => h p⟩

/-- The person maximum. -/
theorem eq_hasMaxK (b : Fin 32) (k : ℕ) (hk : 2048 ≤ k) (x : EReal)
    (hx : ∀ cc : EReal, x ≤ cc ↔ (0 : EReal) ≤ cc ∧ ∀ p : Fin 2048, p.val < k → Cert.IouSpec.personF pc b p ≤ cc) :
    x = Cert.IouSpec.hasMaxK pc b := by
  refine eq_of_forall_ge_iff fun cc => ?_
  unfold Cert.IouSpec.hasMaxK
  rw [hx cc, max_le_iff, Cert.IouSpec.sup_le_iff', forall_lt_iff k hk]

/-- The score maximum. -/
theorem eq_scoreK (b : Fin 32) (k : ℕ) (hk : 2048 ≤ k) (x : EReal)
    (hx : ∀ cc : EReal, x ≤ cc ↔ ((-1 : ℝ) : EReal) ≤ cc ∧ ∀ p : Fin 2048, p.val < k →
      Cert.IouSpec.maskedK ps pc b p ≤ cc) :
    x = Cert.IouSpec.scoreK ps pc b := by
  refine eq_of_forall_ge_iff fun cc => ?_
  unfold Cert.IouSpec.scoreK
  rw [hx cc, max_le_iff, Cert.IouSpec.sup_le_iff', forall_lt_iff k hk]

/-- The quotient maximum: a bound on every pair is a bound for every prediction and every ground-truth row. -/
theorem eq_iouMaxK (b : Fin 32) (k : ℕ) (hk : 2048 ≤ k) (x : EReal)
    (hx : ∀ cc : EReal, x ≤ cc ↔ (0 : EReal) ≤ cc ∧ ∀ p : Fin 2048, p.val < k →
      ∀ g : Fin 128, Cert.IouSpec.iouK pb pc gb b p g ≤ cc) :
    x = Cert.IouSpec.iouMaxK pb pc gb b := by
  refine eq_of_forall_ge_iff fun cc => ?_
  unfold Cert.IouSpec.iouMaxK
  rw [hx cc, max_le_iff, Cert.IouSpec.sup_le_iff', forall_lt_iff k hk, Prod.forall]

end Bounds

/-! ## The two results at the last tile -/

variable (m : (ℓ : Loc nD τ sig) → Buf (Elt Ideal) ℓ) (c : Dev nD)

theorem out13_last (n : ℕ) (h : n < cfg0.N) (h7 : n % 8 = 7) (hinv : Cert.KernelIdeal.Accum.Inv m c n h) (r : Fin 16) :
    (outsAt0 m c n h).1 (ix2 r (0 : Fin 1))
      = Cert.IouSpec.probK (m ((c.tc : Thread nD τ).loc main_arg1)) (m ((c.tc : Thread nD τ).loc main_arg2))
          (rowOf ⟨n, h⟩ r) := by
  have hne : ¬(⟨n, h⟩ : Fin cfg0.N).val % 8 = 0 := by dsimp only; omega
  have h7' : (⟨n, h⟩ : Fin cfg0.N).val % 8 = 7 := h7
  have o13 : (outsAt0 m c n h).1 = k0_pay5 ((outsAt0 m c n h).2.2.2.2) ((outsAt0 m c n h).2.2.2.1) := by
    rw [outsAt0_C m c ⟨n, h⟩ hne h7']
    dsimp only
    rw [Pieces.out_C_13, Pieces.sout_C_2, Pieces.sout_C_1]
  have hk : 2048 ≤ 256 * (n % 8 + 1) := by omega
  have hs2 := eq_hasMaxK (m ((c.tc : Thread nD τ).loc main_arg2)) (rowOf ⟨n, h⟩ r) _ hk _ fun cc => (hinv r cc).2.2
  have hs1 := eq_scoreK (m ((c.tc : Thread nD τ).loc main_arg1)) (m ((c.tc : Thread nD τ).loc main_arg2))
    (rowOf ⟨n, h⟩ r) _ hk _ fun cc => (hinv r cc).2.1
  rw [o13, Payloads.pay5_apply, hs2, hs1]
  rfl

theorem out14_last (n : ℕ) (h : n < cfg0.N) (h7 : n % 8 = 7) (hinv : Cert.KernelIdeal.Accum.Inv m c n h) (r : Fin 16) :
    (outsAt0 m c n h).2.1 (ix2 r (0 : Fin 1))
      = Cert.IouSpec.outIouK (m ((c.tc : Thread nD τ).loc main_arg0)) (m ((c.tc : Thread nD τ).loc main_arg2))
          (m ((c.tc : Thread nD τ).loc main_arg3)) (rowOf ⟨n, h⟩ r) := by
  have hne : ¬(⟨n, h⟩ : Fin cfg0.N).val % 8 = 0 := by dsimp only; omega
  have h7' : (⟨n, h⟩ : Fin cfg0.N).val % 8 = 7 := h7
  have o14 : (outsAt0 m c n h).2.1 = k0_pay6 ((outsAt0 m c n h).2.2.2.2) ((outsAt0 m c n h).2.2.1) := by
    rw [outsAt0_C m c ⟨n, h⟩ hne h7']
    dsimp only
    rw [Pieces.out_C_14, Pieces.sout_C_2, Pieces.sout_C_0]
  have hk : 2048 ≤ 256 * (n % 8 + 1) := by omega
  have hs2 := eq_hasMaxK (m ((c.tc : Thread nD τ).loc main_arg2)) (rowOf ⟨n, h⟩ r) _ hk _ fun cc => (hinv r cc).2.2
  have hs0 := eq_iouMaxK (m ((c.tc : Thread nD τ).loc main_arg0)) (m ((c.tc : Thread nD τ).loc main_arg2))
    (m ((c.tc : Thread nD τ).loc main_arg3)) (rowOf ⟨n, h⟩ r) _ hk _ fun cc => (hinv r cc).1
  rw [o14, Payloads.pay6_apply, hs2, hs0]
  rfl

end Cert.KernelIdeal.LastTile

end
-- ==== Proof.Final.lean ====
import proofs.«131841_j54657753808935_1_alg».proof.Proof.Accum
import proofs.«131841_j54657753808935_1_alg».proof.Proof.LastTile
import Idealize.ShloMosaic.Lib.StableHlo.Run

set_option maxRecDepth 16384

noncomputable section

open Idealize.ShloMosaic Idealize.ShloMosaic.TcCoe Idealize.SL.Sem
open Idealize.ShloMosaic.Pipeline (Dat)

/-! From the points to the arrays and to @main's results. Each row block's last-tile point writes sixteen entries of each
    [32, 1] output array; the two such points cover the arrays; the two host reshapes after the call drop the unit axis. -/

namespace Cert.KernelIdeal.Final
open Cert.KernelIdeal Cert.KernelIdeal.Gen Idealize.ShloMosaic.ValueIdx Cert.KernelIdeal.Blocks Idealize.ShloMosaic.StableHlo
variable (m : (ℓ : Loc nD τ sig) → Buf (Elt Ideal) ℓ) (ρ : Dev nD → PrngReg) (c : Dev nD)

/-- The first result as the [32, 1] array the region leaves: one entry per batch row. -/
abbrev R13 : Buf (Elt Ideal) ((c.tc : Thread nD τ).loc main_v29_0) := fun i => Cert.IouSpec.probK (m ((c.tc : Thread nD τ).loc main_arg1)) (m ((c.tc : Thread nD τ).loc main_arg2)) (i 0)

/-- What a last-tile point writes back into window 13 is its block of that array. -/
theorem flushed13 (t : Fin cfg0.N) (hf : (cfg0.win 13).flush t = true) :
    (dats m 0 c).flushed 13 t = ((cfg0.win 13).blk t).view.read (Elt Ideal) (R13 m c) := by
  have h7 : t.val % 8 = 7 := (flush0_13 t).mp hf
  show (cfg0.win 13).cut (grid0.coords t) ((dats m 0 c).after 13 t) = _
  rw [after0_13]
  funext y
  rw [View.read_apply]
  obtain ⟨r, u, rfl⟩ : ∃ (r : Fin 16) (u : Fin 1), y = ix2 r u := ⟨y 0, y 1, eq_ix2 y⟩
  obtain rfl : u = 0 := Subsingleton.elim _ _
  show (outsAt0 m c t.val t.isLt).1 (ix2 r (0 : Fin 1)) = R13 m c (((cfg0.win 13).blk t).view.emb (ix2 r (0 : Fin 1)))
  rw [LastTile.out13_last m c t.val t.isLt h7 (Accum.inv m c t.val t.isLt) r]
  show Cert.IouSpec.probK (m ((c.tc : Thread nD τ).loc main_arg1)) (m ((c.tc : Thread nD τ).loc main_arg2)) (rowOf ⟨t.val, t.isLt⟩ r) = Cert.IouSpec.probK (m ((c.tc : Thread nD τ).loc main_arg1)) (m ((c.tc : Thread nD τ).loc main_arg2)) ((((cfg0.win 13).blk t).view.emb (ix2 r (0 : Fin 1))) 0)
  refine congrArg _ (Fin.ext ?_)
  show 16 * (t.val / 8) + r.val = win0_13.index t 0 * 16 + 1 * r.val
  rw [(idx13 t).1]; omega

/-- Every entry of the array is in the block of its row block's last-tile point. -/
theorem cover13 (i : S32x1.Idx) :
    ∃ t : Fin cfg0.N, (cfg0.win 13).flush t = true ∧ i ∈ ((cfg0.win 13).blk t).view.set := by
  have h0 : (i 0).val < 32 := (i 0).isLt
  have h1 : (i 1).val < 1 := (i 1).isLt
  have hN : cfg0.N = 16 := N_0
  let t : Fin cfg0.N := ⟨8 * ((i 0).val / 16) + 7, by omega⟩
  have ht : t.val = 8 * ((i 0).val / 16) + 7 := rfl
  refine ⟨t, (flush0_13 t).mpr (by rw [ht]; omega), ?_⟩
  show i ∈ ((View.whole main_v29_0).slice (win0_13.rect t)).set
  rw [View.set_slice_whole, Rect.mem_set_unit]
  intro a
  match a with
  | ⟨0, _⟩ =>
    show win0_13.index t (0 : Fin 2) * 16 ≤ (i 0).val ∧ (i 0).val < win0_13.index t (0 : Fin 2) * 16 + 16
    rw [(idx13 t).1, ht]; omega
  | ⟨1, _⟩ =>
    show win0_13.index t (1 : Fin 2) * 1 ≤ (i 1).val ∧ (i 1).val < win0_13.index t (1 : Fin 2) * 1 + 1
    rw [(idx13 t).2]; omega

/-- So the array ends holding that result. -/
theorem final13 : (dats m 0 c).arrAt 13 cfg0.N = R13 m c :=
  (dats m 0 c).arrAt_eq_of_cover 13 (R13 m c) (flushed13 m c) (cover13)

/-- The second result as the [32, 1] array the region leaves: one entry per batch row. -/
abbrev R14 : Buf (Elt Ideal) ((c.tc : Thread nD τ).loc main_v29_1) := fun i => Cert.IouSpec.outIouK (m ((c.tc : Thread nD τ).loc main_arg0)) (m ((c.tc : Thread nD τ).loc main_arg2)) (m ((c.tc : Thread nD τ).loc main_arg3)) (i 0)

/-- What a last-tile point writes back into window 14 is its block of that array. -/
theorem flushed14 (t : Fin cfg0.N) (hf : (cfg0.win 14).flush t = true) :
    (dats m 0 c).flushed 14 t = ((cfg0.win 14).blk t).view.read (Elt Ideal) (R14 m c) := by
  have h7 : t.val % 8 = 7 := (flush0_14 t).mp hf
  show (cfg0.win 14).cut (grid0.coords t) ((dats m 0 c).after 14 t) = _
  rw [after0_14]
  funext y
  rw [View.read_apply]
  obtain ⟨r, u, rfl⟩ : ∃ (r : Fin 16) (u : Fin 1), y = ix2 r u := ⟨y 0, y 1, eq_ix2 y⟩
  obtain rfl : u = 0 := Subsingleton.elim _ _
  show (outsAt0 m c t.val t.isLt).2.1 (ix2 r (0 : Fin 1)) = R14 m c (((cfg0.win 14).blk t).view.emb (ix2 r (0 : Fin 1)))
  rw [LastTile.out14_last m c t.val t.isLt h7 (Accum.inv m c t.val t.isLt) r]
  show Cert.IouSpec.outIouK (m ((c.tc : Thread nD τ).loc main_arg0)) (m ((c.tc : Thread nD τ).loc main_arg2)) (m ((c.tc : Thread nD τ).loc main_arg3)) (rowOf ⟨t.val, t.isLt⟩ r) = Cert.IouSpec.outIouK (m ((c.tc : Thread nD τ).loc main_arg0)) (m ((c.tc : Thread nD τ).loc main_arg2)) (m ((c.tc : Thread nD τ).loc main_arg3)) ((((cfg0.win 14).blk t).view.emb (ix2 r (0 : Fin 1))) 0)
  refine congrArg _ (Fin.ext ?_)
  show 16 * (t.val / 8) + r.val = win0_14.index t 0 * 16 + 1 * r.val
  rw [(idx14 t).1]; omega

/-- Every entry of the array is in the block of its row block's last-tile point. -/
theorem cover14 (i : S32x1.Idx) :
    ∃ t : Fin cfg0.N, (cfg0.win 14).flush t = true ∧ i ∈ ((cfg0.win 14).blk t).view.set := by
  have h0 : (i 0).val < 32 := (i 0).isLt
  have h1 : (i 1).val < 1 := (i 1).isLt
  have hN : cfg0.N = 16 := N_0
  let t : Fin cfg0.N := ⟨8 * ((i 0).val / 16) + 7, by omega⟩
  have ht : t.val = 8 * ((i 0).val / 16) + 7 := rfl
  refine ⟨t, (flush0_14 t).mpr (by rw [ht]; omega), ?_⟩
  show i ∈ ((View.whole main_v29_1).slice (win0_14.rect t)).set
  rw [View.set_slice_whole, Rect.mem_set_unit]
  intro a
  match a with
  | ⟨0, _⟩ =>
    show win0_14.index t (0 : Fin 2) * 16 ≤ (i 0).val ∧ (i 0).val < win0_14.index t (0 : Fin 2) * 16 + 16
    rw [(idx14 t).1, ht]; omega
  | ⟨1, _⟩ =>
    show win0_14.index t (1 : Fin 2) * 1 ≤ (i 1).val ∧ (i 1).val < win0_14.index t (1 : Fin 2) * 1 + 1
    rw [(idx14 t).2]; omega

/-- So the array ends holding that result. -/
theorem final14 : (dats m 0 c).arrAt 14 cfg0.N = R14 m c :=
  (dats m 0 c).arrAt_eq_of_cover 14 (R14 m c) (flushed14 m c) (cover14)

/-- A [32, 1] array recast as [32] reads, at b, the entry (b, 0). -/
theorem cast_32x1_32 {α : Type} (x : S32x1.Idx → α) (h : S32x1.ShapeCasts S32) (b : Fin 32) :
    shapeCast S32 x h (ix1 b) = x (ix2 b (0 : Fin 1)) :=
  shapeCast_apply x h _ _ (by
    rw [Shape.rowMajor_val_two, Shape.rowMajor_val_one]
    show b.val * 1 + 0 = b.val
    omega)

/-- @main's result main_v30: the region's [32, 1] array with its unit axis dropped. -/
theorem tail_main_v30 : Pipeline.afterTail₀ cfgs (dats m) 0 (V0 m) [hostOps1] c main_v30
    = fun i : S32.Idx => Cert.IouSpec.probK (m ((c.tc : Thread nD τ).loc main_arg1)) (m ((c.tc : Thread nD τ).loc main_arg2)) (i 0) := by
  have e : Pipeline.withArrays (cfgs 0).spec c (V0 m c) (fun w => (dats m 0 c).arrAt w (cfgs 0).N) (Proc.devRef .tc main_v29_0) = R13 m c :=
    (Pipeline.withArrays_arr spec0 launch0.win.arr_inj c _ _ 13).trans (final13 m c)
  unfold Pipeline.afterTail₀
  show StableHlo.after hostOps1 _ (Proc.devRef .tc main_v30) = _
  after_results
  funext i
  obtain ⟨b, rfl⟩ : ∃ b : Fin 32, i = ix1 b := ⟨i 0, eq_ix1 i⟩
  show shapeCast S32 (Pipeline.withArrays (cfgs 0).spec c (V0 m c) (fun w => (dats m 0 c).arrAt w (cfgs 0).N) (Proc.devRef .tc main_v29_0)) shapeCasts_S32x1_S32 (ix1 b) = _
  rw [e, cast_32x1_32]
  rfl

/-- @main's result main_v31: the region's [32, 1] array with its unit axis dropped. -/
theorem tail_main_v31 : Pipeline.afterTail₀ cfgs (dats m) 0 (V0 m) [hostOps1] c main_v31
    = fun i : S32.Idx => Cert.IouSpec.outIouK (m ((c.tc : Thread nD τ).loc main_arg0)) (m ((c.tc : Thread nD τ).loc main_arg2)) (m ((c.tc : Thread nD τ).loc main_arg3)) (i 0) := by
  have e : Pipeline.withArrays (cfgs 0).spec c (V0 m c) (fun w => (dats m 0 c).arrAt w (cfgs 0).N) (Proc.devRef .tc main_v29_1) = R14 m c :=
    (Pipeline.withArrays_arr spec0 launch0.win.arr_inj c _ _ 14).trans (final14 m c)
  unfold Pipeline.afterTail₀
  show StableHlo.after hostOps1 _ (Proc.devRef .tc main_v31) = _
  after_results
  funext i
  obtain ⟨b, rfl⟩ : ∃ b : Fin 32, i = ix1 b := ⟨i 0, eq_ix1 i⟩
  show shapeCast S32 (Pipeline.withArrays (cfgs 0).spec c (V0 m c) (fun w => (dats m 0 c).arrAt w (cfgs 0).N) (Proc.devRef .tc main_v29_1)) shapeCasts_S32x1_S32 (ix1 b) = _
  rw [e, cast_32x1_32]
  rfl

/-- The idealized kernel's run, read: every weakly fair execution terminates with the two results at the first spelling of
    the specification, of the argument arrays as launched, and the arguments unchanged. -/
theorem run : θ_run defs (onTc (τ := τ) (main (F := Ideal))) ⟨m, fun _ => 0, ρ⟩ fun r => ∀ c : Dev nD,
      r.2.mem ((c.tc : Thread nD τ).loc main_v30) = (fun i : S32.Idx => Cert.IouSpec.probK (m ((c.tc : Thread nD τ).loc main_arg1)) (m ((c.tc : Thread nD τ).loc main_arg2)) (i 0))
      ∧ r.2.mem ((c.tc : Thread nD τ).loc main_v31) = (fun i : S32.Idx => Cert.IouSpec.outIouK (m ((c.tc : Thread nD τ).loc main_arg0)) (m ((c.tc : Thread nD τ).loc main_arg2)) (m ((c.tc : Thread nD τ).loc main_arg3)) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v30 (Pipeline.mem_restRefs_of main_v30 (by decide) (by decide))).trans (tail_main_v30 m c),
      ((h c).2 main_v31 (Pipeline.mem_restRefs_of main_v31 (by decide) (by decide))).trans (tail_main_v31 m c),
      ((h c).2 main_arg0 (Pipeline.mem_restRefs_of main_arg0 (by decide) (by decide))).trans (W_main_arg0 m (dats m) c),
      ((h c).1 6).trans (((dats m 0 c).arrAt_in 6 rfl _).trans ((A_eq m c 6).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.RefRunSteps.lean ====
/- A table of cases, one per host operation of the reference's @main, in program order. Inv<k> a0 a1 a2 a3 V says of a
   valuation V what holds after the first k operations: the four arguments hold a0 … a3, and every buffer written so far
   that a later operation or a result still reads holds its stage val_<buffer> of them. step<k>: operation k carries
   Inv<k-1> to Inv<k> — at its own result buffer by the operation's result lemma, the operands rewritten by the
   invariant, and one unfolding of the stage's definition; at every other buffer nothing changes. tail<k> is the line from
   operation k+1 on, from<k> carries Inv<k> through it to the last invariant, and inv_all is from0 at the whole line (114 operations). -/
import proofs.«131841_j54657753808935_1_alg».proof.Proof.RefOpsP
import proofs.«131841_j54657753808935_1_alg».proof.Proof.RefReadP
import Idealize.ShloMosaic.Lib.StableHlo.Run

noncomputable section

namespace Cert.RefSide

open Cert.ReferenceIdeal Cert.ReferenceIdeal.Gen Cert.ReferenceIdeal.OpsP Cert.ReferenceIdeal.ReadP Idealize.ShloMosaic Idealize.ShloMosaic.TcCoe Idealize.SL.Sem Idealize.ShloMosaic.StableHlo

variable {F : FTy → Type} [FloatOps F]

/-- What is known of a valuation after the first 0 operations: each buffer still to be read holds its stage. -/
def Inv0 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3

/-- What is known of a valuation after the first 1 operations: each buffer still to be read holds its stage. -/
def Inv1 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_c) = val_main_c (F := F)

/-- What is known of a valuation after the first 2 operations: each buffer still to be read holds its stage. -/
def Inv2 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v0) = val_main_v0 (F := F)

/-- What is known of a valuation after the first 3 operations: each buffer still to be read holds its stage. -/
def Inv3 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2

/-- What is known of a valuation after the first 4 operations: each buffer still to be read holds its stage. -/
def Inv4 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_cst) = val_main_cst (F := F)

/-- What is known of a valuation after the first 5 operations: each buffer still to be read holds its stage. -/
def Inv5 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v2) = val_main_v2 (F := F) a3

/-- What is known of a valuation after the first 6 operations: each buffer still to be read holds its stage. -/
def Inv6 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v2) = val_main_v2 (F := F) a3
  ∧ V (Proc.devRef .tc main_cst_0) = val_main_cst_0 (F := F)

/-- What is known of a valuation after the first 7 operations: each buffer still to be read holds its stage. -/
def Inv7 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v2) = val_main_v2 (F := F) a3
  ∧ V (Proc.devRef .tc main_v3) = val_main_v3 (F := F)

/-- What is known of a valuation after the first 8 operations: each buffer still to be read holds its stage. -/
def Inv8 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3

/-- What is known of a valuation after the first 9 operations: each buffer still to be read holds its stage. -/
def Inv9 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0

/-- What is known of a valuation after the first 10 operations: each buffer still to be read holds its stage. -/
def Inv10 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3

/-- What is known of a valuation after the first 11 operations: each buffer still to be read holds its stage. -/
def Inv11 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v7) = val_main_v7 (F := F) a3

/-- What is known of a valuation after the first 12 operations: each buffer still to be read holds its stage. -/
def Inv12 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v8) = val_main_v8 (F := F) a3

/-- What is known of a valuation after the first 13 operations: each buffer still to be read holds its stage. -/
def Inv13 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v8) = val_main_v8 (F := F) a3
  ∧ V (Proc.devRef .tc main_v9) = val_main_v9 (F := F) a0

/-- What is known of a valuation after the first 14 operations: each buffer still to be read holds its stage. -/
def Inv14 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v8) = val_main_v8 (F := F) a3
  ∧ V (Proc.devRef .tc main_v10) = val_main_v10 (F := F) a0

/-- What is known of a valuation after the first 15 operations: each buffer still to be read holds its stage. -/
def Inv15 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v10) = val_main_v10 (F := F) a0
  ∧ V (Proc.devRef .tc main_v11) = val_main_v11 (F := F) a3

/-- What is known of a valuation after the first 16 operations: each buffer still to be read holds its stage. -/
def Inv16 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v11) = val_main_v11 (F := F) a3
  ∧ V (Proc.devRef .tc main_v12) = val_main_v12 (F := F) a0

/-- What is known of a valuation after the first 17 operations: each buffer still to be read holds its stage. -/
def Inv17 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3

/-- What is known of a valuation after the first 18 operations: each buffer still to be read holds its stage. -/
def Inv18 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v14) = val_main_v14 (F := F) a3

/-- What is known of a valuation after the first 19 operations: each buffer still to be read holds its stage. -/
def Inv19 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v15) = val_main_v15 (F := F) a3

/-- What is known of a valuation after the first 20 operations: each buffer still to be read holds its stage. -/
def Inv20 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v15) = val_main_v15 (F := F) a3
  ∧ V (Proc.devRef .tc main_v16) = val_main_v16 (F := F) a0

/-- What is known of a valuation after the first 21 operations: each buffer still to be read holds its stage. -/
def Inv21 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v15) = val_main_v15 (F := F) a3
  ∧ V (Proc.devRef .tc main_v17) = val_main_v17 (F := F) a0

/-- What is known of a valuation after the first 22 operations: each buffer still to be read holds its stage. -/
def Inv22 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v17) = val_main_v17 (F := F) a0
  ∧ V (Proc.devRef .tc main_v18) = val_main_v18 (F := F) a3

/-- What is known of a valuation after the first 23 operations: each buffer still to be read holds its stage. -/
def Inv23 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v18) = val_main_v18 (F := F) a3
  ∧ V (Proc.devRef .tc main_v19) = val_main_v19 (F := F) a0

/-- What is known of a valuation after the first 24 operations: each buffer still to be read holds its stage. -/
def Inv24 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3

/-- What is known of a valuation after the first 25 operations: each buffer still to be read holds its stage. -/
def Inv25 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v21) = val_main_v21 (F := F) a3

/-- What is known of a valuation after the first 26 operations: each buffer still to be read holds its stage. -/
def Inv26 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v22) = val_main_v22 (F := F) a3

/-- What is known of a valuation after the first 27 operations: each buffer still to be read holds its stage. -/
def Inv27 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v22) = val_main_v22 (F := F) a3
  ∧ V (Proc.devRef .tc main_v23) = val_main_v23 (F := F) a0

/-- What is known of a valuation after the first 28 operations: each buffer still to be read holds its stage. -/
def Inv28 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v22) = val_main_v22 (F := F) a3
  ∧ V (Proc.devRef .tc main_v24) = val_main_v24 (F := F) a0

/-- What is known of a valuation after the first 29 operations: each buffer still to be read holds its stage. -/
def Inv29 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v24) = val_main_v24 (F := F) a0
  ∧ V (Proc.devRef .tc main_v25) = val_main_v25 (F := F) a3

/-- What is known of a valuation after the first 30 operations: each buffer still to be read holds its stage. -/
def Inv30 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v25) = val_main_v25 (F := F) a3
  ∧ V (Proc.devRef .tc main_v26) = val_main_v26 (F := F) a0

/-- What is known of a valuation after the first 31 operations: each buffer still to be read holds its stage. -/
def Inv31 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v6) = val_main_v6 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3

/-- What is known of a valuation after the first 32 operations: each buffer still to be read holds its stage. -/
def Inv32 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v28) = val_main_v28 (F := F) a3

/-- What is known of a valuation after the first 33 operations: each buffer still to be read holds its stage. -/
def Inv33 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v5) = val_main_v5 (F := F) a0
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v29) = val_main_v29 (F := F) a3

/-- What is known of a valuation after the first 34 operations: each buffer still to be read holds its stage. -/
def Inv34 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v29) = val_main_v29 (F := F) a3
  ∧ V (Proc.devRef .tc main_v30) = val_main_v30 (F := F) a0

/-- What is known of a valuation after the first 35 operations: each buffer still to be read holds its stage. -/
def Inv35 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v29) = val_main_v29 (F := F) a3
  ∧ V (Proc.devRef .tc main_v31) = val_main_v31 (F := F) a0

/-- What is known of a valuation after the first 36 operations: each buffer still to be read holds its stage. -/
def Inv36 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v31) = val_main_v31 (F := F) a0
  ∧ V (Proc.devRef .tc main_v32) = val_main_v32 (F := F) a3

/-- What is known of a valuation after the first 37 operations: each buffer still to be read holds its stage. -/
def Inv37 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v32) = val_main_v32 (F := F) a3
  ∧ V (Proc.devRef .tc main_v33) = val_main_v33 (F := F) a0

/-- What is known of a valuation after the first 38 operations: each buffer still to be read holds its stage. -/
def Inv38 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v13) = val_main_v13 (F := F) a0 a3
  ∧ V (Proc.devRef .tc main_v20) = val_main_v20 (F := F) a0 a3
  ∧ V (Proc.devRef .tc main_v27) = val_main_v27 (F := F) a0 a3
  ∧ V (Proc.devRef .tc main_v34) = val_main_v34 (F := F) a0 a3

/-- What is known of a valuation after the first 39 operations: each buffer still to be read holds its stage. -/
def Inv39 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v20) = val_main_v20 (F := F) a0 a3
  ∧ V (Proc.devRef .tc main_v34) = val_main_v34 (F := F) a0 a3
  ∧ V (Proc.devRef .tc main_v35) = val_main_v35 (F := F) a0 a3

/-- What is known of a valuation after the first 40 operations: each buffer still to be read holds its stage. -/
def Inv40 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v20) = val_main_v20 (F := F) a0 a3
  ∧ V (Proc.devRef .tc main_v34) = val_main_v34 (F := F) a0 a3
  ∧ V (Proc.devRef .tc main_v35) = val_main_v35 (F := F) a0 a3
  ∧ V (Proc.devRef .tc main_cst_1) = val_main_cst_1 (F := F)

/-- What is known of a valuation after the first 41 operations: each buffer still to be read holds its stage. -/
def Inv41 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v20) = val_main_v20 (F := F) a0 a3
  ∧ V (Proc.devRef .tc main_v34) = val_main_v34 (F := F) a0 a3
  ∧ V (Proc.devRef .tc main_v35) = val_main_v35 (F := F) a0 a3
  ∧ V (Proc.devRef .tc main_v36) = val_main_v36 (F := F)

/-- What is known of a valuation after the first 42 operations: each buffer still to be read holds its stage. -/
def Inv42 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v20) = val_main_v20 (F := F) a0 a3
  ∧ V (Proc.devRef .tc main_v34) = val_main_v34 (F := F) a0 a3
  ∧ V (Proc.devRef .tc main_v37) = val_main_v37 (F := F) a0 a3

/-- What is known of a valuation after the first 43 operations: each buffer still to be read holds its stage. -/
def Inv43 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v37) = val_main_v37 (F := F) a0 a3
  ∧ V (Proc.devRef .tc main_v38) = val_main_v38 (F := F) a0 a3

/-- What is known of a valuation after the first 44 operations: each buffer still to be read holds its stage. -/
def Inv44 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v37) = val_main_v37 (F := F) a0 a3
  ∧ V (Proc.devRef .tc main_v38) = val_main_v38 (F := F) a0 a3
  ∧ V (Proc.devRef .tc main_cst_2) = val_main_cst_2 (F := F)

/-- What is known of a valuation after the first 45 operations: each buffer still to be read holds its stage. -/
def Inv45 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v37) = val_main_v37 (F := F) a0 a3
  ∧ V (Proc.devRef .tc main_v38) = val_main_v38 (F := F) a0 a3
  ∧ V (Proc.devRef .tc main_v39) = val_main_v39 (F := F)

/-- What is known of a valuation after the first 46 operations: each buffer still to be read holds its stage. -/
def Inv46 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v37) = val_main_v37 (F := F) a0 a3
  ∧ V (Proc.devRef .tc main_v40) = val_main_v40 (F := F) a0 a3

/-- What is known of a valuation after the first 47 operations: each buffer still to be read holds its stage. -/
def Inv47 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3

/-- What is known of a valuation after the first 48 operations: each buffer still to be read holds its stage. -/
def Inv48 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v42) = val_main_v42 (F := F) a0

/-- What is known of a valuation after the first 49 operations: each buffer still to be read holds its stage. -/
def Inv49 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v43) = val_main_v43 (F := F) a0

/-- What is known of a valuation after the first 50 operations: each buffer still to be read holds its stage. -/
def Inv50 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v43) = val_main_v43 (F := F) a0
  ∧ V (Proc.devRef .tc main_v44) = val_main_v44 (F := F) a0

/-- What is known of a valuation after the first 51 operations: each buffer still to be read holds its stage. -/
def Inv51 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v43) = val_main_v43 (F := F) a0
  ∧ V (Proc.devRef .tc main_v45) = val_main_v45 (F := F) a0

/-- What is known of a valuation after the first 52 operations: each buffer still to be read holds its stage. -/
def Inv52 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0

/-- What is known of a valuation after the first 53 operations: each buffer still to be read holds its stage. -/
def Inv53 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0
  ∧ V (Proc.devRef .tc main_v47) = val_main_v47 (F := F) a0

/-- What is known of a valuation after the first 54 operations: each buffer still to be read holds its stage. -/
def Inv54 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0
  ∧ V (Proc.devRef .tc main_v48) = val_main_v48 (F := F) a0

/-- What is known of a valuation after the first 55 operations: each buffer still to be read holds its stage. -/
def Inv55 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0
  ∧ V (Proc.devRef .tc main_v48) = val_main_v48 (F := F) a0
  ∧ V (Proc.devRef .tc main_v49) = val_main_v49 (F := F) a0

/-- What is known of a valuation after the first 56 operations: each buffer still to be read holds its stage. -/
def Inv56 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0
  ∧ V (Proc.devRef .tc main_v48) = val_main_v48 (F := F) a0
  ∧ V (Proc.devRef .tc main_v50) = val_main_v50 (F := F) a0

/-- What is known of a valuation after the first 57 operations: each buffer still to be read holds its stage. -/
def Inv57 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v46) = val_main_v46 (F := F) a0
  ∧ V (Proc.devRef .tc main_v51) = val_main_v51 (F := F) a0

/-- What is known of a valuation after the first 58 operations: each buffer still to be read holds its stage. -/
def Inv58 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0

/-- What is known of a valuation after the first 59 operations: each buffer still to be read holds its stage. -/
def Inv59 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v53) = val_main_v53 (F := F) a3

/-- What is known of a valuation after the first 60 operations: each buffer still to be read holds its stage. -/
def Inv60 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v54) = val_main_v54 (F := F) a3

/-- What is known of a valuation after the first 61 operations: each buffer still to be read holds its stage. -/
def Inv61 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v54) = val_main_v54 (F := F) a3
  ∧ V (Proc.devRef .tc main_v55) = val_main_v55 (F := F) a3

/-- What is known of a valuation after the first 62 operations: each buffer still to be read holds its stage. -/
def Inv62 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v54) = val_main_v54 (F := F) a3
  ∧ V (Proc.devRef .tc main_v56) = val_main_v56 (F := F) a3

/-- What is known of a valuation after the first 63 operations: each buffer still to be read holds its stage. -/
def Inv63 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3

/-- What is known of a valuation after the first 64 operations: each buffer still to be read holds its stage. -/
def Inv64 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3
  ∧ V (Proc.devRef .tc main_v58) = val_main_v58 (F := F) a3

/-- What is known of a valuation after the first 65 operations: each buffer still to be read holds its stage. -/
def Inv65 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3
  ∧ V (Proc.devRef .tc main_v59) = val_main_v59 (F := F) a3

/-- What is known of a valuation after the first 66 operations: each buffer still to be read holds its stage. -/
def Inv66 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3
  ∧ V (Proc.devRef .tc main_v59) = val_main_v59 (F := F) a3
  ∧ V (Proc.devRef .tc main_v60) = val_main_v60 (F := F) a3

/-- What is known of a valuation after the first 67 operations: each buffer still to be read holds its stage. -/
def Inv67 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3
  ∧ V (Proc.devRef .tc main_v59) = val_main_v59 (F := F) a3
  ∧ V (Proc.devRef .tc main_v61) = val_main_v61 (F := F) a3

/-- What is known of a valuation after the first 68 operations: each buffer still to be read holds its stage. -/
def Inv68 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v57) = val_main_v57 (F := F) a3
  ∧ V (Proc.devRef .tc main_v62) = val_main_v62 (F := F) a3

/-- What is known of a valuation after the first 69 operations: each buffer still to be read holds its stage. -/
def Inv69 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v52) = val_main_v52 (F := F) a0
  ∧ V (Proc.devRef .tc main_v63) = val_main_v63 (F := F) a3

/-- What is known of a valuation after the first 70 operations: each buffer still to be read holds its stage. -/
def Inv70 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v63) = val_main_v63 (F := F) a3
  ∧ V (Proc.devRef .tc main_v64) = val_main_v64 (F := F) a0

/-- What is known of a valuation after the first 71 operations: each buffer still to be read holds its stage. -/
def Inv71 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v64) = val_main_v64 (F := F) a0
  ∧ V (Proc.devRef .tc main_v65) = val_main_v65 (F := F) a3

/-- What is known of a valuation after the first 72 operations: each buffer still to be read holds its stage. -/
def Inv72 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v65) = val_main_v65 (F := F) a3
  ∧ V (Proc.devRef .tc main_v66) = val_main_v66 (F := F) a0

/-- What is known of a valuation after the first 73 operations: each buffer still to be read holds its stage. -/
def Inv73 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v66) = val_main_v66 (F := F) a0
  ∧ V (Proc.devRef .tc main_v67) = val_main_v67 (F := F) a3

/-- What is known of a valuation after the first 74 operations: each buffer still to be read holds its stage. -/
def Inv74 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v68) = val_main_v68 (F := F) a0 a3

/-- What is known of a valuation after the first 75 operations: each buffer still to be read holds its stage. -/
def Inv75 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v69) = val_main_v69 (F := F) a0 a3

/-- What is known of a valuation after the first 76 operations: each buffer still to be read holds its stage. -/
def Inv76 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v4) = val_main_v4 (F := F) a3
  ∧ V (Proc.devRef .tc main_v41) = val_main_v41 (F := F) a0 a3
  ∧ V (Proc.devRef .tc main_v69) = val_main_v69 (F := F) a0 a3
  ∧ V (Proc.devRef .tc main_v70) = val_main_v70 (F := F) a2

/-- What is known of a valuation after the first 77 operations: each buffer still to be read holds its stage. -/
def Inv77 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v70) = val_main_v70 (F := F) a2
  ∧ V (Proc.devRef .tc main_v71) = val_main_v71 (F := F) a3

/-- What is known of a valuation after the first 78 operations: each buffer still to be read holds its stage. -/
def Inv78 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v71) = val_main_v71 (F := F) a3
  ∧ V (Proc.devRef .tc main_v72) = val_main_v72 (F := F) a2

/-- What is known of a valuation after the first 79 operations: each buffer still to be read holds its stage. -/
def Inv79 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v72) = val_main_v72 (F := F) a2
  ∧ V (Proc.devRef .tc main_v73) = val_main_v73 (F := F) a3

/-- What is known of a valuation after the first 80 operations: each buffer still to be read holds its stage. -/
def Inv80 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3

/-- What is known of a valuation after the first 81 operations: each buffer still to be read holds its stage. -/
def Inv81 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_cst_3) = val_main_cst_3 (F := F)

/-- What is known of a valuation after the first 82 operations: each buffer still to be read holds its stage. -/
def Inv82 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_v75) = val_main_v75 (F := F)

/-- What is known of a valuation after the first 83 operations: each buffer still to be read holds its stage. -/
def Inv83 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_v76) = val_main_v76 (F := F) a0 a3

/-- What is known of a valuation after the first 84 operations: each buffer still to be read holds its stage. -/
def Inv84 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_v76) = val_main_v76 (F := F) a0 a3
  ∧ V (Proc.devRef .tc main_cst_4) = val_main_cst_4 (F := F)

/-- What is known of a valuation after the first 85 operations: each buffer still to be read holds its stage. -/
def Inv85 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_v76) = val_main_v76 (F := F) a0 a3
  ∧ V (Proc.devRef .tc main_call0_v0) = val_main_call0_v0 (F := F)

/-- What is known of a valuation after the first 86 operations: each buffer still to be read holds its stage. -/
def Inv86 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v69) = val_main_v69 (F := F) a0 a3
  ∧ V (Proc.devRef .tc main_v74) = val_main_v74 (F := F) a2 a3
  ∧ V (Proc.devRef .tc main_v76) = val_main_v76 (F := F) a0 a3
  ∧ V (Proc.devRef .tc main_call0_v1) = val_main_call0_v1 (F := F)

/-- What is known of a valuation after the first 87 operations: each buffer still to be read holds its stage. -/
def Inv87 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v41) = val_main_v41 (F := F) a0 a3
  ∧ V (Proc.devRef .tc main_v74) = val_main_v74 (F := F) a2 a3
  ∧ V (Proc.devRef .tc main_v77) = val_main_v77 (F := F) a0 a3

/-- What is known of a valuation after the first 88 operations: each buffer still to be read holds its stage. -/
def Inv88 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v74) = val_main_v74 (F := F) a2 a3
  ∧ V (Proc.devRef .tc main_v78) = val_main_v78 (F := F) a0 a3

/-- What is known of a valuation after the first 89 operations: each buffer still to be read holds its stage. -/
def Inv89 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v74) = val_main_v74 (F := F) a2 a3
  ∧ V (Proc.devRef .tc main_v78) = val_main_v78 (F := F) a0 a3
  ∧ V (Proc.devRef .tc main_cst_5) = val_main_cst_5 (F := F)

/-- What is known of a valuation after the first 90 operations: each buffer still to be read holds its stage. -/
def Inv90 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v74) = val_main_v74 (F := F) a2 a3
  ∧ V (Proc.devRef .tc main_v78) = val_main_v78 (F := F) a0 a3
  ∧ V (Proc.devRef .tc main_call1_v0) = val_main_call1_v0 (F := F)

/-- What is known of a valuation after the first 91 operations: each buffer still to be read holds its stage. -/
def Inv91 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v74) = val_main_v74 (F := F) a2 a3
  ∧ V (Proc.devRef .tc main_v78) = val_main_v78 (F := F) a0 a3
  ∧ V (Proc.devRef .tc main_call1_v1) = val_main_call1_v1 (F := F)

/-- What is known of a valuation after the first 92 operations: each buffer still to be read holds its stage. -/
def Inv92 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v79) = val_main_v79 (F := F) a0 a2 a3

/-- What is known of a valuation after the first 93 operations: each buffer still to be read holds its stage. -/
def Inv93 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v79) = val_main_v79 (F := F) a0 a2 a3
  ∧ V (Proc.devRef .tc main_cst_6) = val_main_cst_6 (F := F)

/-- What is known of a valuation after the first 94 operations: each buffer still to be read holds its stage. -/
def Inv94 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3

/-- What is known of a valuation after the first 95 operations: each buffer still to be read holds its stage. -/
def Inv95 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3
  ∧ V (Proc.devRef .tc main_c_7) = val_main_c_7 (F := F)

/-- What is known of a valuation after the first 96 operations: each buffer still to be read holds its stage. -/
def Inv96 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3
  ∧ V (Proc.devRef .tc main_v81) = val_main_v81 (F := F) a2

/-- What is known of a valuation after the first 97 operations: each buffer still to be read holds its stage. -/
def Inv97 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3
  ∧ V (Proc.devRef .tc main_v81) = val_main_v81 (F := F) a2
  ∧ V (Proc.devRef .tc main_cst_8) = val_main_cst_8 (F := F)

/-- What is known of a valuation after the first 98 operations: each buffer still to be read holds its stage. -/
def Inv98 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3
  ∧ V (Proc.devRef .tc main_v81) = val_main_v81 (F := F) a2
  ∧ V (Proc.devRef .tc main_call2_v0) = val_main_call2_v0 (F := F)

/-- What is known of a valuation after the first 99 operations: each buffer still to be read holds its stage. -/
def Inv99 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v1) = val_main_v1 (F := F) a2
  ∧ V (Proc.devRef .tc main_v80) = val_main_v80 (F := F) a0 a2 a3
  ∧ V (Proc.devRef .tc main_v81) = val_main_v81 (F := F) a2
  ∧ V (Proc.devRef .tc main_call2_v1) = val_main_call2_v1 (F := F)

/-- What is known of a valuation after the first 100 operations: each buffer still to be read holds its stage. -/
def Inv100 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v82) = val_main_v82 (F := F) a1 a2

/-- What is known of a valuation after the first 101 operations: each buffer still to be read holds its stage. -/
def Inv101 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v82) = val_main_v82 (F := F) a1 a2
  ∧ V (Proc.devRef .tc main_cst_9) = val_main_cst_9 (F := F)

/-- What is known of a valuation after the first 102 operations: each buffer still to be read holds its stage. -/
def Inv102 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v83) = val_main_v83 (F := F) a1 a2

/-- What is known of a valuation after the first 103 operations: each buffer still to be read holds its stage. -/
def Inv103 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v83) = val_main_v83 (F := F) a1 a2
  ∧ V (Proc.devRef .tc main_cst_10) = val_main_cst_10 (F := F)

/-- What is known of a valuation after the first 104 operations: each buffer still to be read holds its stage. -/
def Inv104 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v83) = val_main_v83 (F := F) a1 a2
  ∧ V (Proc.devRef .tc main_v84) = val_main_v84 (F := F)

/-- What is known of a valuation after the first 105 operations: each buffer still to be read holds its stage. -/
def Inv105 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v85) = val_main_v85 (F := F) a1 a2

/-- What is known of a valuation after the first 106 operations: each buffer still to be read holds its stage. -/
def Inv106 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v86) = val_main_v86 (F := F) a1 a2

/-- What is known of a valuation after the first 107 operations: each buffer still to be read holds its stage. -/
def Inv107 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v86) = val_main_v86 (F := F) a1 a2
  ∧ V (Proc.devRef .tc main_cst_11) = val_main_cst_11 (F := F)

/-- What is known of a valuation after the first 108 operations: each buffer still to be read holds its stage. -/
def Inv108 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v86) = val_main_v86 (F := F) a1 a2
  ∧ V (Proc.devRef .tc main_call3_v0) = val_main_call3_v0 (F := F)

/-- What is known of a valuation after the first 109 operations: each buffer still to be read holds its stage. -/
def Inv109 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v86) = val_main_v86 (F := F) a1 a2
  ∧ V (Proc.devRef .tc main_call3_v1) = val_main_call3_v1 (F := F)

/-- What is known of a valuation after the first 110 operations: each buffer still to be read holds its stage. -/
def Inv110 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v87) = val_main_v87 (F := F) a1 a2

/-- What is known of a valuation after the first 111 operations: each buffer still to be read holds its stage. -/
def Inv111 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v87) = val_main_v87 (F := F) a1 a2
  ∧ V (Proc.devRef .tc main_cst_12) = val_main_cst_12 (F := F)

/-- What is known of a valuation after the first 112 operations: each buffer still to be read holds its stage. -/
def Inv112 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v87) = val_main_v87 (F := F) a1 a2
  ∧ V (Proc.devRef .tc main_call4_v0) = val_main_call4_v0 (F := F)

/-- What is known of a valuation after the first 113 operations: each buffer still to be read holds its stage. -/
def Inv113 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v80) = val_main_v80 (F := F) a0 a2 a3
  ∧ V (Proc.devRef .tc main_v81) = val_main_v81 (F := F) a2
  ∧ V (Proc.devRef .tc main_v87) = val_main_v87 (F := F) a1 a2
  ∧ V (Proc.devRef .tc main_call4_v1) = val_main_call4_v1 (F := F)

/-- What is known of a valuation after the first 114 operations: each buffer still to be read holds its stage. -/
def Inv114 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) : Prop :=
  V (Proc.devRef .tc main_arg0) = a0
  ∧ V (Proc.devRef .tc main_arg1) = a1
  ∧ V (Proc.devRef .tc main_arg2) = a2
  ∧ V (Proc.devRef .tc main_arg3) = a3
  ∧ V (Proc.devRef .tc main_v87) = val_main_v87 (F := F) a1 a2
  ∧ V (Proc.devRef .tc main_v88) = val_main_v88 (F := F) a0 a2 a3

theorem step1 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv0 a0 a1 a2 a3 V) :
    Inv1 a0 a1 a2 a3 (HloOp.result (nullary main_c (constantI S_ 32 0#32) : HloOp τ sig (Elt F)) V) := by
  obtain ⟨h_arg0, h_arg1, h_arg2, h_arg3⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result _ _ _ V).trans (by first | done | rfl)⟩

theorem step2 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv1 a0 a1 a2 a3 V) :
    Inv2 a0 a1 a2 a3 (HloOp.result (unary main_c main_v0 (broadcastInDim S32x2048 ![] bcast_S_S32x2048 : (⟨S_, .i32⟩ : BufTy).Contents (Elt F) → (⟨S32x2048, .i32⟩ : BufTy).Contents (Elt F)) : HloOp τ sig (Elt F)) V) := by
  obtain ⟨h_arg0, h_arg1, h_arg2, h_arg3, h_c⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result _ _ _ _ _ V).trans (by rw [h_c]; first | done | rfl)⟩

theorem step3 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv2 a0 a1 a2 a3 V) :
    Inv3 a0 a1 a2 a3 (HloOp.result (binary main_arg2 main_v0 main_v1 (cmpi .eq : (⟨S32x2048, .i32⟩ : BufTy).Contents (Elt F) → (⟨S32x2048, .i32⟩ : BufTy).Contents (Elt F) → (⟨S32x2048, .i1⟩ : BufTy).Contents (Elt F)) : HloOp τ sig (Elt F)) V) := by
  obtain ⟨h_arg0, h_arg1, h_arg2, h_arg3, h_v0⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result _ _ _ _ _ _ _ V).trans (by rw [h_arg2, h_v0]; first | done | rfl)⟩

theorem step4 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv3 a0 a1 a2 a3 V) :
    Inv4 a0 a1 a2 a3 (HloOp.result (nullary main_cst (constant S_ .f32 0x00000000#32) : HloOp τ sig (Elt F)) V) := by
  obtain ⟨h_arg0, h_arg1, h_arg2, h_arg3, h_v1⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result _ _ _ V).trans (by first | done | rfl)⟩

theorem step5 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv4 a0 a1 a2 a3 V) :
    Inv5 a0 a1 a2 a3 (HloOp.result (binary main_arg3 main_cst main_v2 ((fun x v => Host.reduceAdd x v reducesTo_S32x128x4_S32x128_d2 h_S_) : (⟨S32x128x4, .f32⟩ : BufTy).Contents (Elt F) → (⟨S_, .f32⟩ : BufTy).Contents (Elt F) → (⟨S32x128, .f32⟩ : BufTy).Contents (Elt F)) : HloOp τ sig (Elt F)) V) := by
  obtain ⟨h_arg0, h_arg1, h_arg2, h_arg3, h_v1, h_cst⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result _ _ _ _ _ _ _ V).trans (by rw [h_arg3, h_cst]; first | done | rfl)⟩

theorem step6 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv5 a0 a1 a2 a3 V) :
    Inv6 a0 a1 a2 a3 (HloOp.result (nullary main_cst_0 (constant S_ .f32 0x00000000#32) : HloOp τ sig (Elt F)) V) := by
  obtain ⟨h_arg0, h_arg1, h_arg2, h_arg3, h_v1, h_v2⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v2,
    (nullary_result _ _ _ V).trans (by first | done | rfl)⟩

theorem step7 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv6 a0 a1 a2 a3 V) :
    Inv7 a0 a1 a2 a3 (HloOp.result (unary main_cst_0 main_v3 (broadcastInDim S32x128 ![] bcast_S_S32x128 : (⟨S_, .f32⟩ : BufTy).Contents (Elt F) → (⟨S32x128, .f32⟩ : BufTy).Contents (Elt F)) : HloOp τ sig (Elt F)) V) := by
  obtain ⟨h_arg0, h_arg1, h_arg2, h_arg3, h_v1, h_v2, h_cst_0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v2,
    (unary_result _ _ _ _ _ V).trans (by rw [h_cst_0]; first | done | rfl)⟩

theorem step8 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv7 a0 a1 a2 a3 V) :
    Inv8 a0 a1 a2 a3 (HloOp.result (binary main_v2 main_v3 main_v4 (cmpf .une : (⟨S32x128, .f32⟩ : BufTy).Contents (Elt F) → (⟨S32x128, .f32⟩ : BufTy).Contents (Elt F) → (⟨S32x128, .i1⟩ : BufTy).Contents (Elt F)) : HloOp τ sig (Elt F)) V) := by
  obtain ⟨h_arg0, h_arg1, h_arg2, h_arg3, h_v1, h_v2, h_v3⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result _ _ _ _ _ _ _ V).trans (by rw [h_v2, h_v3]; first | done | rfl)⟩

theorem step9 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv8 a0 a1 a2 a3 V) :
    Inv9 a0 a1 a2 a3 (HloOp.result (unary main_arg0 main_v5 (broadcastInDim S32x2048x1x4 ![0, 1, 3] bcast_S32x2048x4_S32x2048x1x4_0_1_3 : (⟨S32x2048x4, .f32⟩ : BufTy).Contents (Elt F) → (⟨S32x2048x1x4, .f32⟩ : BufTy).Contents (Elt F)) : HloOp τ sig (Elt F)) V) := by
  obtain ⟨h_arg0, h_arg1, h_arg2, h_arg3, h_v1, h_v4⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result _ _ _ _ _ V).trans (by rw [h_arg0]; first | done | rfl)⟩

theorem step10 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv9 a0 a1 a2 a3 V) :
    Inv10 a0 a1 a2 a3 (HloOp.result (unary main_arg3 main_v6 (broadcastInDim S32x1x128x4 ![0, 2, 3] bcast_S32x128x4_S32x1x128x4_0_2_3 : (⟨S32x128x4, .f32⟩ : BufTy).Contents (Elt F) → (⟨S32x1x128x4, .f32⟩ : BufTy).Contents (Elt F)) : HloOp τ sig (Elt F)) V) := by
  obtain ⟨h_arg0, h_arg1, h_arg2, h_arg3, h_v1, h_v4, h_v5⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result _ _ _ _ _ V).trans (by rw [h_arg3]; first | done | rfl)⟩

theorem step11 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv10 a0 a1 a2 a3 V) :
    Inv11 a0 a1 a2 a3 (HloOp.result (unary main_v6 main_v7 ((extractStridedSlice S32x1x128x1 ![0, 0, 0, 0] · slices_S32x1x128x4_S32x1x128x1_0_0_0_0) : (⟨S32x1x128x4, .f32⟩ : BufTy).Contents (Elt F) → (⟨S32x1x128x1, .f32⟩ : BufTy).Contents (Elt F)) : HloOp τ sig (Elt F)) V) := by
  obtain ⟨h_arg0, h_arg1, h_arg2, h_arg3, h_v1, h_v4, h_v5, h_v6⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result _ _ _ _ _ V).trans (by rw [h_v6]; first | done | rfl)⟩

theorem step12 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv11 a0 a1 a2 a3 V) :
    Inv12 a0 a1 a2 a3 (HloOp.result (reshape main_v7 main_v8 rfl shapeCasts_S32x1x128x1_S32x1x128 : HloOp τ sig (Elt F)) V) := by
  obtain ⟨h_arg0, h_arg1, h_arg2, h_arg3, h_v1, h_v4, h_v5, h_v6, h_v7⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result _ _ _ _ _ _ V).trans (by rw [h_v7]; first | done | rfl)⟩

theorem step13 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv12 a0 a1 a2 a3 V) :
    Inv13 a0 a1 a2 a3 (HloOp.result (unary main_v5 main_v9 ((extractStridedSlice S32x2048x1x1 ![0, 0, 0, 0] · slices_S32x2048x1x4_S32x2048x1x1_0_0_0_0) : (⟨S32x2048x1x4, .f32⟩ : BufTy).Contents (Elt F) → (⟨S32x2048x1x1, .f32⟩ : BufTy).Contents (Elt F)) : HloOp τ sig (Elt F)) V) := by
  obtain ⟨h_arg0, h_arg1, h_arg2, h_arg3, h_v1, h_v4, h_v5, h_v6, h_v8⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v8,
    (unary_result _ _ _ _ _ V).trans (by rw [h_v5]; first | done | rfl)⟩

theorem step14 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv13 a0 a1 a2 a3 V) :
    Inv14 a0 a1 a2 a3 (HloOp.result (reshape main_v9 main_v10 rfl shapeCasts_S32x2048x1x1_S32x2048x1 : HloOp τ sig (Elt F)) V) := by
  obtain ⟨h_arg0, h_arg1, h_arg2, h_arg3, h_v1, h_v4, h_v5, h_v6, h_v8, h_v9⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result_ne _ _ _ _ _ _ V (by decide)).trans h_v8,
    (reshape_result _ _ _ _ _ _ V).trans (by rw [h_v9]; first | done | rfl)⟩

theorem step15 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv14 a0 a1 a2 a3 V) :
    Inv15 a0 a1 a2 a3 (HloOp.result (unary main_v8 main_v11 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v8, h_v10⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v10,
    (unary_result _ _ _ _ _ V).trans (by rw [h_v8]; first | done | rfl)⟩

theorem step16 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv15 a0 a1 a2 a3 V) :
    Inv16 a0 a1 a2 a3 (HloOp.result (unary main_v10 main_v12 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v10, h_v11⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v11,
    (unary_result _ _ _ _ _ V).trans (by rw [h_v10]; first | done | rfl)⟩

theorem step17 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv16 a0 a1 a2 a3 V) :
    Inv17 a0 a1 a2 a3 (HloOp.result (binary main_v11 main_v12 main_v13 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v11, h_v12⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v5,
    (binary_result_ne _ _ _ _ _ _ _ V (by decide)).trans h_v6,
    (binary_result _ _ _ _ _ _ _ V).trans (by rw [h_v11, h_v12]; first | done | rfl)⟩

theorem step18 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv17 a0 a1 a2 a3 V) :
    Inv18 a0 a1 a2 a3 (HloOp.result (unary main_v6 main_v14 ((extractStridedSlice S32x1x128x1 ![0, 0, 0, 1] · slices_S32x1x128x4_S32x1x128x1_0_0_0_1) : (⟨S32x1x128x4, .f32⟩ : BufTy).Contents (Elt F) → (⟨S32x1x128x1, .f32⟩ : BufTy).Contents (Elt F)) : HloOp τ sig (Elt F)) V) := by
  obtain ⟨h_arg0, h_arg1, h_arg2, h_arg3, h_v1, h_v4, h_v5, h_v6, h_v13⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result _ _ _ _ _ V).trans (by rw [h_v6]; first | done | rfl)⟩

theorem step19 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv18 a0 a1 a2 a3 V) :
    Inv19 a0 a1 a2 a3 (HloOp.result (reshape main_v14 main_v15 rfl shapeCasts_S32x1x128x1_S32x1x128 : HloOp τ sig (Elt F)) V) := by
  obtain ⟨h_arg0, h_arg1, h_arg2, h_arg3, h_v1, h_v4, h_v5, h_v6, h_v13, h_v14⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result_ne _ _ _ _ _ _ V (by decide)).trans h_v13,
    (reshape_result _ _ _ _ _ _ V).trans (by rw [h_v14]; first | done | rfl)⟩

theorem step20 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv19 a0 a1 a2 a3 V) :
    Inv20 a0 a1 a2 a3 (HloOp.result (unary main_v5 main_v16 ((extractStridedSlice S32x2048x1x1 ![0, 0, 0, 1] · slices_S32x2048x1x4_S32x2048x1x1_0_0_0_1) : (⟨S32x2048x1x4, .f32⟩ : BufTy).Contents (Elt F) → (⟨S32x2048x1x1, .f32⟩ : BufTy).Contents (Elt F)) : HloOp τ sig (Elt F)) V) := by
  obtain ⟨h_arg0, h_arg1, h_arg2, h_arg3, h_v1, h_v4, h_v5, h_v6, h_v13, h_v15⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v15,
    (unary_result _ _ _ _ _ V).trans (by rw [h_v5]; first | done | rfl)⟩

theorem step21 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv20 a0 a1 a2 a3 V) :
    Inv21 a0 a1 a2 a3 (HloOp.result (reshape main_v16 main_v17 rfl shapeCasts_S32x2048x1x1_S32x2048x1 : HloOp τ sig (Elt F)) V) := by
  obtain ⟨h_arg0, h_arg1, h_arg2, h_arg3, h_v1, h_v4, h_v5, h_v6, h_v13, h_v15, h_v16⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result_ne _ _ _ _ _ _ V (by decide)).trans h_v13,
    (reshape_result_ne _ _ _ _ _ _ V (by decide)).trans h_v15,
    (reshape_result _ _ _ _ _ _ V).trans (by rw [h_v16]; first | done | rfl)⟩

theorem step22 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv21 a0 a1 a2 a3 V) :
    Inv22 a0 a1 a2 a3 (HloOp.result (unary main_v15 main_v18 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v15, h_v17⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v17,
    (unary_result _ _ _ _ _ V).trans (by rw [h_v15]; first | done | rfl)⟩

theorem step23 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv22 a0 a1 a2 a3 V) :
    Inv23 a0 a1 a2 a3 (HloOp.result (unary main_v17 main_v19 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v17, h_v18⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v18,
    (unary_result _ _ _ _ _ V).trans (by rw [h_v17]; first | done | rfl)⟩

theorem step24 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv23 a0 a1 a2 a3 V) :
    Inv24 a0 a1 a2 a3 (HloOp.result (binary main_v18 main_v19 main_v20 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v18, h_v19⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v5,
    (binary_result_ne _ _ _ _ _ _ _ V (by decide)).trans h_v6,
    (binary_result_ne _ _ _ _ _ _ _ V (by decide)).trans h_v13,
    (binary_result _ _ _ _ _ _ _ V).trans (by rw [h_v18, h_v19]; first | done | rfl)⟩

theorem step25 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv24 a0 a1 a2 a3 V) :
    Inv25 a0 a1 a2 a3 (HloOp.result (unary main_v6 main_v21 ((extractStridedSlice S32x1x128x1 ![0, 0, 0, 2] · slices_S32x1x128x4_S32x1x128x1_0_0_0_2) : (⟨S32x1x128x4, .f32⟩ : BufTy).Contents (Elt F) → (⟨S32x1x128x1, .f32⟩ : BufTy).Contents (Elt F)) : HloOp τ sig (Elt F)) V) := by
  obtain ⟨h_arg0, h_arg1, h_arg2, h_arg3, h_v1, h_v4, h_v5, h_v6, h_v13, h_v20⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v20,
    (unary_result _ _ _ _ _ V).trans (by rw [h_v6]; first | done | rfl)⟩

theorem step26 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv25 a0 a1 a2 a3 V) :
    Inv26 a0 a1 a2 a3 (HloOp.result (reshape main_v21 main_v22 rfl shapeCasts_S32x1x128x1_S32x1x128 : HloOp τ sig (Elt F)) V) := by
  obtain ⟨h_arg0, h_arg1, h_arg2, h_arg3, h_v1, h_v4, h_v5, h_v6, h_v13, h_v20, h_v21⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result_ne _ _ _ _ _ _ V (by decide)).trans h_v13,
    (reshape_result_ne _ _ _ _ _ _ V (by decide)).trans h_v20,
    (reshape_result _ _ _ _ _ _ V).trans (by rw [h_v21]; first | done | rfl)⟩

theorem step27 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv26 a0 a1 a2 a3 V) :
    Inv27 a0 a1 a2 a3 (HloOp.result (unary main_v5 main_v23 ((extractStridedSlice S32x2048x1x1 ![0, 0, 0, 2] · slices_S32x2048x1x4_S32x2048x1x1_0_0_0_2) : (⟨S32x2048x1x4, .f32⟩ : BufTy).Contents (Elt F) → (⟨S32x2048x1x1, .f32⟩ : BufTy).Contents (Elt F)) : HloOp τ sig (Elt F)) V) := by
  obtain ⟨h_arg0, h_arg1, h_arg2, h_arg3, h_v1, h_v4, h_v5, h_v6, h_v13, h_v20, h_v22⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v20,
    (unary_result_ne _ _ _ _ _ V (by decide)).trans h_v22,
    (unary_result _ _ _ _ _ V).trans (by rw [h_v5]; first | done | rfl)⟩

theorem step28 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv27 a0 a1 a2 a3 V) :
    Inv28 a0 a1 a2 a3 (HloOp.result (reshape main_v23 main_v24 rfl shapeCasts_S32x2048x1x1_S32x2048x1 : HloOp τ sig (Elt F)) V) := by
  obtain ⟨h_arg0, h_arg1, h_arg2, h_arg3, h_v1, h_v4, h_v5, h_v6, h_v13, h_v20, h_v22, h_v23⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v6,
    (reshape_result_ne _ _ _ _ _ _ V (by decide)).trans h_v13,
    (reshape_result_ne _ _ _ _ _ _ V (by decide)).trans h_v20,
    (reshape_result_ne _ _ _ _ _ _ V (by decide)).trans h_v22,
    (reshape_result _ _ _ _ _ _ V).trans (by rw [h_v23]; first | done | rfl)⟩

theorem step29 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv28 a0 a1 a2 a3 V) :
    Inv29 a0 a1 a2 a3 (HloOp.result (unary main_v22 main_v25 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v20, h_v22, h_v24⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v20,
    (unary_result_ne _ _ _ _ _ V (by decide)).trans h_v24,
    (unary_result _ _ _ _ _ V).trans (by rw [h_v22]; first | done | rfl)⟩

theorem step30 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv29 a0 a1 a2 a3 V) :
    Inv30 a0 a1 a2 a3 (HloOp.result (unary main_v24 main_v26 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v20, h_v24, h_v25⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v6,
    (unary_result_ne _ _ _ _ _ V (by decide)).trans h_v13,
    (unary_result_ne _ _ _ _ _ V (by decide)).trans h_v20,
    (unary_result_ne _ _ _ _ _ V (by decide)).trans h_v25,
    (unary_result _ _ _ _ _ V).trans (by rw [h_v24]; first | done | rfl)⟩

theorem step31 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv30 a0 a1 a2 a3 V) :
    Inv31 a0 a1 a2 a3 (HloOp.result (binary main_v25 main_v26 main_v27 (minimumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v5, h_v6, h_v13, h_v20, h_v25, h_v26⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v5,
    (binary_result_ne _ _ _ _ _ _ _ V (by decide)).trans h_v6,
    (binary_result_ne _ _ _ _ _ _ _ V (by decide)).trans h_v13,
    (binary_result_ne _ _ _ _ _ _ _ V (by decide)).trans h_v20,
    (binary_result _ _ _ _ _ _ _ V).trans (by rw [h_v25, h_v26]; first | done | rfl)⟩

theorem step32 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv31 a0 a1 a2 a3 V) :
    Inv32 a0 a1 a2 a3 (HloOp.result (unary main_v6 main_v28 ((extractStridedSlice S32x1x128x1 ![0, 0, 0, 3] · slices_S32x1x128x4_S32x1x128x1_0_0_0_3) : (⟨S32x1x128x4, .f32⟩ : BufTy).Contents (Elt F) → (⟨S32x1x128x1, .f32⟩ : BufTy).Contents (Elt F)) : HloOp τ sig (Elt F)) V) := by
  obtain ⟨h_arg0, h_arg1, h_arg2, h_arg3, h_v1, h_v4, h_v5, h_v6, h_v13, h_v20, h_v27⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v5,
    (unary_result_ne _ _ _ _ _ V (by decide)).trans h_v13,
    (unary_result_ne _ _ _ _ _ V (by decide)).trans h_v20,
    (unary_result_ne _ _ _ _ _ V (by decide)).trans h_v27,
    (unary_result _ _ _ _ _ V).trans (by rw [h_v6]; first | done | rfl)⟩

theorem step33 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv32 a0 a1 a2 a3 V) :
    Inv33 a0 a1 a2 a3 (HloOp.result (reshape main_v28 main_v29 rfl shapeCasts_S32x1x128x1_S32x1x128 : HloOp τ sig (Elt F)) V) := by
  obtain ⟨h_arg0, h_arg1, h_arg2, h_arg3, h_v1, h_v4, h_v5, h_v13, h_v20, h_v27, h_v28⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v5,
    (reshape_result_ne _ _ _ _ _ _ V (by decide)).trans h_v13,
    (reshape_result_ne _ _ _ _ _ _ V (by decide)).trans h_v20,
    (reshape_result_ne _ _ _ _ _ _ V (by decide)).trans h_v27,
    (reshape_result _ _ _ _ _ _ V).trans (by rw [h_v28]; first | done | rfl)⟩

theorem step34 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv33 a0 a1 a2 a3 V) :
    Inv34 a0 a1 a2 a3 (HloOp.result (unary main_v5 main_v30 ((extractStridedSlice S32x2048x1x1 ![0, 0, 0, 3] · slices_S32x2048x1x4_S32x2048x1x1_0_0_0_3) : (⟨S32x2048x1x4, .f32⟩ : BufTy).Contents (Elt F) → (⟨S32x2048x1x1, .f32⟩ : BufTy).Contents (Elt F)) : HloOp τ sig (Elt F)) V) := by
  obtain ⟨h_arg0, h_arg1, h_arg2, h_arg3, h_v1, h_v4, h_v5, h_v13, h_v20, h_v27, h_v29⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v13,
    (unary_result_ne _ _ _ _ _ V (by decide)).trans h_v20,
    (unary_result_ne _ _ _ _ _ V (by decide)).trans h_v27,
    (unary_result_ne _ _ _ _ _ V (by decide)).trans h_v29,
    (unary_result _ _ _ _ _ V).trans (by rw [h_v5]; first | done | rfl)⟩

theorem step35 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv34 a0 a1 a2 a3 V) :
    Inv35 a0 a1 a2 a3 (HloOp.result (reshape main_v30 main_v31 rfl shapeCasts_S32x2048x1x1_S32x2048x1 : HloOp τ sig (Elt F)) V) := by
  obtain ⟨h_arg0, h_arg1, h_arg2, h_arg3, h_v1, h_v4, h_v13, h_v20, h_v27, h_v29, h_v30⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v13,
    (reshape_result_ne _ _ _ _ _ _ V (by decide)).trans h_v20,
    (reshape_result_ne _ _ _ _ _ _ V (by decide)).trans h_v27,
    (reshape_result_ne _ _ _ _ _ _ V (by decide)).trans h_v29,
    (reshape_result _ _ _ _ _ _ V).trans (by rw [h_v30]; first | done | rfl)⟩

theorem step36 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv35 a0 a1 a2 a3 V) :
    Inv36 a0 a1 a2 a3 (HloOp.result (unary main_v29 main_v32 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v13, h_v20, h_v27, h_v29, h_v31⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v13,
    (unary_result_ne _ _ _ _ _ V (by decide)).trans h_v20,
    (unary_result_ne _ _ _ _ _ V (by decide)).trans h_v27,
    (unary_result_ne _ _ _ _ _ V (by decide)).trans h_v31,
    (unary_result _ _ _ _ _ V).trans (by rw [h_v29]; first | done | rfl)⟩

theorem step37 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv36 a0 a1 a2 a3 V) :
    Inv37 a0 a1 a2 a3 (HloOp.result (unary main_v31 main_v33 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v13, h_v20, h_v27, h_v31, h_v32⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v13,
    (unary_result_ne _ _ _ _ _ V (by decide)).trans h_v20,
    (unary_result_ne _ _ _ _ _ V (by decide)).trans h_v27,
    (unary_result_ne _ _ _ _ _ V (by decide)).trans h_v32,
    (unary_result _ _ _ _ _ V).trans (by rw [h_v31]; first | done | rfl)⟩

theorem step38 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv37 a0 a1 a2 a3 V) :
    Inv38 a0 a1 a2 a3 (HloOp.result (binary main_v32 main_v33 main_v34 (minimumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v13, h_v20, h_v27, h_v32, h_v33⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v13,
    (binary_result_ne _ _ _ _ _ _ _ V (by decide)).trans h_v20,
    (binary_result_ne _ _ _ _ _ _ _ V (by decide)).trans h_v27,
    (binary_result _ _ _ _ _ _ _ V).trans (by rw [h_v32, h_v33]; first | done | rfl)⟩

theorem step39 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv38 a0 a1 a2 a3 V) :
    Inv39 a0 a1 a2 a3 (HloOp.result (binary main_v27 main_v13 main_v35 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v13, h_v20, h_v27, h_v34⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v20,
    (binary_result_ne _ _ _ _ _ _ _ V (by decide)).trans h_v34,
    (binary_result _ _ _ _ _ _ _ V).trans (by rw [h_v27, h_v13]; first | done | rfl)⟩

theorem step40 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv39 a0 a1 a2 a3 V) :
    Inv40 a0 a1 a2 a3 (HloOp.result (nullary main_cst_1 (constant S_ .f32 0x00000000#32) : HloOp τ sig (Elt F)) V) := by
  obtain ⟨h_arg0, h_arg1, h_arg2, h_arg3, h_v1, h_v4, h_v20, h_v34, h_v35⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v4,
    (nullary_result_ne _ _ _ V (by decide)).trans h_v20,
    (nullary_result_ne _ _ _ V (by decide)).trans h_v34,
    (nullary_result_ne _ _ _ V (by decide)).trans h_v35,
    (nullary_result _ _ _ V).trans (by first | done | rfl)⟩

theorem step41 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv40 a0 a1 a2 a3 V) :
    Inv41 a0 a1 a2 a3 (HloOp.result (unary main_cst_1 main_v36 (broadcastInDim S32x2048x128 ![] bcast_S_S32x2048x128 : (⟨S_, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v20, h_v34, h_v35, h_cst_1⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v20,
    (unary_result_ne _ _ _ _ _ V (by decide)).trans h_v34,
    (unary_result_ne _ _ _ _ _ V (by decide)).trans h_v35,
    (unary_result _ _ _ _ _ V).trans (by rw [h_cst_1]; first | done | rfl)⟩

theorem step42 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv41 a0 a1 a2 a3 V) :
    Inv42 a0 a1 a2 a3 (HloOp.result (binary main_v35 main_v36 main_v37 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v20, h_v34, h_v35, h_v36⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v20,
    (binary_result_ne _ _ _ _ _ _ _ V (by decide)).trans h_v34,
    (binary_result _ _ _ _ _ _ _ V).trans (by rw [h_v35, h_v36]; first | done | rfl)⟩

theorem step43 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv42 a0 a1 a2 a3 V) :
    Inv43 a0 a1 a2 a3 (HloOp.result (binary main_v34 main_v20 main_v38 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v20, h_v34, h_v37⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v37,
    (binary_result _ _ _ _ _ _ _ V).trans (by rw [h_v34, h_v20]; first | done | rfl)⟩

theorem step44 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv43 a0 a1 a2 a3 V) :
    Inv44 a0 a1 a2 a3 (HloOp.result (nullary main_cst_2 (constant S_ .f32 0x00000000#32) : HloOp τ sig (Elt F)) V) := by
  obtain ⟨h_arg0, h_arg1, h_arg2, h_arg3, h_v1, h_v4, h_v37, h_v38⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v4,
    (nullary_result_ne _ _ _ V (by decide)).trans h_v37,
    (nullary_result_ne _ _ _ V (by decide)).trans h_v38,
    (nullary_result _ _ _ V).trans (by first | done | rfl)⟩

theorem step45 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv44 a0 a1 a2 a3 V) :
    Inv45 a0 a1 a2 a3 (HloOp.result (unary main_cst_2 main_v39 (broadcastInDim S32x2048x128 ![] bcast_S_S32x2048x128 : (⟨S_, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v37, h_v38, h_cst_2⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v37,
    (unary_result_ne _ _ _ _ _ V (by decide)).trans h_v38,
    (unary_result _ _ _ _ _ V).trans (by rw [h_cst_2]; first | done | rfl)⟩

theorem step46 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv45 a0 a1 a2 a3 V) :
    Inv46 a0 a1 a2 a3 (HloOp.result (binary main_v38 main_v39 main_v40 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v37, h_v38, h_v39⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v37,
    (binary_result _ _ _ _ _ _ _ V).trans (by rw [h_v38, h_v39]; first | done | rfl)⟩

theorem step47 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv46 a0 a1 a2 a3 V) :
    Inv47 a0 a1 a2 a3 (HloOp.result (binary main_v37 main_v40 main_v41 (mulf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v37, h_v40⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result _ _ _ _ _ _ _ V).trans (by rw [h_v37, h_v40]; first | done | rfl)⟩

theorem step48 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv47 a0 a1 a2 a3 V) :
    Inv48 a0 a1 a2 a3 (HloOp.result (unary main_arg0 main_v42 ((extractStridedSlice S32x2048x1 ![0, 0, 2] · slices_S32x2048x4_S32x2048x1_0_0_2) : (⟨S32x2048x4, .f32⟩ : BufTy).Contents (Elt F) → (⟨S32x2048x1, .f32⟩ : BufTy).Contents (Elt F)) : HloOp τ sig (Elt F)) V) := by
  obtain ⟨h_arg0, h_arg1, h_arg2, h_arg3, h_v1, h_v4, h_v41⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result _ _ _ _ _ V).trans (by rw [h_arg0]; first | done | rfl)⟩

theorem step49 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv48 a0 a1 a2 a3 V) :
    Inv49 a0 a1 a2 a3 (HloOp.result (reshape main_v42 main_v43 rfl shapeCasts_S32x2048x1_S32x2048 : HloOp τ sig (Elt F)) V) := by
  obtain ⟨h_arg0, h_arg1, h_arg2, h_arg3, h_v1, h_v4, h_v41, h_v42⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result _ _ _ _ _ _ V).trans (by rw [h_v42]; first | done | rfl)⟩

theorem step50 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv49 a0 a1 a2 a3 V) :
    Inv50 a0 a1 a2 a3 (HloOp.result (unary main_arg0 main_v44 ((extractStridedSlice S32x2048x1 ![0, 0, 0] · slices_S32x2048x4_S32x2048x1_0_0_0) : (⟨S32x2048x4, .f32⟩ : BufTy).Contents (Elt F) → (⟨S32x2048x1, .f32⟩ : BufTy).Contents (Elt F)) : HloOp τ sig (Elt F)) V) := by
  obtain ⟨h_arg0, h_arg1, h_arg2, h_arg3, h_v1, h_v4, h_v41, h_v43⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v43,
    (unary_result _ _ _ _ _ V).trans (by rw [h_arg0]; first | done | rfl)⟩

theorem step51 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv50 a0 a1 a2 a3 V) :
    Inv51 a0 a1 a2 a3 (HloOp.result (reshape main_v44 main_v45 rfl shapeCasts_S32x2048x1_S32x2048 : HloOp τ sig (Elt F)) V) := by
  obtain ⟨h_arg0, h_arg1, h_arg2, h_arg3, h_v1, h_v4, h_v41, h_v43, h_v44⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v43,
    (reshape_result _ _ _ _ _ _ V).trans (by rw [h_v44]; first | done | rfl)⟩

theorem step52 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv51 a0 a1 a2 a3 V) :
    Inv52 a0 a1 a2 a3 (HloOp.result (binary main_v43 main_v45 main_v46 (subf : (⟨S32x2048, .f32⟩ : BufTy).Contents (Elt F) → (⟨S32x2048, .f32⟩ : BufTy).Contents (Elt F) → (⟨S32x2048, .f32⟩ : BufTy).Contents (Elt F)) : HloOp τ sig (Elt F)) V) := by
  obtain ⟨h_arg0, h_arg1, h_arg2, h_arg3, h_v1, h_v4, h_v41, h_v43, h_v45⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result _ _ _ _ _ _ _ V).trans (by rw [h_v43, h_v45]; first | done | rfl)⟩

theorem step53 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv52 a0 a1 a2 a3 V) :
    Inv53 a0 a1 a2 a3 (HloOp.result (unary main_arg0 main_v47 ((extractStridedSlice S32x2048x1 ![0, 0, 3] · slices_S32x2048x4_S32x2048x1_0_0_3) : (⟨S32x2048x4, .f32⟩ : BufTy).Contents (Elt F) → (⟨S32x2048x1, .f32⟩ : BufTy).Contents (Elt F)) : HloOp τ sig (Elt F)) V) := by
  obtain ⟨h_arg0, h_arg1, h_arg2, h_arg3, h_v1, h_v4, h_v41, h_v46⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v46,
    (unary_result _ _ _ _ _ V).trans (by rw [h_arg0]; first | done | rfl)⟩

theorem step54 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv53 a0 a1 a2 a3 V) :
    Inv54 a0 a1 a2 a3 (HloOp.result (reshape main_v47 main_v48 rfl shapeCasts_S32x2048x1_S32x2048 : HloOp τ sig (Elt F)) V) := by
  obtain ⟨h_arg0, h_arg1, h_arg2, h_arg3, h_v1, h_v4, h_v41, h_v46, h_v47⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v46,
    (reshape_result _ _ _ _ _ _ V).trans (by rw [h_v47]; first | done | rfl)⟩

theorem step55 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv54 a0 a1 a2 a3 V) :
    Inv55 a0 a1 a2 a3 (HloOp.result (unary main_arg0 main_v49 ((extractStridedSlice S32x2048x1 ![0, 0, 1] · slices_S32x2048x4_S32x2048x1_0_0_1) : (⟨S32x2048x4, .f32⟩ : BufTy).Contents (Elt F) → (⟨S32x2048x1, .f32⟩ : BufTy).Contents (Elt F)) : HloOp τ sig (Elt F)) V) := by
  obtain ⟨h_arg0, h_arg1, h_arg2, h_arg3, h_v1, h_v4, h_v41, h_v46, h_v48⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v46,
    (unary_result_ne _ _ _ _ _ V (by decide)).trans h_v48,
    (unary_result _ _ _ _ _ V).trans (by rw [h_arg0]; first | done | rfl)⟩

theorem step56 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv55 a0 a1 a2 a3 V) :
    Inv56 a0 a1 a2 a3 (HloOp.result (reshape main_v49 main_v50 rfl shapeCasts_S32x2048x1_S32x2048 : HloOp τ sig (Elt F)) V) := by
  obtain ⟨h_arg0, h_arg1, h_arg2, h_arg3, h_v1, h_v4, h_v41, h_v46, h_v48, h_v49⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v46,
    (reshape_result_ne _ _ _ _ _ _ V (by decide)).trans h_v48,
    (reshape_result _ _ _ _ _ _ V).trans (by rw [h_v49]; first | done | rfl)⟩

theorem step57 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv56 a0 a1 a2 a3 V) :
    Inv57 a0 a1 a2 a3 (HloOp.result (binary main_v48 main_v50 main_v51 (subf : (⟨S32x2048, .f32⟩ : BufTy).Contents (Elt F) → (⟨S32x2048, .f32⟩ : BufTy).Contents (Elt F) → (⟨S32x2048, .f32⟩ : BufTy).Contents (Elt F)) : HloOp τ sig (Elt F)) V) := by
  obtain ⟨h_arg0, h_arg1, h_arg2, h_arg3, h_v1, h_v4, h_v41, h_v46, h_v48, h_v50⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result_ne _ _ _ _ _ _ _ V (by decide)).trans h_v46,
    (binary_result _ _ _ _ _ _ _ V).trans (by rw [h_v48, h_v50]; first | done | rfl)⟩

theorem step58 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv57 a0 a1 a2 a3 V) :
    Inv58 a0 a1 a2 a3 (HloOp.result (binary main_v46 main_v51 main_v52 (mulf : (⟨S32x2048, .f32⟩ : BufTy).Contents (Elt F) → (⟨S32x2048, .f32⟩ : BufTy).Contents (Elt F) → (⟨S32x2048, .f32⟩ : BufTy).Contents (Elt F)) : HloOp τ sig (Elt F)) V) := by
  obtain ⟨h_arg0, h_arg1, h_arg2, h_arg3, h_v1, h_v4, h_v41, h_v46, h_v51⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result _ _ _ _ _ _ _ V).trans (by rw [h_v46, h_v51]; first | done | rfl)⟩

theorem step59 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv58 a0 a1 a2 a3 V) :
    Inv59 a0 a1 a2 a3 (HloOp.result (unary main_arg3 main_v53 ((extractStridedSlice S32x128x1 ![0, 0, 2] · slices_S32x128x4_S32x128x1_0_0_2) : (⟨S32x128x4, .f32⟩ : BufTy).Contents (Elt F) → (⟨S32x128x1, .f32⟩ : BufTy).Contents (Elt F)) : HloOp τ sig (Elt F)) V) := by
  obtain ⟨h_arg0, h_arg1, h_arg2, h_arg3, h_v1, h_v4, h_v41, h_v52⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v52,
    (unary_result _ _ _ _ _ V).trans (by rw [h_arg3]; first | done | rfl)⟩

theorem step60 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv59 a0 a1 a2 a3 V) :
    Inv60 a0 a1 a2 a3 (HloOp.result (reshape main_v53 main_v54 rfl shapeCasts_S32x128x1_S32x128 : HloOp τ sig (Elt F)) V) := by
  obtain ⟨h_arg0, h_arg1, h_arg2, h_arg3, h_v1, h_v4, h_v41, h_v52, h_v53⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v52,
    (reshape_result _ _ _ _ _ _ V).trans (by rw [h_v53]; first | done | rfl)⟩

theorem step61 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv60 a0 a1 a2 a3 V) :
    Inv61 a0 a1 a2 a3 (HloOp.result (unary main_arg3 main_v55 ((extractStridedSlice S32x128x1 ![0, 0, 0] · slices_S32x128x4_S32x128x1_0_0_0) : (⟨S32x128x4, .f32⟩ : BufTy).Contents (Elt F) → (⟨S32x128x1, .f32⟩ : BufTy).Contents (Elt F)) : HloOp τ sig (Elt F)) V) := by
  obtain ⟨h_arg0, h_arg1, h_arg2, h_arg3, h_v1, h_v4, h_v41, h_v52, h_v54⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v52,
    (unary_result_ne _ _ _ _ _ V (by decide)).trans h_v54,
    (unary_result _ _ _ _ _ V).trans (by rw [h_arg3]; first | done | rfl)⟩

theorem step62 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv61 a0 a1 a2 a3 V) :
    Inv62 a0 a1 a2 a3 (HloOp.result (reshape main_v55 main_v56 rfl shapeCasts_S32x128x1_S32x128 : HloOp τ sig (Elt F)) V) := by
  obtain ⟨h_arg0, h_arg1, h_arg2, h_arg3, h_v1, h_v4, h_v41, h_v52, h_v54, h_v55⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v52,
    (reshape_result_ne _ _ _ _ _ _ V (by decide)).trans h_v54,
    (reshape_result _ _ _ _ _ _ V).trans (by rw [h_v55]; first | done | rfl)⟩

theorem step63 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv62 a0 a1 a2 a3 V) :
    Inv63 a0 a1 a2 a3 (HloOp.result (binary main_v54 main_v56 main_v57 (subf : (⟨S32x128, .f32⟩ : BufTy).Contents (Elt F) → (⟨S32x128, .f32⟩ : BufTy).Contents (Elt F) → (⟨S32x128, .f32⟩ : BufTy).Contents (Elt F)) : HloOp τ sig (Elt F)) V) := by
  obtain ⟨h_arg0, h_arg1, h_arg2, h_arg3, h_v1, h_v4, h_v41, h_v52, h_v54, h_v56⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result_ne _ _ _ _ _ _ _ V (by decide)).trans h_v52,
    (binary_result _ _ _ _ _ _ _ V).trans (by rw [h_v54, h_v56]; first | done | rfl)⟩

theorem step64 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv63 a0 a1 a2 a3 V) :
    Inv64 a0 a1 a2 a3 (HloOp.result (unary main_arg3 main_v58 ((extractStridedSlice S32x128x1 ![0, 0, 3] · slices_S32x128x4_S32x128x1_0_0_3) : (⟨S32x128x4, .f32⟩ : BufTy).Contents (Elt F) → (⟨S32x128x1, .f32⟩ : BufTy).Contents (Elt F)) : HloOp τ sig (Elt F)) V) := by
  obtain ⟨h_arg0, h_arg1, h_arg2, h_arg3, h_v1, h_v4, h_v41, h_v52, h_v57⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v52,
    (unary_result_ne _ _ _ _ _ V (by decide)).trans h_v57,
    (unary_result _ _ _ _ _ V).trans (by rw [h_arg3]; first | done | rfl)⟩

theorem step65 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv64 a0 a1 a2 a3 V) :
    Inv65 a0 a1 a2 a3 (HloOp.result (reshape main_v58 main_v59 rfl shapeCasts_S32x128x1_S32x128 : HloOp τ sig (Elt F)) V) := by
  obtain ⟨h_arg0, h_arg1, h_arg2, h_arg3, h_v1, h_v4, h_v41, h_v52, h_v57, h_v58⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v52,
    (reshape_result_ne _ _ _ _ _ _ V (by decide)).trans h_v57,
    (reshape_result _ _ _ _ _ _ V).trans (by rw [h_v58]; first | done | rfl)⟩

theorem step66 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv65 a0 a1 a2 a3 V) :
    Inv66 a0 a1 a2 a3 (HloOp.result (unary main_arg3 main_v60 ((extractStridedSlice S32x128x1 ![0, 0, 1] · slices_S32x128x4_S32x128x1_0_0_1) : (⟨S32x128x4, .f32⟩ : BufTy).Contents (Elt F) → (⟨S32x128x1, .f32⟩ : BufTy).Contents (Elt F)) : HloOp τ sig (Elt F)) V) := by
  obtain ⟨h_arg0, h_arg1, h_arg2, h_arg3, h_v1, h_v4, h_v41, h_v52, h_v57, h_v59⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v52,
    (unary_result_ne _ _ _ _ _ V (by decide)).trans h_v57,
    (unary_result_ne _ _ _ _ _ V (by decide)).trans h_v59,
    (unary_result _ _ _ _ _ V).trans (by rw [h_arg3]; first | done | rfl)⟩

theorem step67 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv66 a0 a1 a2 a3 V) :
    Inv67 a0 a1 a2 a3 (HloOp.result (reshape main_v60 main_v61 rfl shapeCasts_S32x128x1_S32x128 : HloOp τ sig (Elt F)) V) := by
  obtain ⟨h_arg0, h_arg1, h_arg2, h_arg3, h_v1, h_v4, h_v41, h_v52, h_v57, h_v59, h_v60⟩ := h
  exact ⟨(reshape_result_ne _ _ _ _ _ _ V (by decide)).trans h_arg0,
    (reshape_result_ne _ _ _ _ _ _ V (by decide)).trans h_arg1,
    (reshape_result_ne _ _ _ _ _ _ V (by decide)).trans h_arg2,
    (reshape_result_ne _ _ _ _ _ _ V (by decide)).trans h_arg3,
    (reshape_result_ne _ _ _ _ _ _ V (by decide)).trans h_v1,
    (reshape_result_ne _ _ _ _ _ _ V (by decide)).trans h_v4,
    (reshape_result_ne _ _ _ _ _ _ V (by decide)).trans h_v41,
    (reshape_result_ne _ _ _ _ _ _ V (by decide)).trans h_v52,
    (reshape_result_ne _ _ _ _ _ _ V (by decide)).trans h_v57,
    (reshape_result_ne _ _ _ _ _ _ V (by decide)).trans h_v59,
    (reshape_result _ _ _ _ _ _ V).trans (by rw [h_v60]; first | done | rfl)⟩

theorem step68 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv67 a0 a1 a2 a3 V) :
    Inv68 a0 a1 a2 a3 (HloOp.result (binary main_v59 main_v61 main_v62 (subf : (⟨S32x128, .f32⟩ : BufTy).Contents (Elt F) → (⟨S32x128, .f32⟩ : BufTy).Contents (Elt F) → (⟨S32x128, .f32⟩ : BufTy).Contents (Elt F)) : HloOp τ sig (Elt F)) V) := by
  obtain ⟨h_arg0, h_arg1, h_arg2, h_arg3, h_v1, h_v4, h_v41, h_v52, h_v57, h_v59, h_v61⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result_ne _ _ _ _ _ _ _ V (by decide)).trans h_v52,
    (binary_result_ne _ _ _ _ _ _ _ V (by decide)).trans h_v57,
    (binary_result _ _ _ _ _ _ _ V).trans (by rw [h_v59, h_v61]; first | done | rfl)⟩

theorem step69 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv68 a0 a1 a2 a3 V) :
    Inv69 a0 a1 a2 a3 (HloOp.result (binary main_v57 main_v62 main_v63 (mulf : (⟨S32x128, .f32⟩ : BufTy).Contents (Elt F) → (⟨S32x128, .f32⟩ : BufTy).Contents (Elt F) → (⟨S32x128, .f32⟩ : BufTy).Contents (Elt F)) : HloOp τ sig (Elt F)) V) := by
  obtain ⟨h_arg0, h_arg1, h_arg2, h_arg3, h_v1, h_v4, h_v41, h_v52, h_v57, h_v62⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result_ne _ _ _ _ _ _ _ V (by decide)).trans h_v52,
    (binary_result _ _ _ _ _ _ _ V).trans (by rw [h_v57, h_v62]; first | done | rfl)⟩

theorem step70 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv69 a0 a1 a2 a3 V) :
    Inv70 a0 a1 a2 a3 (HloOp.result (unary main_v52 main_v64 (broadcastInDim S32x2048x1 ![0, 1] bcast_S32x2048_S32x2048x1_0_1 : (⟨S32x2048, .f32⟩ : BufTy).Contents (Elt F) → (⟨S32x2048x1, .f32⟩ : BufTy).Contents (Elt F)) : HloOp τ sig (Elt F)) V) := by
  obtain ⟨h_arg0, h_arg1, h_arg2, h_arg3, h_v1, h_v4, h_v41, h_v52, h_v63⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v63,
    (unary_result _ _ _ _ _ V).trans (by rw [h_v52]; first | done | rfl)⟩

theorem step71 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv70 a0 a1 a2 a3 V) :
    Inv71 a0 a1 a2 a3 (HloOp.result (unary main_v63 main_v65 (broadcastInDim S32x1x128 ![0, 2] bcast_S32x128_S32x1x128_0_2 : (⟨S32x128, .f32⟩ : BufTy).Contents (Elt F) → (⟨S32x1x128, .f32⟩ : BufTy).Contents (Elt F)) : HloOp τ sig (Elt F)) V) := by
  obtain ⟨h_arg0, h_arg1, h_arg2, h_arg3, h_v1, h_v4, h_v41, h_v63, h_v64⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v64,
    (unary_result _ _ _ _ _ V).trans (by rw [h_v63]; first | done | rfl)⟩

theorem step72 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv71 a0 a1 a2 a3 V) :
    Inv72 a0 a1 a2 a3 (HloOp.result (unary main_v64 main_v66 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v41, h_v64, h_v65⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v65,
    (unary_result _ _ _ _ _ V).trans (by rw [h_v64]; first | done | rfl)⟩

theorem step73 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv72 a0 a1 a2 a3 V) :
    Inv73 a0 a1 a2 a3 (HloOp.result (unary main_v65 main_v67 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v41, h_v65, h_v66⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v66,
    (unary_result _ _ _ _ _ V).trans (by rw [h_v65]; first | done | rfl)⟩

theorem step74 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv73 a0 a1 a2 a3 V) :
    Inv74 a0 a1 a2 a3 (HloOp.result (binary main_v66 main_v67 main_v68 (addf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v41, h_v66, h_v67⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result _ _ _ _ _ _ _ V).trans (by rw [h_v66, h_v67]; first | done | rfl)⟩

theorem step75 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv74 a0 a1 a2 a3 V) :
    Inv75 a0 a1 a2 a3 (HloOp.result (binary main_v68 main_v41 main_v69 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v4, h_v41, h_v68⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v4,
    (binary_result_ne _ _ _ _ _ _ _ V (by decide)).trans h_v41,
    (binary_result _ _ _ _ _ _ _ V).trans (by rw [h_v68, h_v41]; first | done | rfl)⟩

theorem step76 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv75 a0 a1 a2 a3 V) :
    Inv76 a0 a1 a2 a3 (HloOp.result (unary main_v1 main_v70 (broadcastInDim S32x2048x1 ![0, 1] bcast_S32x2048_S32x2048x1_0_1 : (⟨S32x2048, .i1⟩ : BufTy).Contents (Elt F) → (⟨S32x2048x1, .i1⟩ : BufTy).Contents (Elt F)) : HloOp τ sig (Elt F)) V) := by
  obtain ⟨h_arg0, h_arg1, h_arg2, h_arg3, h_v1, h_v4, h_v41, h_v69⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v4,
    (unary_result_ne _ _ _ _ _ V (by decide)).trans h_v41,
    (unary_result_ne _ _ _ _ _ V (by decide)).trans h_v69,
    (unary_result _ _ _ _ _ V).trans (by rw [h_v1]; first | done | rfl)⟩

theorem step77 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv76 a0 a1 a2 a3 V) :
    Inv77 a0 a1 a2 a3 (HloOp.result (unary main_v4 main_v71 (broadcastInDim S32x1x128 ![0, 2] bcast_S32x128_S32x1x128_0_2 : (⟨S32x128, .i1⟩ : BufTy).Contents (Elt F) → (⟨S32x1x128, .i1⟩ : BufTy).Contents (Elt F)) : HloOp τ sig (Elt F)) V) := by
  obtain ⟨h_arg0, h_arg1, h_arg2, h_arg3, h_v1, h_v4, h_v41, h_v69, h_v70⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v70,
    (unary_result _ _ _ _ _ V).trans (by rw [h_v4]; first | done | rfl)⟩

theorem step78 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv77 a0 a1 a2 a3 V) :
    Inv78 a0 a1 a2 a3 (HloOp.result (unary main_v70 main_v72 (broadcastInDim S32x2048x128 ![0, 1, 2] bcast_S32x2048x1_S32x2048x128_0_1_2 : (⟨S32x2048x1, .i1⟩ : BufTy).Contents (Elt F) → (⟨S32x2048x128, .i1⟩ : BufTy).Contents (Elt F)) : HloOp τ sig (Elt F)) V) := by
  obtain ⟨h_arg0, h_arg1, h_arg2, h_arg3, h_v1, h_v41, h_v69, h_v70, h_v71⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v71,
    (unary_result _ _ _ _ _ V).trans (by rw [h_v70]; first | done | rfl)⟩

theorem step79 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv78 a0 a1 a2 a3 V) :
    Inv79 a0 a1 a2 a3 (HloOp.result (unary main_v71 main_v73 (broadcastInDim S32x2048x128 ![0, 1, 2] bcast_S32x1x128_S32x2048x128_0_1_2 : (⟨S32x1x128, .i1⟩ : BufTy).Contents (Elt F) → (⟨S32x2048x128, .i1⟩ : BufTy).Contents (Elt F)) : HloOp τ sig (Elt F)) V) := by
  obtain ⟨h_arg0, h_arg1, h_arg2, h_arg3, h_v1, h_v41, h_v69, h_v71, h_v72⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v72,
    (unary_result _ _ _ _ _ V).trans (by rw [h_v71]; first | done | rfl)⟩

theorem step80 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv79 a0 a1 a2 a3 V) :
    Inv80 a0 a1 a2 a3 (HloOp.result (binary main_v72 main_v73 main_v74 (andi : (⟨S32x2048x128, .i1⟩ : BufTy).Contents (Elt F) → (⟨S32x2048x128, .i1⟩ : BufTy).Contents (Elt F) → (⟨S32x2048x128, .i1⟩ : BufTy).Contents (Elt F)) : HloOp τ sig (Elt F)) V) := by
  obtain ⟨h_arg0, h_arg1, h_arg2, h_arg3, h_v1, h_v41, h_v69, h_v72, h_v73⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v41,
    (binary_result_ne _ _ _ _ _ _ _ V (by decide)).trans h_v69,
    (binary_result _ _ _ _ _ _ _ V).trans (by rw [h_v72, h_v73]; first | done | rfl)⟩

theorem step81 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv80 a0 a1 a2 a3 V) :
    Inv81 a0 a1 a2 a3 (HloOp.result (nullary main_cst_3 (constant S_ .f32 0x00000000#32) : HloOp τ sig (Elt F)) V) := by
  obtain ⟨h_arg0, h_arg1, h_arg2, h_arg3, h_v1, h_v41, h_v69, h_v74⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v41,
    (nullary_result_ne _ _ _ V (by decide)).trans h_v69,
    (nullary_result_ne _ _ _ V (by decide)).trans h_v74,
    (nullary_result _ _ _ V).trans (by first | done | rfl)⟩

theorem step82 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv81 a0 a1 a2 a3 V) :
    Inv82 a0 a1 a2 a3 (HloOp.result (unary main_cst_3 main_v75 (broadcastInDim S32x2048x128 ![] bcast_S_S32x2048x128 : (⟨S_, .f32⟩ : BufTy).Contents (Elt F) → (⟨S32x2048x128, .f32⟩ : BufTy).Contents (Elt F)) : HloOp τ sig (Elt F)) V) := by
  obtain ⟨h_arg0, h_arg1, h_arg2, h_arg3, h_v1, h_v41, h_v69, h_v74, h_cst_3⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v74,
    (unary_result _ _ _ _ _ V).trans (by rw [h_cst_3]; first | done | rfl)⟩

theorem step83 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv82 a0 a1 a2 a3 V) :
    Inv83 a0 a1 a2 a3 (HloOp.result (binary main_v69 main_v75 main_v76 (cmpf .oeq : (⟨S32x2048x128, .f32⟩ : BufTy).Contents (Elt F) → (⟨S32x2048x128, .f32⟩ : BufTy).Contents (Elt F) → (⟨S32x2048x128, .i1⟩ : BufTy).Contents (Elt F)) : HloOp τ sig (Elt F)) V) := by
  obtain ⟨h_arg0, h_arg1, h_arg2, h_arg3, h_v1, h_v41, h_v69, h_v74, h_v75⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v41,
    (binary_result_ne _ _ _ _ _ _ _ V (by decide)).trans h_v69,
    (binary_result_ne _ _ _ _ _ _ _ V (by decide)).trans h_v74,
    (binary_result _ _ _ _ _ _ _ V).trans (by rw [h_v69, h_v75]; first | done | rfl)⟩

theorem step84 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv83 a0 a1 a2 a3 V) :
    Inv84 a0 a1 a2 a3 (HloOp.result (nullary main_cst_4 (constant S_ .f32 0x3F800000#32) : HloOp τ sig (Elt F)) V) := by
  obtain ⟨h_arg0, h_arg1, h_arg2, h_arg3, h_v1, h_v41, h_v69, h_v74, h_v76⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v41,
    (nullary_result_ne _ _ _ V (by decide)).trans h_v69,
    (nullary_result_ne _ _ _ V (by decide)).trans h_v74,
    (nullary_result_ne _ _ _ V (by decide)).trans h_v76,
    (nullary_result _ _ _ V).trans (by first | done | rfl)⟩

theorem step85 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv84 a0 a1 a2 a3 V) :
    Inv85 a0 a1 a2 a3 (HloOp.result (TRef.unary (TRef.of (T := ⟨S_, .f32⟩) main_cst_4) (TRef.of (T := ⟨S_, .f32⟩) main_call0_v0) id : HloOp τ sig (Elt F)) V) := by
  obtain ⟨h_arg0, h_arg1, h_arg2, h_arg3, h_v1, h_v41, h_v69, h_v74, h_v76, h_cst_4⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v74,
    (unary_result_ne _ _ _ _ _ V (by decide)).trans h_v76,
    (unary_result _ _ _ _ _ V).trans (by rw [h_cst_4]; first | done | rfl)⟩

theorem step86 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv85 a0 a1 a2 a3 V) :
    Inv86 a0 a1 a2 a3 (HloOp.result (TRef.unary (TRef.of (T := ⟨S_, .f32⟩) main_call0_v0) (TRef.of (T := ⟨S32x2048x128, .f32⟩) main_call0_v1) (broadcastInDim S32x2048x128 ![] bcast_S_S32x2048x128) : HloOp τ sig (Elt F)) V) := by
  obtain ⟨h_arg0, h_arg1, h_arg2, h_arg3, h_v1, h_v41, h_v69, h_v74, h_v76, h_call0_v0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v41,
    (unary_result_ne _ _ _ _ _ V (by decide)).trans h_v69,
    (unary_result_ne _ _ _ _ _ V (by decide)).trans h_v74,
    (unary_result_ne _ _ _ _ _ V (by decide)).trans h_v76,
    (unary_result _ _ _ _ _ V).trans (by rw [h_call0_v0]; first | done | rfl)⟩

theorem step87 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv86 a0 a1 a2 a3 V) :
    Inv87 a0 a1 a2 a3 (HloOp.result (TRef.ternary (TRef.of (T := ⟨S32x2048x128, .i1⟩) main_v76) (TRef.of (T := ⟨S32x2048x128, .f32⟩) main_call0_v1) (TRef.of (T := ⟨S32x2048x128, .f32⟩) main_v69) (TRef.of (T := ⟨S32x2048x128, .f32⟩) main_v77) select : HloOp τ sig (Elt F)) V) := by
  obtain ⟨h_arg0, h_arg1, h_arg2, h_arg3, h_v1, h_v41, h_v69, h_v74, h_v76, h_call0_v1⟩ := h
  exact ⟨(ternary_result_ne _ _ _ _ _ _ _ _ _ V (by decide)).trans h_arg0,
    (ternary_result_ne _ _ _ _ _ _ _ _ _ V (by decide)).trans h_arg1,
    (ternary_result_ne _ _ _ _ _ _ _ _ _ V (by decide)).trans h_arg2,
    (ternary_result_ne _ _ _ _ _ _ _ _ _ V (by decide)).trans h_arg3,
    (ternary_result_ne _ _ _ _ _ _ _ _ _ V (by decide)).trans h_v1,
    (ternary_result_ne _ _ _ _ _ _ _ _ _ V (by decide)).trans h_v41,
    (ternary_result_ne _ _ _ _ _ _ _ _ _ V (by decide)).trans h_v74,
    (ternary_result _ _ _ _ _ _ _ _ _ V).trans (by show select (V (Proc.devRef .tc main_v76)) (V (Proc.devRef .tc main_call0_v1)) (V (Proc.devRef .tc main_v69)) = _; rw [h_v76, h_call0_v1, h_v69]; first | done | rfl)⟩

theorem step88 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv87 a0 a1 a2 a3 V) :
    Inv88 a0 a1 a2 a3 (HloOp.result (binary main_v41 main_v77 main_v78 (Host.divf : (⟨S32x2048x128, .f32⟩ : BufTy).Contents (Elt F) → (⟨S32x2048x128, .f32⟩ : BufTy).Contents (Elt F) → (⟨S32x2048x128, .f32⟩ : BufTy).Contents (Elt F)) : HloOp τ sig (Elt F)) V) := by
  obtain ⟨h_arg0, h_arg1, h_arg2, h_arg3, h_v1, h_v41, h_v74, h_v77⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v74,
    (binary_result _ _ _ _ _ _ _ V).trans (by rw [h_v41, h_v77]; first | done | rfl)⟩

theorem step89 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv88 a0 a1 a2 a3 V) :
    Inv89 a0 a1 a2 a3 (HloOp.result (nullary main_cst_5 (constant S_ .f32 0x00000000#32) : HloOp τ sig (Elt F)) V) := by
  obtain ⟨h_arg0, h_arg1, h_arg2, h_arg3, h_v1, h_v74, h_v78⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v74,
    (nullary_result_ne _ _ _ V (by decide)).trans h_v78,
    (nullary_result _ _ _ V).trans (by first | done | rfl)⟩

theorem step90 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv89 a0 a1 a2 a3 V) :
    Inv90 a0 a1 a2 a3 (HloOp.result (TRef.unary (TRef.of (T := ⟨S_, .f32⟩) main_cst_5) (TRef.of (T := ⟨S_, .f32⟩) main_call1_v0) id : HloOp τ sig (Elt F)) V) := by
  obtain ⟨h_arg0, h_arg1, h_arg2, h_arg3, h_v1, h_v74, h_v78, h_cst_5⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v74,
    (unary_result_ne _ _ _ _ _ V (by decide)).trans h_v78,
    (unary_result _ _ _ _ _ V).trans (by rw [h_cst_5]; first | done | rfl)⟩

theorem step91 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv90 a0 a1 a2 a3 V) :
    Inv91 a0 a1 a2 a3 (HloOp.result (TRef.unary (TRef.of (T := ⟨S_, .f32⟩) main_call1_v0) (TRef.of (T := ⟨S32x2048x128, .f32⟩) main_call1_v1) (broadcastInDim S32x2048x128 ![] bcast_S_S32x2048x128) : HloOp τ sig (Elt F)) V) := by
  obtain ⟨h_arg0, h_arg1, h_arg2, h_arg3, h_v1, h_v74, h_v78, h_call1_v0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v74,
    (unary_result_ne _ _ _ _ _ V (by decide)).trans h_v78,
    (unary_result _ _ _ _ _ V).trans (by rw [h_call1_v0]; first | done | rfl)⟩

theorem step92 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv91 a0 a1 a2 a3 V) :
    Inv92 a0 a1 a2 a3 (HloOp.result (TRef.ternary (TRef.of (T := ⟨S32x2048x128, .i1⟩) main_v74) (TRef.of (T := ⟨S32x2048x128, .f32⟩) main_v78) (TRef.of (T := ⟨S32x2048x128, .f32⟩) main_call1_v1) (TRef.of (T := ⟨S32x2048x128, .f32⟩) main_v79) select : HloOp τ sig (Elt F)) V) := by
  obtain ⟨h_arg0, h_arg1, h_arg2, h_arg3, h_v1, h_v74, h_v78, h_call1_v1⟩ := h
  exact ⟨(ternary_result_ne _ _ _ _ _ _ _ _ _ V (by decide)).trans h_arg0,
    (ternary_result_ne _ _ _ _ _ _ _ _ _ V (by decide)).trans h_arg1,
    (ternary_result_ne _ _ _ _ _ _ _ _ _ V (by decide)).trans h_arg2,
    (ternary_result_ne _ _ _ _ _ _ _ _ _ V (by decide)).trans h_arg3,
    (ternary_result_ne _ _ _ _ _ _ _ _ _ V (by decide)).trans h_v1,
    (ternary_result _ _ _ _ _ _ _ _ _ V).trans (by show select (V (Proc.devRef .tc main_v74)) (V (Proc.devRef .tc main_v78)) (V (Proc.devRef .tc main_call1_v1)) = _; rw [h_v74, h_v78, h_call1_v1]; first | done | rfl)⟩

theorem step93 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv92 a0 a1 a2 a3 V) :
    Inv93 a0 a1 a2 a3 (HloOp.result (nullary main_cst_6 (constant S_ .f32 0xFF800000#32) : HloOp τ sig (Elt F)) V) := by
  obtain ⟨h_arg0, h_arg1, h_arg2, h_arg3, h_v1, h_v79⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v79,
    (nullary_result _ _ _ V).trans (by first | done | rfl)⟩

theorem step94 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv93 a0 a1 a2 a3 V) :
    Inv94 a0 a1 a2 a3 (HloOp.result (binary main_v79 main_cst_6 main_v80 ((fun x v => Host.reduce FloatOps.maximumf x v reducesTo_S32x2048x128_S32_d1_2 h_S_) : (⟨S32x2048x128, .f32⟩ : BufTy).Contents (Elt F) → (⟨S_, .f32⟩ : BufTy).Contents (Elt F) → (⟨S32, .f32⟩ : BufTy).Contents (Elt F)) : HloOp τ sig (Elt F)) V) := by
  obtain ⟨h_arg0, h_arg1, h_arg2, h_arg3, h_v1, h_v79, h_cst_6⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result _ _ _ _ _ _ _ V).trans (by rw [h_v79, h_cst_6]; first | done | rfl)⟩

theorem step95 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv94 a0 a1 a2 a3 V) :
    Inv95 a0 a1 a2 a3 (HloOp.result (nullary main_c_7 (constantI S_ 1 0#1) : HloOp τ sig (Elt F)) V) := by
  obtain ⟨h_arg0, h_arg1, h_arg2, h_arg3, h_v1, h_v80⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v80,
    (nullary_result _ _ _ V).trans (by first | done | rfl)⟩

theorem step96 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv95 a0 a1 a2 a3 V) :
    Inv96 a0 a1 a2 a3 (HloOp.result (binary main_v1 main_c_7 main_v81 ((fun x v => Host.reduce IntOp.ori x v reducesTo_S32x2048_S32_d1 h_S_) : (⟨S32x2048, .i1⟩ : BufTy).Contents (Elt F) → (⟨S_, .i1⟩ : BufTy).Contents (Elt F) → (⟨S32, .i1⟩ : BufTy).Contents (Elt F)) : HloOp τ sig (Elt F)) V) := by
  obtain ⟨h_arg0, h_arg1, h_arg2, h_arg3, h_v1, h_v80, h_c_7⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v1,
    (binary_result_ne _ _ _ _ _ _ _ V (by decide)).trans h_v80,
    (binary_result _ _ _ _ _ _ _ V).trans (by rw [h_v1, h_c_7]; first | done | rfl)⟩

theorem step97 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv96 a0 a1 a2 a3 V) :
    Inv97 a0 a1 a2 a3 (HloOp.result (nullary main_cst_8 (constant S_ .f32 0xBF800000#32) : HloOp τ sig (Elt F)) V) := by
  obtain ⟨h_arg0, h_arg1, h_arg2, h_arg3, h_v1, h_v80, h_v81⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v1,
    (nullary_result_ne _ _ _ V (by decide)).trans h_v80,
    (nullary_result_ne _ _ _ V (by decide)).trans h_v81,
    (nullary_result _ _ _ V).trans (by first | done | rfl)⟩

theorem step98 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv97 a0 a1 a2 a3 V) :
    Inv98 a0 a1 a2 a3 (HloOp.result (TRef.unary (TRef.of (T := ⟨S_, .f32⟩) main_cst_8) (TRef.of (T := ⟨S_, .f32⟩) main_call2_v0) id : HloOp τ sig (Elt F)) V) := by
  obtain ⟨h_arg0, h_arg1, h_arg2, h_arg3, h_v1, h_v80, h_v81, h_cst_8⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v80,
    (unary_result_ne _ _ _ _ _ V (by decide)).trans h_v81,
    (unary_result _ _ _ _ _ V).trans (by rw [h_cst_8]; first | done | rfl)⟩

theorem step99 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv98 a0 a1 a2 a3 V) :
    Inv99 a0 a1 a2 a3 (HloOp.result (TRef.unary (TRef.of (T := ⟨S_, .f32⟩) main_call2_v0) (TRef.of (T := ⟨S32x2048, .f32⟩) main_call2_v1) (broadcastInDim S32x2048 ![] bcast_S_S32x2048) : HloOp τ sig (Elt F)) V) := by
  obtain ⟨h_arg0, h_arg1, h_arg2, h_arg3, h_v1, h_v80, h_v81, h_call2_v0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v1,
    (unary_result_ne _ _ _ _ _ V (by decide)).trans h_v80,
    (unary_result_ne _ _ _ _ _ V (by decide)).trans h_v81,
    (unary_result _ _ _ _ _ V).trans (by rw [h_call2_v0]; first | done | rfl)⟩

theorem step100 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv99 a0 a1 a2 a3 V) :
    Inv100 a0 a1 a2 a3 (HloOp.result (TRef.ternary (TRef.of (T := ⟨S32x2048, .i1⟩) main_v1) (TRef.of (T := ⟨S32x2048, .f32⟩) main_arg1) (TRef.of (T := ⟨S32x2048, .f32⟩) main_call2_v1) (TRef.of (T := ⟨S32x2048, .f32⟩) main_v82) select : HloOp τ sig (Elt F)) V) := by
  obtain ⟨h_arg0, h_arg1, h_arg2, h_arg3, h_v1, h_v80, h_v81, h_call2_v1⟩ := h
  exact ⟨(ternary_result_ne _ _ _ _ _ _ _ _ _ V (by decide)).trans h_arg0,
    (ternary_result_ne _ _ _ _ _ _ _ _ _ V (by decide)).trans h_arg1,
    (ternary_result_ne _ _ _ _ _ _ _ _ _ V (by decide)).trans h_arg2,
    (ternary_result_ne _ _ _ _ _ _ _ _ _ V (by decide)).trans h_arg3,
    (ternary_result_ne _ _ _ _ _ _ _ _ _ V (by decide)).trans h_v80,
    (ternary_result_ne _ _ _ _ _ _ _ _ _ V (by decide)).trans h_v81,
    (ternary_result _ _ _ _ _ _ _ _ _ V).trans (by show select (V (Proc.devRef .tc main_v1)) (V (Proc.devRef .tc main_arg1)) (V (Proc.devRef .tc main_call2_v1)) = _; rw [h_v1, h_arg1, h_call2_v1]; first | done | rfl)⟩

theorem step101 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv100 a0 a1 a2 a3 V) :
    Inv101 a0 a1 a2 a3 (HloOp.result (nullary main_cst_9 (constant S_ .f32 0xFF800000#32) : HloOp τ sig (Elt F)) V) := by
  obtain ⟨h_arg0, h_arg1, h_arg2, h_arg3, h_v80, h_v81, h_v82⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v80,
    (nullary_result_ne _ _ _ V (by decide)).trans h_v81,
    (nullary_result_ne _ _ _ V (by decide)).trans h_v82,
    (nullary_result _ _ _ V).trans (by first | done | rfl)⟩

theorem step102 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv101 a0 a1 a2 a3 V) :
    Inv102 a0 a1 a2 a3 (HloOp.result (binary main_v82 main_cst_9 main_v83 ((fun x v => Host.reduce FloatOps.maximumf x v reducesTo_S32x2048_S32_d1 h_S_) : (⟨S32x2048, .f32⟩ : BufTy).Contents (Elt F) → (⟨S_, .f32⟩ : BufTy).Contents (Elt F) → (⟨S32, .f32⟩ : BufTy).Contents (Elt F)) : HloOp τ sig (Elt F)) V) := by
  obtain ⟨h_arg0, h_arg1, h_arg2, h_arg3, h_v80, h_v81, h_v82, h_cst_9⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v80,
    (binary_result_ne _ _ _ _ _ _ _ V (by decide)).trans h_v81,
    (binary_result _ _ _ _ _ _ _ V).trans (by rw [h_v82, h_cst_9]; first | done | rfl)⟩

theorem step103 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv102 a0 a1 a2 a3 V) :
    Inv103 a0 a1 a2 a3 (HloOp.result (nullary main_cst_10 (constant S_ .f32 0x3F800000#32) : HloOp τ sig (Elt F)) V) := by
  obtain ⟨h_arg0, h_arg1, h_arg2, h_arg3, h_v80, h_v81, h_v83⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v80,
    (nullary_result_ne _ _ _ V (by decide)).trans h_v81,
    (nullary_result_ne _ _ _ V (by decide)).trans h_v83,
    (nullary_result _ _ _ V).trans (by first | done | rfl)⟩

theorem step104 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv103 a0 a1 a2 a3 V) :
    Inv104 a0 a1 a2 a3 (HloOp.result (unary main_cst_10 main_v84 (broadcastInDim S32 ![] bcast_S_S32 : (⟨S_, .f32⟩ : BufTy).Contents (Elt F) → (⟨S32, .f32⟩ : BufTy).Contents (Elt F)) : HloOp τ sig (Elt F)) V) := by
  obtain ⟨h_arg0, h_arg1, h_arg2, h_arg3, h_v80, h_v81, h_v83, h_cst_10⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result_ne _ _ _ _ _ V (by decide)).trans h_v83,
    (unary_result _ _ _ _ _ V).trans (by rw [h_cst_10]; first | done | rfl)⟩

theorem step105 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv104 a0 a1 a2 a3 V) :
    Inv105 a0 a1 a2 a3 (HloOp.result (binary main_v83 main_v84 main_v85 (addf : (⟨S32, .f32⟩ : BufTy).Contents (Elt F) → (⟨S32, .f32⟩ : BufTy).Contents (Elt F) → (⟨S32, .f32⟩ : BufTy).Contents (Elt F)) : HloOp τ sig (Elt F)) V) := by
  obtain ⟨h_arg0, h_arg1, h_arg2, h_arg3, h_v80, h_v81, h_v83, h_v84⟩ := h
  exact ⟨(binary_result_ne _ _ _ _ _ _ _ V (by decide)).trans h_arg0,
    (binary_result_ne _ _ _ _ _ _ _ V (by decide)).trans h_arg1,
    (binary_result_ne _ _ _ _ _ _ _ V (by decide)).trans h_arg2,
    (binary_result_ne _ _ _ _ _ _ _ V (by decide)).trans h_arg3,
    (binary_result_ne _ _ _ _ _ _ _ V (by decide)).trans h_v80,
    (binary_result_ne _ _ _ _ _ _ _ V (by decide)).trans h_v81,
    (binary_result _ _ _ _ _ _ _ V).trans (by rw [h_v83, h_v84]; first | done | rfl)⟩

theorem step106 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv105 a0 a1 a2 a3 V) :
    Inv106 a0 a1 a2 a3 (HloOp.result (unary main_v85 main_v86 (Host.sqrt : (⟨S32, .f32⟩ : BufTy).Contents (Elt F) → (⟨S32, .f32⟩ : BufTy).Contents (Elt F)) : HloOp τ sig (Elt F)) V) := by
  obtain ⟨h_arg0, h_arg1, h_arg2, h_arg3, h_v80, h_v81, h_v85⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result _ _ _ _ _ V).trans (by rw [h_v85]; first | done | rfl)⟩

theorem step107 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv106 a0 a1 a2 a3 V) :
    Inv107 a0 a1 a2 a3 (HloOp.result (nullary main_cst_11 (constant S_ .f32 0x00000000#32) : HloOp τ sig (Elt F)) V) := by
  obtain ⟨h_arg0, h_arg1, h_arg2, h_arg3, h_v80, h_v81, h_v86⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v80,
    (nullary_result_ne _ _ _ V (by decide)).trans h_v81,
    (nullary_result_ne _ _ _ V (by decide)).trans h_v86,
    (nullary_result _ _ _ V).trans (by first | done | rfl)⟩

theorem step108 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv107 a0 a1 a2 a3 V) :
    Inv108 a0 a1 a2 a3 (HloOp.result (TRef.unary (TRef.of (T := ⟨S_, .f32⟩) main_cst_11) (TRef.of (T := ⟨S_, .f32⟩) main_call3_v0) id : HloOp τ sig (Elt F)) V) := by
  obtain ⟨h_arg0, h_arg1, h_arg2, h_arg3, h_v80, h_v81, h_v86, h_cst_11⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result_ne _ _ _ _ _ V (by decide)).trans h_v86,
    (unary_result _ _ _ _ _ V).trans (by rw [h_cst_11]; first | done | rfl)⟩

theorem step109 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv108 a0 a1 a2 a3 V) :
    Inv109 a0 a1 a2 a3 (HloOp.result (TRef.unary (TRef.of (T := ⟨S_, .f32⟩) main_call3_v0) (TRef.of (T := ⟨S32, .f32⟩) main_call3_v1) (broadcastInDim S32 ![] bcast_S_S32) : HloOp τ sig (Elt F)) V) := by
  obtain ⟨h_arg0, h_arg1, h_arg2, h_arg3, h_v80, h_v81, h_v86, h_call3_v0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result_ne _ _ _ _ _ V (by decide)).trans h_v86,
    (unary_result _ _ _ _ _ V).trans (by rw [h_call3_v0]; first | done | rfl)⟩

theorem step110 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv109 a0 a1 a2 a3 V) :
    Inv110 a0 a1 a2 a3 (HloOp.result (TRef.ternary (TRef.of (T := ⟨S32, .i1⟩) main_v81) (TRef.of (T := ⟨S32, .f32⟩) main_v86) (TRef.of (T := ⟨S32, .f32⟩) main_call3_v1) (TRef.of (T := ⟨S32, .f32⟩) main_v87) select : HloOp τ sig (Elt F)) V) := by
  obtain ⟨h_arg0, h_arg1, h_arg2, h_arg3, h_v80, h_v81, h_v86, h_call3_v1⟩ := h
  exact ⟨(ternary_result_ne _ _ _ _ _ _ _ _ _ V (by decide)).trans h_arg0,
    (ternary_result_ne _ _ _ _ _ _ _ _ _ V (by decide)).trans h_arg1,
    (ternary_result_ne _ _ _ _ _ _ _ _ _ V (by decide)).trans h_arg2,
    (ternary_result_ne _ _ _ _ _ _ _ _ _ V (by decide)).trans h_arg3,
    (ternary_result_ne _ _ _ _ _ _ _ _ _ V (by decide)).trans h_v80,
    (ternary_result_ne _ _ _ _ _ _ _ _ _ V (by decide)).trans h_v81,
    (ternary_result _ _ _ _ _ _ _ _ _ V).trans (by show select (V (Proc.devRef .tc main_v81)) (V (Proc.devRef .tc main_v86)) (V (Proc.devRef .tc main_call3_v1)) = _; rw [h_v81, h_v86, h_call3_v1]; first | done | rfl)⟩

theorem step111 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv110 a0 a1 a2 a3 V) :
    Inv111 a0 a1 a2 a3 (HloOp.result (nullary main_cst_12 (constant S_ .f32 0x00000000#32) : HloOp τ sig (Elt F)) V) := by
  obtain ⟨h_arg0, h_arg1, h_arg2, h_arg3, h_v80, h_v81, h_v87⟩ := h
  exact ⟨(nullary_result_ne _ _ _ V (by decide)).trans h_arg0,
    (nullary_result_ne _ _ _ V (by decide)).trans h_arg1,
    (nullary_result_ne _ _ _ V (by decide)).trans h_arg2,
    (nullary_result_ne _ _ _ V (by decide)).trans h_arg3,
    (nullary_result_ne _ _ _ V (by decide)).trans h_v80,
    (nullary_result_ne _ _ _ V (by decide)).trans h_v81,
    (nullary_result_ne _ _ _ V (by decide)).trans h_v87,
    (nullary_result _ _ _ V).trans (by first | done | rfl)⟩

theorem step112 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv111 a0 a1 a2 a3 V) :
    Inv112 a0 a1 a2 a3 (HloOp.result (TRef.unary (TRef.of (T := ⟨S_, .f32⟩) main_cst_12) (TRef.of (T := ⟨S_, .f32⟩) main_call4_v0) id : HloOp τ sig (Elt F)) V) := by
  obtain ⟨h_arg0, h_arg1, h_arg2, h_arg3, h_v80, h_v81, h_v87, h_cst_12⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result_ne _ _ _ _ _ V (by decide)).trans h_v87,
    (unary_result _ _ _ _ _ V).trans (by rw [h_cst_12]; first | done | rfl)⟩

theorem step113 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv112 a0 a1 a2 a3 V) :
    Inv113 a0 a1 a2 a3 (HloOp.result (TRef.unary (TRef.of (T := ⟨S_, .f32⟩) main_call4_v0) (TRef.of (T := ⟨S32, .f32⟩) main_call4_v1) (broadcastInDim S32 ![] bcast_S_S32) : HloOp τ sig (Elt F)) V) := by
  obtain ⟨h_arg0, h_arg1, h_arg2, h_arg3, h_v80, h_v81, h_v87, h_call4_v0⟩ := h
  exact ⟨(unary_result_ne _ _ _ _ _ V (by decide)).trans h_arg0,
    (unary_result_ne _ _ _ _ _ V (by decide)).trans h_arg1,
    (unary_result_ne _ _ _ _ _ V (by decide)).trans h_arg2,
    (unary_result_ne _ _ _ _ _ V (by decide)).trans h_arg3,
    (unary_result_ne _ _ _ _ _ V (by decide)).trans h_v80,
    (unary_result_ne _ _ _ _ _ V (by decide)).trans h_v81,
    (unary_result_ne _ _ _ _ _ V (by decide)).trans h_v87,
    (unary_result _ _ _ _ _ V).trans (by rw [h_call4_v0]; first | done | rfl)⟩

theorem step114 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv113 a0 a1 a2 a3 V) :
    Inv114 a0 a1 a2 a3 (HloOp.result (TRef.ternary (TRef.of (T := ⟨S32, .i1⟩) main_v81) (TRef.of (T := ⟨S32, .f32⟩) main_v80) (TRef.of (T := ⟨S32, .f32⟩) main_call4_v1) (TRef.of (T := ⟨S32, .f32⟩) main_v88) select : HloOp τ sig (Elt F)) V) := by
  obtain ⟨h_arg0, h_arg1, h_arg2, h_arg3, h_v80, h_v81, h_v87, h_call4_v1⟩ := h
  exact ⟨(ternary_result_ne _ _ _ _ _ _ _ _ _ V (by decide)).trans h_arg0,
    (ternary_result_ne _ _ _ _ _ _ _ _ _ V (by decide)).trans h_arg1,
    (ternary_result_ne _ _ _ _ _ _ _ _ _ V (by decide)).trans h_arg2,
    (ternary_result_ne _ _ _ _ _ _ _ _ _ V (by decide)).trans h_arg3,
    (ternary_result_ne _ _ _ _ _ _ _ _ _ V (by decide)).trans h_v87,
    (ternary_result _ _ _ _ _ _ _ _ _ V).trans (by show select (V (Proc.devRef .tc main_v81)) (V (Proc.devRef .tc main_v80)) (V (Proc.devRef .tc main_call4_v1)) = _; rw [h_v81, h_v80, h_call4_v1]; first | done | rfl)⟩

/-- Before any operation the arguments hold their launch contents and nothing else is asked. -/
theorem inv_start (V : Valuation τ sig (Elt F)) :
    Inv0 (V (Proc.devRef .tc main_arg0)) (V (Proc.devRef .tc main_arg1)) (V (Proc.devRef .tc main_arg2)) (V (Proc.devRef .tc main_arg3)) V :=
  ⟨rfl, rfl, rfl, rfl⟩

/-! The operations from the k-th on, as a list: the whole line is the list from the first on. -/

abbrev tail114 : List (HloOp τ sig (Elt F)) := []
abbrev tail113 : List (HloOp τ sig (Elt F)) :=
  (TRef.ternary (TRef.of (T := ⟨S32, .i1⟩) main_v81) (TRef.of (T := ⟨S32, .f32⟩) main_v80) (TRef.of (T := ⟨S32, .f32⟩) main_call4_v1) (TRef.of (T := ⟨S32, .f32⟩) main_v88) select : HloOp τ sig (Elt F)) :: tail114 (F := F)
abbrev tail112 : List (HloOp τ sig (Elt F)) :=
  (TRef.unary (TRef.of (T := ⟨S_, .f32⟩) main_call4_v0) (TRef.of (T := ⟨S32, .f32⟩) main_call4_v1) (broadcastInDim S32 ![] bcast_S_S32) : HloOp τ sig (Elt F)) :: tail113 (F := F)
abbrev tail111 : List (HloOp τ sig (Elt F)) :=
  (TRef.unary (TRef.of (T := ⟨S_, .f32⟩) main_cst_12) (TRef.of (T := ⟨S_, .f32⟩) main_call4_v0) id : HloOp τ sig (Elt F)) :: tail112 (F := F)
abbrev tail110 : List (HloOp τ sig (Elt F)) :=
  (nullary main_cst_12 (constant S_ .f32 0x00000000#32) : HloOp τ sig (Elt F)) :: tail111 (F := F)
abbrev tail109 : List (HloOp τ sig (Elt F)) :=
  (TRef.ternary (TRef.of (T := ⟨S32, .i1⟩) main_v81) (TRef.of (T := ⟨S32, .f32⟩) main_v86) (TRef.of (T := ⟨S32, .f32⟩) main_call3_v1) (TRef.of (T := ⟨S32, .f32⟩) main_v87) select : HloOp τ sig (Elt F)) :: tail110 (F := F)
abbrev tail108 : List (HloOp τ sig (Elt F)) :=
  (TRef.unary (TRef.of (T := ⟨S_, .f32⟩) main_call3_v0) (TRef.of (T := ⟨S32, .f32⟩) main_call3_v1) (broadcastInDim S32 ![] bcast_S_S32) : HloOp τ sig (Elt F)) :: tail109 (F := F)
abbrev tail107 : List (HloOp τ sig (Elt F)) :=
  (TRef.unary (TRef.of (T := ⟨S_, .f32⟩) main_cst_11) (TRef.of (T := ⟨S_, .f32⟩) main_call3_v0) id : HloOp τ sig (Elt F)) :: tail108 (F := F)
abbrev tail106 : List (HloOp τ sig (Elt F)) :=
  (nullary main_cst_11 (constant S_ .f32 0x00000000#32) : HloOp τ sig (Elt F)) :: tail107 (F := F)
abbrev tail105 : List (HloOp τ sig (Elt F)) :=
  (unary main_v85 main_v86 (Host.sqrt : (⟨S32, .f32⟩ : BufTy).Contents (Elt F) → (⟨S32, .f32⟩ : BufTy).Contents (Elt F)) : HloOp τ sig (Elt F)) :: tail106 (F := F)
abbrev tail104 : List (HloOp τ sig (Elt F)) :=
  (binary main_v83 main_v84 main_v85 (addf : (⟨S32, .f32⟩ : BufTy).Contents (Elt F) → (⟨S32, .f32⟩ : BufTy).Contents (Elt F) → (⟨S32, .f32⟩ : BufTy).Contents (Elt F)) : HloOp τ sig (Elt F)) :: tail105 (F := F)
abbrev tail103 : List (HloOp τ sig (Elt F)) :=
  (unary main_cst_10 main_v84 (broadcastInDim S32 ![] bcast_S_S32 : (⟨S_, .f32⟩ : BufTy).Contents (Elt F) → (⟨S32, .f32⟩ : BufTy).Contents (Elt F)) : HloOp τ sig (Elt F)) :: tail104 (F := F)
abbrev tail102 : List (HloOp τ sig (Elt F)) :=
  (nullary main_cst_10 (constant S_ .f32 0x3F800000#32) : HloOp τ sig (Elt F)) :: tail103 (F := F)
abbrev tail101 : List (HloOp τ sig (Elt F)) :=
  (binary main_v82 main_cst_9 main_v83 ((fun x v => Host.reduce FloatOps.maximumf x v reducesTo_S32x2048_S32_d1 h_S_) : (⟨S32x2048, .f32⟩ : BufTy).Contents (Elt F) → (⟨S_, .f32⟩ : BufTy).Contents (Elt F) → (⟨S32, .f32⟩ : BufTy).Contents (Elt F)) : HloOp τ sig (Elt F)) :: tail102 (F := F)
abbrev tail100 : List (HloOp τ sig (Elt F)) :=
  (nullary main_cst_9 (constant S_ .f32 0xFF800000#32) : HloOp τ sig (Elt F)) :: tail101 (F := F)
abbrev tail99 : List (HloOp τ sig (Elt F)) :=
  (TRef.ternary (TRef.of (T := ⟨S32x2048, .i1⟩) main_v1) (TRef.of (T := ⟨S32x2048, .f32⟩) main_arg1) (TRef.of (T := ⟨S32x2048, .f32⟩) main_call2_v1) (TRef.of (T := ⟨S32x2048, .f32⟩) main_v82) select : HloOp τ sig (Elt F)) :: tail100 (F := F)
abbrev tail98 : List (HloOp τ sig (Elt F)) :=
  (TRef.unary (TRef.of (T := ⟨S_, .f32⟩) main_call2_v0) (TRef.of (T := ⟨S32x2048, .f32⟩) main_call2_v1) (broadcastInDim S32x2048 ![] bcast_S_S32x2048) : HloOp τ sig (Elt F)) :: tail99 (F := F)
abbrev tail97 : List (HloOp τ sig (Elt F)) :=
  (TRef.unary (TRef.of (T := ⟨S_, .f32⟩) main_cst_8) (TRef.of (T := ⟨S_, .f32⟩) main_call2_v0) id : HloOp τ sig (Elt F)) :: tail98 (F := F)
abbrev tail96 : List (HloOp τ sig (Elt F)) :=
  (nullary main_cst_8 (constant S_ .f32 0xBF800000#32) : HloOp τ sig (Elt F)) :: tail97 (F := F)
abbrev tail95 : List (HloOp τ sig (Elt F)) :=
  (binary main_v1 main_c_7 main_v81 ((fun x v => Host.reduce IntOp.ori x v reducesTo_S32x2048_S32_d1 h_S_) : (⟨S32x2048, .i1⟩ : BufTy).Contents (Elt F) → (⟨S_, .i1⟩ : BufTy).Contents (Elt F) → (⟨S32, .i1⟩ : BufTy).Contents (Elt F)) : HloOp τ sig (Elt F)) :: tail96 (F := F)
abbrev tail94 : List (HloOp τ sig (Elt F)) :=
  (nullary main_c_7 (constantI S_ 1 0#1) : HloOp τ sig (Elt F)) :: tail95 (F := F)
abbrev tail93 : List (HloOp τ sig (Elt F)) :=
  (binary main_v79 main_cst_6 main_v80 ((fun x v => Host.reduce FloatOps.maximumf x v reducesTo_S32x2048x128_S32_d1_2 h_S_) : (⟨S32x2048x128, .f32⟩ : BufTy).Contents (Elt F) → (⟨S_, .f32⟩ : BufTy).Contents (Elt F) → (⟨S32, .f32⟩ : BufTy).Contents (Elt F)) : HloOp τ sig (Elt F)) :: tail94 (F := F)
abbrev tail92 : List (HloOp τ sig (Elt F)) :=
  (nullary main_cst_6 (constant S_ .f32 0xFF800000#32) : HloOp τ sig (Elt F)) :: tail93 (F := F)
abbrev tail91 : List (HloOp τ sig (Elt F)) :=
  (TRef.ternary (TRef.of (T := ⟨S32x2048x128, .i1⟩) main_v74) (TRef.of (T := ⟨S32x2048x128, .f32⟩) main_v78) (TRef.of (T := ⟨S32x2048x128, .f32⟩) main_call1_v1) (TRef.of (T := ⟨S32x2048x128, .f32⟩) main_v79) select : HloOp τ sig (Elt F)) :: tail92 (F := F)
abbrev tail90 : List (HloOp τ sig (Elt F)) :=
  (TRef.unary (TRef.of (T := ⟨S_, .f32⟩) main_call1_v0) (TRef.of (T := ⟨S32x2048x128, .f32⟩) main_call1_v1) (broadcastInDim S32x2048x128 ![] bcast_S_S32x2048x128) : HloOp τ sig (Elt F)) :: tail91 (F := F)
abbrev tail89 : List (HloOp τ sig (Elt F)) :=
  (TRef.unary (TRef.of (T := ⟨S_, .f32⟩) main_cst_5) (TRef.of (T := ⟨S_, .f32⟩) main_call1_v0) id : HloOp τ sig (Elt F)) :: tail90 (F := F)
abbrev tail88 : List (HloOp τ sig (Elt F)) :=
  (nullary main_cst_5 (constant S_ .f32 0x00000000#32) : HloOp τ sig (Elt F)) :: tail89 (F := F)
abbrev tail87 : List (HloOp τ sig (Elt F)) :=
  (binary main_v41 main_v77 main_v78 (Host.divf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail88 (F := F)
abbrev tail86 : List (HloOp τ sig (Elt F)) :=
  (TRef.ternary (TRef.of (T := ⟨S32x2048x128, .i1⟩) main_v76) (TRef.of (T := ⟨S32x2048x128, .f32⟩) main_call0_v1) (TRef.of (T := ⟨S32x2048x128, .f32⟩) main_v69) (TRef.of (T := ⟨S32x2048x128, .f32⟩) main_v77) select : HloOp τ sig (Elt F)) :: tail87 (F := F)
abbrev tail85 : List (HloOp τ sig (Elt F)) :=
  (TRef.unary (TRef.of (T := ⟨S_, .f32⟩) main_call0_v0) (TRef.of (T := ⟨S32x2048x128, .f32⟩) main_call0_v1) (broadcastInDim S32x2048x128 ![] bcast_S_S32x2048x128) : HloOp τ sig (Elt F)) :: tail86 (F := F)
abbrev tail84 : List (HloOp τ sig (Elt F)) :=
  (TRef.unary (TRef.of (T := ⟨S_, .f32⟩) main_cst_4) (TRef.of (T := ⟨S_, .f32⟩) main_call0_v0) id : HloOp τ sig (Elt F)) :: tail85 (F := F)
abbrev tail83 : List (HloOp τ sig (Elt F)) :=
  (nullary main_cst_4 (constant S_ .f32 0x3F800000#32) : HloOp τ sig (Elt F)) :: tail84 (F := F)
abbrev tail82 : List (HloOp τ sig (Elt F)) :=
  (binary main_v69 main_v75 main_v76 (cmpf .oeq : (⟨S32x2048x128, .f32⟩ : BufTy).Contents (Elt F) → (⟨S32x2048x128, .f32⟩ : BufTy).Contents (Elt F) → (⟨S32x2048x128, .i1⟩ : BufTy).Contents (Elt F)) : HloOp τ sig (Elt F)) :: tail83 (F := F)
abbrev tail81 : List (HloOp τ sig (Elt F)) :=
  (unary main_cst_3 main_v75 (broadcastInDim S32x2048x128 ![] bcast_S_S32x2048x128 : (⟨S_, .f32⟩ : BufTy).Contents (Elt F) → (⟨S32x2048x128, .f32⟩ : BufTy).Contents (Elt F)) : HloOp τ sig (Elt F)) :: tail82 (F := F)
abbrev tail80 : List (HloOp τ sig (Elt F)) :=
  (nullary main_cst_3 (constant S_ .f32 0x00000000#32) : HloOp τ sig (Elt F)) :: tail81 (F := F)
abbrev tail79 : List (HloOp τ sig (Elt F)) :=
  (binary main_v72 main_v73 main_v74 (andi : (⟨S32x2048x128, .i1⟩ : BufTy).Contents (Elt F) → (⟨S32x2048x128, .i1⟩ : BufTy).Contents (Elt F) → (⟨S32x2048x128, .i1⟩ : BufTy).Contents (Elt F)) : HloOp τ sig (Elt F)) :: tail80 (F := F)
abbrev tail78 : List (HloOp τ sig (Elt F)) :=
  (unary main_v71 main_v73 (broadcastInDim S32x2048x128 ![0, 1, 2] bcast_S32x1x128_S32x2048x128_0_1_2 : (⟨S32x1x128, .i1⟩ : BufTy).Contents (Elt F) → (⟨S32x2048x128, .i1⟩ : BufTy).Contents (Elt F)) : HloOp τ sig (Elt F)) :: tail79 (F := F)
abbrev tail77 : List (HloOp τ sig (Elt F)) :=
  (unary main_v70 main_v72 (broadcastInDim S32x2048x128 ![0, 1, 2] bcast_S32x2048x1_S32x2048x128_0_1_2 : (⟨S32x2048x1, .i1⟩ : BufTy).Contents (Elt F) → (⟨S32x2048x128, .i1⟩ : BufTy).Contents (Elt F)) : HloOp τ sig (Elt F)) :: tail78 (F := F)
abbrev tail76 : List (HloOp τ sig (Elt F)) :=
  (unary main_v4 main_v71 (broadcastInDim S32x1x128 ![0, 2] bcast_S32x128_S32x1x128_0_2 : (⟨S32x128, .i1⟩ : BufTy).Contents (Elt F) → (⟨S32x1x128, .i1⟩ : BufTy).Contents (Elt F)) : HloOp τ sig (Elt F)) :: tail77 (F := F)
abbrev tail75 : List (HloOp τ sig (Elt F)) :=
  (unary main_v1 main_v70 (broadcastInDim S32x2048x1 ![0, 1] bcast_S32x2048_S32x2048x1_0_1 : (⟨S32x2048, .i1⟩ : BufTy).Contents (Elt F) → (⟨S32x2048x1, .i1⟩ : BufTy).Contents (Elt F)) : HloOp τ sig (Elt F)) :: tail76 (F := F)
abbrev tail74 : List (HloOp τ sig (Elt F)) :=
  (binary main_v68 main_v41 main_v69 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail75 (F := F)
abbrev tail73 : List (HloOp τ sig (Elt F)) :=
  (binary main_v66 main_v67 main_v68 (addf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail74 (F := F)
abbrev tail72 : List (HloOp τ sig (Elt F)) :=
  (unary main_v65 main_v67 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) :: tail73 (F := F)
abbrev tail71 : List (HloOp τ sig (Elt F)) :=
  (unary main_v64 main_v66 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) :: tail72 (F := F)
abbrev tail70 : List (HloOp τ sig (Elt F)) :=
  (unary main_v63 main_v65 (broadcastInDim S32x1x128 ![0, 2] bcast_S32x128_S32x1x128_0_2 : (⟨S32x128, .f32⟩ : BufTy).Contents (Elt F) → (⟨S32x1x128, .f32⟩ : BufTy).Contents (Elt F)) : HloOp τ sig (Elt F)) :: tail71 (F := F)
abbrev tail69 : List (HloOp τ sig (Elt F)) :=
  (unary main_v52 main_v64 (broadcastInDim S32x2048x1 ![0, 1] bcast_S32x2048_S32x2048x1_0_1 : (⟨S32x2048, .f32⟩ : BufTy).Contents (Elt F) → (⟨S32x2048x1, .f32⟩ : BufTy).Contents (Elt F)) : HloOp τ sig (Elt F)) :: tail70 (F := F)
abbrev tail68 : List (HloOp τ sig (Elt F)) :=
  (binary main_v57 main_v62 main_v63 (mulf : (⟨S32x128, .f32⟩ : BufTy).Contents (Elt F) → (⟨S32x128, .f32⟩ : BufTy).Contents (Elt F) → (⟨S32x128, .f32⟩ : BufTy).Contents (Elt F)) : HloOp τ sig (Elt F)) :: tail69 (F := F)
abbrev tail67 : List (HloOp τ sig (Elt F)) :=
  (binary main_v59 main_v61 main_v62 (subf : (⟨S32x128, .f32⟩ : BufTy).Contents (Elt F) → (⟨S32x128, .f32⟩ : BufTy).Contents (Elt F) → (⟨S32x128, .f32⟩ : BufTy).Contents (Elt F)) : HloOp τ sig (Elt F)) :: tail68 (F := F)
abbrev tail66 : List (HloOp τ sig (Elt F)) :=
  (reshape main_v60 main_v61 rfl shapeCasts_S32x128x1_S32x128 : HloOp τ sig (Elt F)) :: tail67 (F := F)
abbrev tail65 : List (HloOp τ sig (Elt F)) :=
  (unary main_arg3 main_v60 ((extractStridedSlice S32x128x1 ![0, 0, 1] · slices_S32x128x4_S32x128x1_0_0_1) : (⟨S32x128x4, .f32⟩ : BufTy).Contents (Elt F) → (⟨S32x128x1, .f32⟩ : BufTy).Contents (Elt F)) : HloOp τ sig (Elt F)) :: tail66 (F := F)
abbrev tail64 : List (HloOp τ sig (Elt F)) :=
  (reshape main_v58 main_v59 rfl shapeCasts_S32x128x1_S32x128 : HloOp τ sig (Elt F)) :: tail65 (F := F)
abbrev tail63 : List (HloOp τ sig (Elt F)) :=
  (unary main_arg3 main_v58 ((extractStridedSlice S32x128x1 ![0, 0, 3] · slices_S32x128x4_S32x128x1_0_0_3) : (⟨S32x128x4, .f32⟩ : BufTy).Contents (Elt F) → (⟨S32x128x1, .f32⟩ : BufTy).Contents (Elt F)) : HloOp τ sig (Elt F)) :: tail64 (F := F)
abbrev tail62 : List (HloOp τ sig (Elt F)) :=
  (binary main_v54 main_v56 main_v57 (subf : (⟨S32x128, .f32⟩ : BufTy).Contents (Elt F) → (⟨S32x128, .f32⟩ : BufTy).Contents (Elt F) → (⟨S32x128, .f32⟩ : BufTy).Contents (Elt F)) : HloOp τ sig (Elt F)) :: tail63 (F := F)
abbrev tail61 : List (HloOp τ sig (Elt F)) :=
  (reshape main_v55 main_v56 rfl shapeCasts_S32x128x1_S32x128 : HloOp τ sig (Elt F)) :: tail62 (F := F)
abbrev tail60 : List (HloOp τ sig (Elt F)) :=
  (unary main_arg3 main_v55 ((extractStridedSlice S32x128x1 ![0, 0, 0] · slices_S32x128x4_S32x128x1_0_0_0) : (⟨S32x128x4, .f32⟩ : BufTy).Contents (Elt F) → (⟨S32x128x1, .f32⟩ : BufTy).Contents (Elt F)) : HloOp τ sig (Elt F)) :: tail61 (F := F)
abbrev tail59 : List (HloOp τ sig (Elt F)) :=
  (reshape main_v53 main_v54 rfl shapeCasts_S32x128x1_S32x128 : HloOp τ sig (Elt F)) :: tail60 (F := F)
abbrev tail58 : List (HloOp τ sig (Elt F)) :=
  (unary main_arg3 main_v53 ((extractStridedSlice S32x128x1 ![0, 0, 2] · slices_S32x128x4_S32x128x1_0_0_2) : (⟨S32x128x4, .f32⟩ : BufTy).Contents (Elt F) → (⟨S32x128x1, .f32⟩ : BufTy).Contents (Elt F)) : HloOp τ sig (Elt F)) :: tail59 (F := F)
abbrev tail57 : List (HloOp τ sig (Elt F)) :=
  (binary main_v46 main_v51 main_v52 (mulf : (⟨S32x2048, .f32⟩ : BufTy).Contents (Elt F) → (⟨S32x2048, .f32⟩ : BufTy).Contents (Elt F) → (⟨S32x2048, .f32⟩ : BufTy).Contents (Elt F)) : HloOp τ sig (Elt F)) :: tail58 (F := F)
abbrev tail56 : List (HloOp τ sig (Elt F)) :=
  (binary main_v48 main_v50 main_v51 (subf : (⟨S32x2048, .f32⟩ : BufTy).Contents (Elt F) → (⟨S32x2048, .f32⟩ : BufTy).Contents (Elt F) → (⟨S32x2048, .f32⟩ : BufTy).Contents (Elt F)) : HloOp τ sig (Elt F)) :: tail57 (F := F)
abbrev tail55 : List (HloOp τ sig (Elt F)) :=
  (reshape main_v49 main_v50 rfl shapeCasts_S32x2048x1_S32x2048 : HloOp τ sig (Elt F)) :: tail56 (F := F)
abbrev tail54 : List (HloOp τ sig (Elt F)) :=
  (unary main_arg0 main_v49 ((extractStridedSlice S32x2048x1 ![0, 0, 1] · slices_S32x2048x4_S32x2048x1_0_0_1) : (⟨S32x2048x4, .f32⟩ : BufTy).Contents (Elt F) → (⟨S32x2048x1, .f32⟩ : BufTy).Contents (Elt F)) : HloOp τ sig (Elt F)) :: tail55 (F := F)
abbrev tail53 : List (HloOp τ sig (Elt F)) :=
  (reshape main_v47 main_v48 rfl shapeCasts_S32x2048x1_S32x2048 : HloOp τ sig (Elt F)) :: tail54 (F := F)
abbrev tail52 : List (HloOp τ sig (Elt F)) :=
  (unary main_arg0 main_v47 ((extractStridedSlice S32x2048x1 ![0, 0, 3] · slices_S32x2048x4_S32x2048x1_0_0_3) : (⟨S32x2048x4, .f32⟩ : BufTy).Contents (Elt F) → (⟨S32x2048x1, .f32⟩ : BufTy).Contents (Elt F)) : HloOp τ sig (Elt F)) :: tail53 (F := F)
abbrev tail51 : List (HloOp τ sig (Elt F)) :=
  (binary main_v43 main_v45 main_v46 (subf : (⟨S32x2048, .f32⟩ : BufTy).Contents (Elt F) → (⟨S32x2048, .f32⟩ : BufTy).Contents (Elt F) → (⟨S32x2048, .f32⟩ : BufTy).Contents (Elt F)) : HloOp τ sig (Elt F)) :: tail52 (F := F)
abbrev tail50 : List (HloOp τ sig (Elt F)) :=
  (reshape main_v44 main_v45 rfl shapeCasts_S32x2048x1_S32x2048 : HloOp τ sig (Elt F)) :: tail51 (F := F)
abbrev tail49 : List (HloOp τ sig (Elt F)) :=
  (unary main_arg0 main_v44 ((extractStridedSlice S32x2048x1 ![0, 0, 0] · slices_S32x2048x4_S32x2048x1_0_0_0) : (⟨S32x2048x4, .f32⟩ : BufTy).Contents (Elt F) → (⟨S32x2048x1, .f32⟩ : BufTy).Contents (Elt F)) : HloOp τ sig (Elt F)) :: tail50 (F := F)
abbrev tail48 : List (HloOp τ sig (Elt F)) :=
  (reshape main_v42 main_v43 rfl shapeCasts_S32x2048x1_S32x2048 : HloOp τ sig (Elt F)) :: tail49 (F := F)
abbrev tail47 : List (HloOp τ sig (Elt F)) :=
  (unary main_arg0 main_v42 ((extractStridedSlice S32x2048x1 ![0, 0, 2] · slices_S32x2048x4_S32x2048x1_0_0_2) : (⟨S32x2048x4, .f32⟩ : BufTy).Contents (Elt F) → (⟨S32x2048x1, .f32⟩ : BufTy).Contents (Elt F)) : HloOp τ sig (Elt F)) :: tail48 (F := F)
abbrev tail46 : List (HloOp τ sig (Elt F)) :=
  (binary main_v37 main_v40 main_v41 (mulf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail47 (F := F)
abbrev tail45 : List (HloOp τ sig (Elt F)) :=
  (binary main_v38 main_v39 main_v40 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail46 (F := F)
abbrev tail44 : List (HloOp τ sig (Elt F)) :=
  (unary main_cst_2 main_v39 (broadcastInDim S32x2048x128 ![] bcast_S_S32x2048x128 : (⟨S_, .f32⟩ : BufTy).Contents (Elt F) → (⟨S32x2048x128, .f32⟩ : BufTy).Contents (Elt F)) : HloOp τ sig (Elt F)) :: tail45 (F := F)
abbrev tail43 : List (HloOp τ sig (Elt F)) :=
  (nullary main_cst_2 (constant S_ .f32 0x00000000#32) : HloOp τ sig (Elt F)) :: tail44 (F := F)
abbrev tail42 : List (HloOp τ sig (Elt F)) :=
  (binary main_v34 main_v20 main_v38 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail43 (F := F)
abbrev tail41 : List (HloOp τ sig (Elt F)) :=
  (binary main_v35 main_v36 main_v37 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail42 (F := F)
abbrev tail40 : List (HloOp τ sig (Elt F)) :=
  (unary main_cst_1 main_v36 (broadcastInDim S32x2048x128 ![] bcast_S_S32x2048x128 : (⟨S_, .f32⟩ : BufTy).Contents (Elt F) → (⟨S32x2048x128, .f32⟩ : BufTy).Contents (Elt F)) : HloOp τ sig (Elt F)) :: tail41 (F := F)
abbrev tail39 : List (HloOp τ sig (Elt F)) :=
  (nullary main_cst_1 (constant S_ .f32 0x00000000#32) : HloOp τ sig (Elt F)) :: tail40 (F := F)
abbrev tail38 : List (HloOp τ sig (Elt F)) :=
  (binary main_v27 main_v13 main_v35 (subf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail39 (F := F)
abbrev tail37 : List (HloOp τ sig (Elt F)) :=
  (binary main_v32 main_v33 main_v34 (minimumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail38 (F := F)
abbrev tail36 : List (HloOp τ sig (Elt F)) :=
  (unary main_v31 main_v33 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) :: tail37 (F := F)
abbrev tail35 : List (HloOp τ sig (Elt F)) :=
  (unary main_v29 main_v32 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) :: tail36 (F := F)
abbrev tail34 : List (HloOp τ sig (Elt F)) :=
  (reshape main_v30 main_v31 rfl shapeCasts_S32x2048x1x1_S32x2048x1 : HloOp τ sig (Elt F)) :: tail35 (F := F)
abbrev tail33 : List (HloOp τ sig (Elt F)) :=
  (unary main_v5 main_v30 ((extractStridedSlice S32x2048x1x1 ![0, 0, 0, 3] · slices_S32x2048x1x4_S32x2048x1x1_0_0_0_3) : (⟨S32x2048x1x4, .f32⟩ : BufTy).Contents (Elt F) → (⟨S32x2048x1x1, .f32⟩ : BufTy).Contents (Elt F)) : HloOp τ sig (Elt F)) :: tail34 (F := F)
abbrev tail32 : List (HloOp τ sig (Elt F)) :=
  (reshape main_v28 main_v29 rfl shapeCasts_S32x1x128x1_S32x1x128 : HloOp τ sig (Elt F)) :: tail33 (F := F)
abbrev tail31 : List (HloOp τ sig (Elt F)) :=
  (unary main_v6 main_v28 ((extractStridedSlice S32x1x128x1 ![0, 0, 0, 3] · slices_S32x1x128x4_S32x1x128x1_0_0_0_3) : (⟨S32x1x128x4, .f32⟩ : BufTy).Contents (Elt F) → (⟨S32x1x128x1, .f32⟩ : BufTy).Contents (Elt F)) : HloOp τ sig (Elt F)) :: tail32 (F := F)
abbrev tail30 : List (HloOp τ sig (Elt F)) :=
  (binary main_v25 main_v26 main_v27 (minimumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail31 (F := F)
abbrev tail29 : List (HloOp τ sig (Elt F)) :=
  (unary main_v24 main_v26 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) :: tail30 (F := F)
abbrev tail28 : List (HloOp τ sig (Elt F)) :=
  (unary main_v22 main_v25 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) :: tail29 (F := F)
abbrev tail27 : List (HloOp τ sig (Elt F)) :=
  (reshape main_v23 main_v24 rfl shapeCasts_S32x2048x1x1_S32x2048x1 : HloOp τ sig (Elt F)) :: tail28 (F := F)
abbrev tail26 : List (HloOp τ sig (Elt F)) :=
  (unary main_v5 main_v23 ((extractStridedSlice S32x2048x1x1 ![0, 0, 0, 2] · slices_S32x2048x1x4_S32x2048x1x1_0_0_0_2) : (⟨S32x2048x1x4, .f32⟩ : BufTy).Contents (Elt F) → (⟨S32x2048x1x1, .f32⟩ : BufTy).Contents (Elt F)) : HloOp τ sig (Elt F)) :: tail27 (F := F)
abbrev tail25 : List (HloOp τ sig (Elt F)) :=
  (reshape main_v21 main_v22 rfl shapeCasts_S32x1x128x1_S32x1x128 : HloOp τ sig (Elt F)) :: tail26 (F := F)
abbrev tail24 : List (HloOp τ sig (Elt F)) :=
  (unary main_v6 main_v21 ((extractStridedSlice S32x1x128x1 ![0, 0, 0, 2] · slices_S32x1x128x4_S32x1x128x1_0_0_0_2) : (⟨S32x1x128x4, .f32⟩ : BufTy).Contents (Elt F) → (⟨S32x1x128x1, .f32⟩ : BufTy).Contents (Elt F)) : HloOp τ sig (Elt F)) :: tail25 (F := F)
abbrev tail23 : List (HloOp τ sig (Elt F)) :=
  (binary main_v18 main_v19 main_v20 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail24 (F := F)
abbrev tail22 : List (HloOp τ sig (Elt F)) :=
  (unary main_v17 main_v19 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) :: tail23 (F := F)
abbrev tail21 : List (HloOp τ sig (Elt F)) :=
  (unary main_v15 main_v18 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) :: tail22 (F := F)
abbrev tail20 : List (HloOp τ sig (Elt F)) :=
  (reshape main_v16 main_v17 rfl shapeCasts_S32x2048x1x1_S32x2048x1 : HloOp τ sig (Elt F)) :: tail21 (F := F)
abbrev tail19 : List (HloOp τ sig (Elt F)) :=
  (unary main_v5 main_v16 ((extractStridedSlice S32x2048x1x1 ![0, 0, 0, 1] · slices_S32x2048x1x4_S32x2048x1x1_0_0_0_1) : (⟨S32x2048x1x4, .f32⟩ : BufTy).Contents (Elt F) → (⟨S32x2048x1x1, .f32⟩ : BufTy).Contents (Elt F)) : HloOp τ sig (Elt F)) :: tail20 (F := F)
abbrev tail18 : List (HloOp τ sig (Elt F)) :=
  (reshape main_v14 main_v15 rfl shapeCasts_S32x1x128x1_S32x1x128 : HloOp τ sig (Elt F)) :: tail19 (F := F)
abbrev tail17 : List (HloOp τ sig (Elt F)) :=
  (unary main_v6 main_v14 ((extractStridedSlice S32x1x128x1 ![0, 0, 0, 1] · slices_S32x1x128x4_S32x1x128x1_0_0_0_1) : (⟨S32x1x128x4, .f32⟩ : BufTy).Contents (Elt F) → (⟨S32x1x128x1, .f32⟩ : BufTy).Contents (Elt F)) : HloOp τ sig (Elt F)) :: tail18 (F := F)
abbrev tail16 : List (HloOp τ sig (Elt F)) :=
  (binary main_v11 main_v12 main_v13 (maximumf : (⟨S32x2048x128, .f32⟩ : BufTy).Contents (Elt F) → (⟨S32x2048x128, .f32⟩ : BufTy).Contents (Elt F) → (⟨S32x2048x128, .f32⟩ : BufTy).Contents (Elt F)) : HloOp τ sig (Elt F)) :: tail17 (F := F)
abbrev tail15 : List (HloOp τ sig (Elt F)) :=
  (unary main_v10 main_v12 (broadcastInDim S32x2048x128 ![0, 1, 2] bcast_S32x2048x1_S32x2048x128_0_1_2 : (⟨S32x2048x1, .f32⟩ : BufTy).Contents (Elt F) → (⟨S32x2048x128, .f32⟩ : BufTy).Contents (Elt F)) : HloOp τ sig (Elt F)) :: tail16 (F := F)
abbrev tail14 : List (HloOp τ sig (Elt F)) :=
  (unary main_v8 main_v11 (broadcastInDim S32x2048x128 ![0, 1, 2] bcast_S32x1x128_S32x2048x128_0_1_2 : (⟨S32x1x128, .f32⟩ : BufTy).Contents (Elt F) → (⟨S32x2048x128, .f32⟩ : BufTy).Contents (Elt F)) : HloOp τ sig (Elt F)) :: tail15 (F := F)
abbrev tail13 : List (HloOp τ sig (Elt F)) :=
  (reshape main_v9 main_v10 rfl shapeCasts_S32x2048x1x1_S32x2048x1 : HloOp τ sig (Elt F)) :: tail14 (F := F)
abbrev tail12 : List (HloOp τ sig (Elt F)) :=
  (unary main_v5 main_v9 ((extractStridedSlice S32x2048x1x1 ![0, 0, 0, 0] · slices_S32x2048x1x4_S32x2048x1x1_0_0_0_0) : (⟨S32x2048x1x4, .f32⟩ : BufTy).Contents (Elt F) → (⟨S32x2048x1x1, .f32⟩ : BufTy).Contents (Elt F)) : HloOp τ sig (Elt F)) :: tail13 (F := F)
abbrev tail11 : List (HloOp τ sig (Elt F)) :=
  (reshape main_v7 main_v8 rfl shapeCasts_S32x1x128x1_S32x1x128 : HloOp τ sig (Elt F)) :: tail12 (F := F)
abbrev tail10 : List (HloOp τ sig (Elt F)) :=
  (unary main_v6 main_v7 ((extractStridedSlice S32x1x128x1 ![0, 0, 0, 0] · slices_S32x1x128x4_S32x1x128x1_0_0_0_0) : (⟨S32x1x128x4, .f32⟩ : BufTy).Contents (Elt F) → (⟨S32x1x128x1, .f32⟩ : BufTy).Contents (Elt F)) : HloOp τ sig (Elt F)) :: tail11 (F := F)
abbrev tail9 : List (HloOp τ sig (Elt F)) :=
  (unary main_arg3 main_v6 (broadcastInDim S32x1x128x4 ![0, 2, 3] bcast_S32x128x4_S32x1x128x4_0_2_3 : (⟨S32x128x4, .f32⟩ : BufTy).Contents (Elt F) → (⟨S32x1x128x4, .f32⟩ : BufTy).Contents (Elt F)) : HloOp τ sig (Elt F)) :: tail10 (F := F)
abbrev tail8 : List (HloOp τ sig (Elt F)) :=
  (unary main_arg0 main_v5 (broadcastInDim S32x2048x1x4 ![0, 1, 3] bcast_S32x2048x4_S32x2048x1x4_0_1_3 : (⟨S32x2048x4, .f32⟩ : BufTy).Contents (Elt F) → (⟨S32x2048x1x4, .f32⟩ : BufTy).Contents (Elt F)) : HloOp τ sig (Elt F)) :: tail9 (F := F)
abbrev tail7 : List (HloOp τ sig (Elt F)) :=
  (binary main_v2 main_v3 main_v4 (cmpf .une : (⟨S32x128, .f32⟩ : BufTy).Contents (Elt F) → (⟨S32x128, .f32⟩ : BufTy).Contents (Elt F) → (⟨S32x128, .i1⟩ : BufTy).Contents (Elt F)) : HloOp τ sig (Elt F)) :: tail8 (F := F)
abbrev tail6 : List (HloOp τ sig (Elt F)) :=
  (unary main_cst_0 main_v3 (broadcastInDim S32x128 ![] bcast_S_S32x128 : (⟨S_, .f32⟩ : BufTy).Contents (Elt F) → (⟨S32x128, .f32⟩ : BufTy).Contents (Elt F)) : HloOp τ sig (Elt F)) :: tail7 (F := F)
abbrev tail5 : List (HloOp τ sig (Elt F)) :=
  (nullary main_cst_0 (constant S_ .f32 0x00000000#32) : HloOp τ sig (Elt F)) :: tail6 (F := F)
abbrev tail4 : List (HloOp τ sig (Elt F)) :=
  (binary main_arg3 main_cst main_v2 ((fun x v => Host.reduceAdd x v reducesTo_S32x128x4_S32x128_d2 h_S_) : (⟨S32x128x4, .f32⟩ : BufTy).Contents (Elt F) → (⟨S_, .f32⟩ : BufTy).Contents (Elt F) → (⟨S32x128, .f32⟩ : BufTy).Contents (Elt F)) : HloOp τ sig (Elt F)) :: tail5 (F := F)
abbrev tail3 : List (HloOp τ sig (Elt F)) :=
  (nullary main_cst (constant S_ .f32 0x00000000#32) : HloOp τ sig (Elt F)) :: tail4 (F := F)
abbrev tail2 : List (HloOp τ sig (Elt F)) :=
  (binary main_arg2 main_v0 main_v1 (cmpi .eq : (⟨S32x2048, .i32⟩ : BufTy).Contents (Elt F) → (⟨S32x2048, .i32⟩ : BufTy).Contents (Elt F) → (⟨S32x2048, .i1⟩ : BufTy).Contents (Elt F)) : HloOp τ sig (Elt F)) :: tail3 (F := F)
abbrev tail1 : List (HloOp τ sig (Elt F)) :=
  (unary main_c main_v0 (broadcastInDim S32x2048 ![] bcast_S_S32x2048 : (⟨S_, .i32⟩ : BufTy).Contents (Elt F) → (⟨S32x2048, .i32⟩ : BufTy).Contents (Elt F)) : HloOp τ sig (Elt F)) :: tail2 (F := F)
abbrev tail0 : List (HloOp τ sig (Elt F)) :=
  (nullary main_c (constantI S_ 32 0#32) : HloOp τ sig (Elt F)) :: tail1 (F := F)

/-! From the invariant after k operations to the last invariant after the rest of the line: one step, then the rest. -/

theorem from114 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv114 a0 a1 a2 a3 V) :
    Inv114 a0 a1 a2 a3 (after (tail114 (F := F)) V) := h
theorem from113 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv113 a0 a1 a2 a3 V) :
    Inv114 a0 a1 a2 a3 (after (tail113 (F := F)) V) := by
  unfold tail113
  rewrite [after_cons]
  exact from114 a0 a1 a2 a3 _ (step114 a0 a1 a2 a3 V h)
theorem from112 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv112 a0 a1 a2 a3 V) :
    Inv114 a0 a1 a2 a3 (after (tail112 (F := F)) V) := by
  unfold tail112
  rewrite [after_cons]
  exact from113 a0 a1 a2 a3 _ (step113 a0 a1 a2 a3 V h)
theorem from111 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv111 a0 a1 a2 a3 V) :
    Inv114 a0 a1 a2 a3 (after (tail111 (F := F)) V) := by
  unfold tail111
  rewrite [after_cons]
  exact from112 a0 a1 a2 a3 _ (step112 a0 a1 a2 a3 V h)
theorem from110 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv110 a0 a1 a2 a3 V) :
    Inv114 a0 a1 a2 a3 (after (tail110 (F := F)) V) := by
  unfold tail110
  rewrite [after_cons]
  exact from111 a0 a1 a2 a3 _ (step111 a0 a1 a2 a3 V h)
theorem from109 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv109 a0 a1 a2 a3 V) :
    Inv114 a0 a1 a2 a3 (after (tail109 (F := F)) V) := by
  unfold tail109
  rewrite [after_cons]
  exact from110 a0 a1 a2 a3 _ (step110 a0 a1 a2 a3 V h)
theorem from108 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv108 a0 a1 a2 a3 V) :
    Inv114 a0 a1 a2 a3 (after (tail108 (F := F)) V) := by
  unfold tail108
  rewrite [after_cons]
  exact from109 a0 a1 a2 a3 _ (step109 a0 a1 a2 a3 V h)
theorem from107 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv107 a0 a1 a2 a3 V) :
    Inv114 a0 a1 a2 a3 (after (tail107 (F := F)) V) := by
  unfold tail107
  rewrite [after_cons]
  exact from108 a0 a1 a2 a3 _ (step108 a0 a1 a2 a3 V h)
theorem from106 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv106 a0 a1 a2 a3 V) :
    Inv114 a0 a1 a2 a3 (after (tail106 (F := F)) V) := by
  unfold tail106
  rewrite [after_cons]
  exact from107 a0 a1 a2 a3 _ (step107 a0 a1 a2 a3 V h)
theorem from105 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv105 a0 a1 a2 a3 V) :
    Inv114 a0 a1 a2 a3 (after (tail105 (F := F)) V) := by
  unfold tail105
  rewrite [after_cons]
  exact from106 a0 a1 a2 a3 _ (step106 a0 a1 a2 a3 V h)
theorem from104 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv104 a0 a1 a2 a3 V) :
    Inv114 a0 a1 a2 a3 (after (tail104 (F := F)) V) := by
  unfold tail104
  rewrite [after_cons]
  exact from105 a0 a1 a2 a3 _ (step105 a0 a1 a2 a3 V h)
theorem from103 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv103 a0 a1 a2 a3 V) :
    Inv114 a0 a1 a2 a3 (after (tail103 (F := F)) V) := by
  unfold tail103
  rewrite [after_cons]
  exact from104 a0 a1 a2 a3 _ (step104 a0 a1 a2 a3 V h)
theorem from102 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv102 a0 a1 a2 a3 V) :
    Inv114 a0 a1 a2 a3 (after (tail102 (F := F)) V) := by
  unfold tail102
  rewrite [after_cons]
  exact from103 a0 a1 a2 a3 _ (step103 a0 a1 a2 a3 V h)
theorem from101 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv101 a0 a1 a2 a3 V) :
    Inv114 a0 a1 a2 a3 (after (tail101 (F := F)) V) := by
  unfold tail101
  rewrite [after_cons]
  exact from102 a0 a1 a2 a3 _ (step102 a0 a1 a2 a3 V h)
theorem from100 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv100 a0 a1 a2 a3 V) :
    Inv114 a0 a1 a2 a3 (after (tail100 (F := F)) V) := by
  unfold tail100
  rewrite [after_cons]
  exact from101 a0 a1 a2 a3 _ (step101 a0 a1 a2 a3 V h)
theorem from99 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv99 a0 a1 a2 a3 V) :
    Inv114 a0 a1 a2 a3 (after (tail99 (F := F)) V) := by
  unfold tail99
  rewrite [after_cons]
  exact from100 a0 a1 a2 a3 _ (step100 a0 a1 a2 a3 V h)
theorem from98 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv98 a0 a1 a2 a3 V) :
    Inv114 a0 a1 a2 a3 (after (tail98 (F := F)) V) := by
  unfold tail98
  rewrite [after_cons]
  exact from99 a0 a1 a2 a3 _ (step99 a0 a1 a2 a3 V h)
theorem from97 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv97 a0 a1 a2 a3 V) :
    Inv114 a0 a1 a2 a3 (after (tail97 (F := F)) V) := by
  unfold tail97
  rewrite [after_cons]
  exact from98 a0 a1 a2 a3 _ (step98 a0 a1 a2 a3 V h)
theorem from96 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv96 a0 a1 a2 a3 V) :
    Inv114 a0 a1 a2 a3 (after (tail96 (F := F)) V) := by
  unfold tail96
  rewrite [after_cons]
  exact from97 a0 a1 a2 a3 _ (step97 a0 a1 a2 a3 V h)
theorem from95 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv95 a0 a1 a2 a3 V) :
    Inv114 a0 a1 a2 a3 (after (tail95 (F := F)) V) := by
  unfold tail95
  rewrite [after_cons]
  exact from96 a0 a1 a2 a3 _ (step96 a0 a1 a2 a3 V h)
theorem from94 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv94 a0 a1 a2 a3 V) :
    Inv114 a0 a1 a2 a3 (after (tail94 (F := F)) V) := by
  unfold tail94
  rewrite [after_cons]
  exact from95 a0 a1 a2 a3 _ (step95 a0 a1 a2 a3 V h)
theorem from93 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv93 a0 a1 a2 a3 V) :
    Inv114 a0 a1 a2 a3 (after (tail93 (F := F)) V) := by
  unfold tail93
  rewrite [after_cons]
  exact from94 a0 a1 a2 a3 _ (step94 a0 a1 a2 a3 V h)
theorem from92 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv92 a0 a1 a2 a3 V) :
    Inv114 a0 a1 a2 a3 (after (tail92 (F := F)) V) := by
  unfold tail92
  rewrite [after_cons]
  exact from93 a0 a1 a2 a3 _ (step93 a0 a1 a2 a3 V h)
theorem from91 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv91 a0 a1 a2 a3 V) :
    Inv114 a0 a1 a2 a3 (after (tail91 (F := F)) V) := by
  unfold tail91
  rewrite [after_cons]
  exact from92 a0 a1 a2 a3 _ (step92 a0 a1 a2 a3 V h)
theorem from90 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv90 a0 a1 a2 a3 V) :
    Inv114 a0 a1 a2 a3 (after (tail90 (F := F)) V) := by
  unfold tail90
  rewrite [after_cons]
  exact from91 a0 a1 a2 a3 _ (step91 a0 a1 a2 a3 V h)
theorem from89 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv89 a0 a1 a2 a3 V) :
    Inv114 a0 a1 a2 a3 (after (tail89 (F := F)) V) := by
  unfold tail89
  rewrite [after_cons]
  exact from90 a0 a1 a2 a3 _ (step90 a0 a1 a2 a3 V h)
theorem from88 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv88 a0 a1 a2 a3 V) :
    Inv114 a0 a1 a2 a3 (after (tail88 (F := F)) V) := by
  unfold tail88
  rewrite [after_cons]
  exact from89 a0 a1 a2 a3 _ (step89 a0 a1 a2 a3 V h)
theorem from87 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv87 a0 a1 a2 a3 V) :
    Inv114 a0 a1 a2 a3 (after (tail87 (F := F)) V) := by
  unfold tail87
  rewrite [after_cons]
  exact from88 a0 a1 a2 a3 _ (step88 a0 a1 a2 a3 V h)
theorem from86 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv86 a0 a1 a2 a3 V) :
    Inv114 a0 a1 a2 a3 (after (tail86 (F := F)) V) := by
  unfold tail86
  rewrite [after_cons]
  exact from87 a0 a1 a2 a3 _ (step87 a0 a1 a2 a3 V h)
theorem from85 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv85 a0 a1 a2 a3 V) :
    Inv114 a0 a1 a2 a3 (after (tail85 (F := F)) V) := by
  unfold tail85
  rewrite [after_cons]
  exact from86 a0 a1 a2 a3 _ (step86 a0 a1 a2 a3 V h)
theorem from84 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv84 a0 a1 a2 a3 V) :
    Inv114 a0 a1 a2 a3 (after (tail84 (F := F)) V) := by
  unfold tail84
  rewrite [after_cons]
  exact from85 a0 a1 a2 a3 _ (step85 a0 a1 a2 a3 V h)
theorem from83 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv83 a0 a1 a2 a3 V) :
    Inv114 a0 a1 a2 a3 (after (tail83 (F := F)) V) := by
  unfold tail83
  rewrite [after_cons]
  exact from84 a0 a1 a2 a3 _ (step84 a0 a1 a2 a3 V h)
theorem from82 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv82 a0 a1 a2 a3 V) :
    Inv114 a0 a1 a2 a3 (after (tail82 (F := F)) V) := by
  unfold tail82
  rewrite [after_cons]
  exact from83 a0 a1 a2 a3 _ (step83 a0 a1 a2 a3 V h)
theorem from81 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv81 a0 a1 a2 a3 V) :
    Inv114 a0 a1 a2 a3 (after (tail81 (F := F)) V) := by
  unfold tail81
  rewrite [after_cons]
  exact from82 a0 a1 a2 a3 _ (step82 a0 a1 a2 a3 V h)
theorem from80 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv80 a0 a1 a2 a3 V) :
    Inv114 a0 a1 a2 a3 (after (tail80 (F := F)) V) := by
  unfold tail80
  rewrite [after_cons]
  exact from81 a0 a1 a2 a3 _ (step81 a0 a1 a2 a3 V h)
theorem from79 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv79 a0 a1 a2 a3 V) :
    Inv114 a0 a1 a2 a3 (after (tail79 (F := F)) V) := by
  unfold tail79
  rewrite [after_cons]
  exact from80 a0 a1 a2 a3 _ (step80 a0 a1 a2 a3 V h)
theorem from78 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv78 a0 a1 a2 a3 V) :
    Inv114 a0 a1 a2 a3 (after (tail78 (F := F)) V) := by
  unfold tail78
  rewrite [after_cons]
  exact from79 a0 a1 a2 a3 _ (step79 a0 a1 a2 a3 V h)
theorem from77 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv77 a0 a1 a2 a3 V) :
    Inv114 a0 a1 a2 a3 (after (tail77 (F := F)) V) := by
  unfold tail77
  rewrite [after_cons]
  exact from78 a0 a1 a2 a3 _ (step78 a0 a1 a2 a3 V h)
theorem from76 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv76 a0 a1 a2 a3 V) :
    Inv114 a0 a1 a2 a3 (after (tail76 (F := F)) V) := by
  unfold tail76
  rewrite [after_cons]
  exact from77 a0 a1 a2 a3 _ (step77 a0 a1 a2 a3 V h)
theorem from75 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv75 a0 a1 a2 a3 V) :
    Inv114 a0 a1 a2 a3 (after (tail75 (F := F)) V) := by
  unfold tail75
  rewrite [after_cons]
  exact from76 a0 a1 a2 a3 _ (step76 a0 a1 a2 a3 V h)
theorem from74 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv74 a0 a1 a2 a3 V) :
    Inv114 a0 a1 a2 a3 (after (tail74 (F := F)) V) := by
  unfold tail74
  rewrite [after_cons]
  exact from75 a0 a1 a2 a3 _ (step75 a0 a1 a2 a3 V h)
theorem from73 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv73 a0 a1 a2 a3 V) :
    Inv114 a0 a1 a2 a3 (after (tail73 (F := F)) V) := by
  unfold tail73
  rewrite [after_cons]
  exact from74 a0 a1 a2 a3 _ (step74 a0 a1 a2 a3 V h)
theorem from72 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv72 a0 a1 a2 a3 V) :
    Inv114 a0 a1 a2 a3 (after (tail72 (F := F)) V) := by
  unfold tail72
  rewrite [after_cons]
  exact from73 a0 a1 a2 a3 _ (step73 a0 a1 a2 a3 V h)
theorem from71 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv71 a0 a1 a2 a3 V) :
    Inv114 a0 a1 a2 a3 (after (tail71 (F := F)) V) := by
  unfold tail71
  rewrite [after_cons]
  exact from72 a0 a1 a2 a3 _ (step72 a0 a1 a2 a3 V h)
theorem from70 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv70 a0 a1 a2 a3 V) :
    Inv114 a0 a1 a2 a3 (after (tail70 (F := F)) V) := by
  unfold tail70
  rewrite [after_cons]
  exact from71 a0 a1 a2 a3 _ (step71 a0 a1 a2 a3 V h)
theorem from69 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv69 a0 a1 a2 a3 V) :
    Inv114 a0 a1 a2 a3 (after (tail69 (F := F)) V) := by
  unfold tail69
  rewrite [after_cons]
  exact from70 a0 a1 a2 a3 _ (step70 a0 a1 a2 a3 V h)
theorem from68 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv68 a0 a1 a2 a3 V) :
    Inv114 a0 a1 a2 a3 (after (tail68 (F := F)) V) := by
  unfold tail68
  rewrite [after_cons]
  exact from69 a0 a1 a2 a3 _ (step69 a0 a1 a2 a3 V h)
theorem from67 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv67 a0 a1 a2 a3 V) :
    Inv114 a0 a1 a2 a3 (after (tail67 (F := F)) V) := by
  unfold tail67
  rewrite [after_cons]
  exact from68 a0 a1 a2 a3 _ (step68 a0 a1 a2 a3 V h)
theorem from66 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv66 a0 a1 a2 a3 V) :
    Inv114 a0 a1 a2 a3 (after (tail66 (F := F)) V) := by
  unfold tail66
  rewrite [after_cons]
  exact from67 a0 a1 a2 a3 _ (step67 a0 a1 a2 a3 V h)
theorem from65 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv65 a0 a1 a2 a3 V) :
    Inv114 a0 a1 a2 a3 (after (tail65 (F := F)) V) := by
  unfold tail65
  rewrite [after_cons]
  exact from66 a0 a1 a2 a3 _ (step66 a0 a1 a2 a3 V h)
theorem from64 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv64 a0 a1 a2 a3 V) :
    Inv114 a0 a1 a2 a3 (after (tail64 (F := F)) V) := by
  unfold tail64
  rewrite [after_cons]
  exact from65 a0 a1 a2 a3 _ (step65 a0 a1 a2 a3 V h)
theorem from63 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv63 a0 a1 a2 a3 V) :
    Inv114 a0 a1 a2 a3 (after (tail63 (F := F)) V) := by
  unfold tail63
  rewrite [after_cons]
  exact from64 a0 a1 a2 a3 _ (step64 a0 a1 a2 a3 V h)
theorem from62 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv62 a0 a1 a2 a3 V) :
    Inv114 a0 a1 a2 a3 (after (tail62 (F := F)) V) := by
  unfold tail62
  rewrite [after_cons]
  exact from63 a0 a1 a2 a3 _ (step63 a0 a1 a2 a3 V h)
theorem from61 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv61 a0 a1 a2 a3 V) :
    Inv114 a0 a1 a2 a3 (after (tail61 (F := F)) V) := by
  unfold tail61
  rewrite [after_cons]
  exact from62 a0 a1 a2 a3 _ (step62 a0 a1 a2 a3 V h)
theorem from60 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv60 a0 a1 a2 a3 V) :
    Inv114 a0 a1 a2 a3 (after (tail60 (F := F)) V) := by
  unfold tail60
  rewrite [after_cons]
  exact from61 a0 a1 a2 a3 _ (step61 a0 a1 a2 a3 V h)
theorem from59 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv59 a0 a1 a2 a3 V) :
    Inv114 a0 a1 a2 a3 (after (tail59 (F := F)) V) := by
  unfold tail59
  rewrite [after_cons]
  exact from60 a0 a1 a2 a3 _ (step60 a0 a1 a2 a3 V h)
theorem from58 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv58 a0 a1 a2 a3 V) :
    Inv114 a0 a1 a2 a3 (after (tail58 (F := F)) V) := by
  unfold tail58
  rewrite [after_cons]
  exact from59 a0 a1 a2 a3 _ (step59 a0 a1 a2 a3 V h)
theorem from57 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv57 a0 a1 a2 a3 V) :
    Inv114 a0 a1 a2 a3 (after (tail57 (F := F)) V) := by
  unfold tail57
  rewrite [after_cons]
  exact from58 a0 a1 a2 a3 _ (step58 a0 a1 a2 a3 V h)
theorem from56 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv56 a0 a1 a2 a3 V) :
    Inv114 a0 a1 a2 a3 (after (tail56 (F := F)) V) := by
  unfold tail56
  rewrite [after_cons]
  exact from57 a0 a1 a2 a3 _ (step57 a0 a1 a2 a3 V h)
theorem from55 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv55 a0 a1 a2 a3 V) :
    Inv114 a0 a1 a2 a3 (after (tail55 (F := F)) V) := by
  unfold tail55
  rewrite [after_cons]
  exact from56 a0 a1 a2 a3 _ (step56 a0 a1 a2 a3 V h)
theorem from54 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv54 a0 a1 a2 a3 V) :
    Inv114 a0 a1 a2 a3 (after (tail54 (F := F)) V) := by
  unfold tail54
  rewrite [after_cons]
  exact from55 a0 a1 a2 a3 _ (step55 a0 a1 a2 a3 V h)
theorem from53 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv53 a0 a1 a2 a3 V) :
    Inv114 a0 a1 a2 a3 (after (tail53 (F := F)) V) := by
  unfold tail53
  rewrite [after_cons]
  exact from54 a0 a1 a2 a3 _ (step54 a0 a1 a2 a3 V h)
theorem from52 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv52 a0 a1 a2 a3 V) :
    Inv114 a0 a1 a2 a3 (after (tail52 (F := F)) V) := by
  unfold tail52
  rewrite [after_cons]
  exact from53 a0 a1 a2 a3 _ (step53 a0 a1 a2 a3 V h)
theorem from51 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv51 a0 a1 a2 a3 V) :
    Inv114 a0 a1 a2 a3 (after (tail51 (F := F)) V) := by
  unfold tail51
  rewrite [after_cons]
  exact from52 a0 a1 a2 a3 _ (step52 a0 a1 a2 a3 V h)
theorem from50 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv50 a0 a1 a2 a3 V) :
    Inv114 a0 a1 a2 a3 (after (tail50 (F := F)) V) := by
  unfold tail50
  rewrite [after_cons]
  exact from51 a0 a1 a2 a3 _ (step51 a0 a1 a2 a3 V h)
theorem from49 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv49 a0 a1 a2 a3 V) :
    Inv114 a0 a1 a2 a3 (after (tail49 (F := F)) V) := by
  unfold tail49
  rewrite [after_cons]
  exact from50 a0 a1 a2 a3 _ (step50 a0 a1 a2 a3 V h)
theorem from48 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv48 a0 a1 a2 a3 V) :
    Inv114 a0 a1 a2 a3 (after (tail48 (F := F)) V) := by
  unfold tail48
  rewrite [after_cons]
  exact from49 a0 a1 a2 a3 _ (step49 a0 a1 a2 a3 V h)
theorem from47 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv47 a0 a1 a2 a3 V) :
    Inv114 a0 a1 a2 a3 (after (tail47 (F := F)) V) := by
  unfold tail47
  rewrite [after_cons]
  exact from48 a0 a1 a2 a3 _ (step48 a0 a1 a2 a3 V h)
theorem from46 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv46 a0 a1 a2 a3 V) :
    Inv114 a0 a1 a2 a3 (after (tail46 (F := F)) V) := by
  unfold tail46
  rewrite [after_cons]
  exact from47 a0 a1 a2 a3 _ (step47 a0 a1 a2 a3 V h)
theorem from45 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv45 a0 a1 a2 a3 V) :
    Inv114 a0 a1 a2 a3 (after (tail45 (F := F)) V) := by
  unfold tail45
  rewrite [after_cons]
  exact from46 a0 a1 a2 a3 _ (step46 a0 a1 a2 a3 V h)
theorem from44 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv44 a0 a1 a2 a3 V) :
    Inv114 a0 a1 a2 a3 (after (tail44 (F := F)) V) := by
  unfold tail44
  rewrite [after_cons]
  exact from45 a0 a1 a2 a3 _ (step45 a0 a1 a2 a3 V h)
theorem from43 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv43 a0 a1 a2 a3 V) :
    Inv114 a0 a1 a2 a3 (after (tail43 (F := F)) V) := by
  unfold tail43
  rewrite [after_cons]
  exact from44 a0 a1 a2 a3 _ (step44 a0 a1 a2 a3 V h)
theorem from42 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv42 a0 a1 a2 a3 V) :
    Inv114 a0 a1 a2 a3 (after (tail42 (F := F)) V) := by
  unfold tail42
  rewrite [after_cons]
  exact from43 a0 a1 a2 a3 _ (step43 a0 a1 a2 a3 V h)
theorem from41 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv41 a0 a1 a2 a3 V) :
    Inv114 a0 a1 a2 a3 (after (tail41 (F := F)) V) := by
  unfold tail41
  rewrite [after_cons]
  exact from42 a0 a1 a2 a3 _ (step42 a0 a1 a2 a3 V h)
theorem from40 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv40 a0 a1 a2 a3 V) :
    Inv114 a0 a1 a2 a3 (after (tail40 (F := F)) V) := by
  unfold tail40
  rewrite [after_cons]
  exact from41 a0 a1 a2 a3 _ (step41 a0 a1 a2 a3 V h)
theorem from39 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv39 a0 a1 a2 a3 V) :
    Inv114 a0 a1 a2 a3 (after (tail39 (F := F)) V) := by
  unfold tail39
  rewrite [after_cons]
  exact from40 a0 a1 a2 a3 _ (step40 a0 a1 a2 a3 V h)
theorem from38 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv38 a0 a1 a2 a3 V) :
    Inv114 a0 a1 a2 a3 (after (tail38 (F := F)) V) := by
  unfold tail38
  rewrite [after_cons]
  exact from39 a0 a1 a2 a3 _ (step39 a0 a1 a2 a3 V h)
theorem from37 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv37 a0 a1 a2 a3 V) :
    Inv114 a0 a1 a2 a3 (after (tail37 (F := F)) V) := by
  unfold tail37
  rewrite [after_cons]
  exact from38 a0 a1 a2 a3 _ (step38 a0 a1 a2 a3 V h)
theorem from36 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv36 a0 a1 a2 a3 V) :
    Inv114 a0 a1 a2 a3 (after (tail36 (F := F)) V) := by
  unfold tail36
  rewrite [after_cons]
  exact from37 a0 a1 a2 a3 _ (step37 a0 a1 a2 a3 V h)
theorem from35 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv35 a0 a1 a2 a3 V) :
    Inv114 a0 a1 a2 a3 (after (tail35 (F := F)) V) := by
  unfold tail35
  rewrite [after_cons]
  exact from36 a0 a1 a2 a3 _ (step36 a0 a1 a2 a3 V h)
theorem from34 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv34 a0 a1 a2 a3 V) :
    Inv114 a0 a1 a2 a3 (after (tail34 (F := F)) V) := by
  unfold tail34
  rewrite [after_cons]
  exact from35 a0 a1 a2 a3 _ (step35 a0 a1 a2 a3 V h)
theorem from33 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv33 a0 a1 a2 a3 V) :
    Inv114 a0 a1 a2 a3 (after (tail33 (F := F)) V) := by
  unfold tail33
  rewrite [after_cons]
  exact from34 a0 a1 a2 a3 _ (step34 a0 a1 a2 a3 V h)
theorem from32 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv32 a0 a1 a2 a3 V) :
    Inv114 a0 a1 a2 a3 (after (tail32 (F := F)) V) := by
  unfold tail32
  rewrite [after_cons]
  exact from33 a0 a1 a2 a3 _ (step33 a0 a1 a2 a3 V h)
theorem from31 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv31 a0 a1 a2 a3 V) :
    Inv114 a0 a1 a2 a3 (after (tail31 (F := F)) V) := by
  unfold tail31
  rewrite [after_cons]
  exact from32 a0 a1 a2 a3 _ (step32 a0 a1 a2 a3 V h)
theorem from30 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv30 a0 a1 a2 a3 V) :
    Inv114 a0 a1 a2 a3 (after (tail30 (F := F)) V) := by
  unfold tail30
  rewrite [after_cons]
  exact from31 a0 a1 a2 a3 _ (step31 a0 a1 a2 a3 V h)
theorem from29 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv29 a0 a1 a2 a3 V) :
    Inv114 a0 a1 a2 a3 (after (tail29 (F := F)) V) := by
  unfold tail29
  rewrite [after_cons]
  exact from30 a0 a1 a2 a3 _ (step30 a0 a1 a2 a3 V h)
theorem from28 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv28 a0 a1 a2 a3 V) :
    Inv114 a0 a1 a2 a3 (after (tail28 (F := F)) V) := by
  unfold tail28
  rewrite [after_cons]
  exact from29 a0 a1 a2 a3 _ (step29 a0 a1 a2 a3 V h)
theorem from27 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv27 a0 a1 a2 a3 V) :
    Inv114 a0 a1 a2 a3 (after (tail27 (F := F)) V) := by
  unfold tail27
  rewrite [after_cons]
  exact from28 a0 a1 a2 a3 _ (step28 a0 a1 a2 a3 V h)
theorem from26 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv26 a0 a1 a2 a3 V) :
    Inv114 a0 a1 a2 a3 (after (tail26 (F := F)) V) := by
  unfold tail26
  rewrite [after_cons]
  exact from27 a0 a1 a2 a3 _ (step27 a0 a1 a2 a3 V h)
theorem from25 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv25 a0 a1 a2 a3 V) :
    Inv114 a0 a1 a2 a3 (after (tail25 (F := F)) V) := by
  unfold tail25
  rewrite [after_cons]
  exact from26 a0 a1 a2 a3 _ (step26 a0 a1 a2 a3 V h)
theorem from24 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv24 a0 a1 a2 a3 V) :
    Inv114 a0 a1 a2 a3 (after (tail24 (F := F)) V) := by
  unfold tail24
  rewrite [after_cons]
  exact from25 a0 a1 a2 a3 _ (step25 a0 a1 a2 a3 V h)
theorem from23 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv23 a0 a1 a2 a3 V) :
    Inv114 a0 a1 a2 a3 (after (tail23 (F := F)) V) := by
  unfold tail23
  rewrite [after_cons]
  exact from24 a0 a1 a2 a3 _ (step24 a0 a1 a2 a3 V h)
theorem from22 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv22 a0 a1 a2 a3 V) :
    Inv114 a0 a1 a2 a3 (after (tail22 (F := F)) V) := by
  unfold tail22
  rewrite [after_cons]
  exact from23 a0 a1 a2 a3 _ (step23 a0 a1 a2 a3 V h)
theorem from21 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv21 a0 a1 a2 a3 V) :
    Inv114 a0 a1 a2 a3 (after (tail21 (F := F)) V) := by
  unfold tail21
  rewrite [after_cons]
  exact from22 a0 a1 a2 a3 _ (step22 a0 a1 a2 a3 V h)
theorem from20 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv20 a0 a1 a2 a3 V) :
    Inv114 a0 a1 a2 a3 (after (tail20 (F := F)) V) := by
  unfold tail20
  rewrite [after_cons]
  exact from21 a0 a1 a2 a3 _ (step21 a0 a1 a2 a3 V h)
theorem from19 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv19 a0 a1 a2 a3 V) :
    Inv114 a0 a1 a2 a3 (after (tail19 (F := F)) V) := by
  unfold tail19
  rewrite [after_cons]
  exact from20 a0 a1 a2 a3 _ (step20 a0 a1 a2 a3 V h)
theorem from18 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv18 a0 a1 a2 a3 V) :
    Inv114 a0 a1 a2 a3 (after (tail18 (F := F)) V) := by
  unfold tail18
  rewrite [after_cons]
  exact from19 a0 a1 a2 a3 _ (step19 a0 a1 a2 a3 V h)
theorem from17 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv17 a0 a1 a2 a3 V) :
    Inv114 a0 a1 a2 a3 (after (tail17 (F := F)) V) := by
  unfold tail17
  rewrite [after_cons]
  exact from18 a0 a1 a2 a3 _ (step18 a0 a1 a2 a3 V h)
theorem from16 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv16 a0 a1 a2 a3 V) :
    Inv114 a0 a1 a2 a3 (after (tail16 (F := F)) V) := by
  unfold tail16
  rewrite [after_cons]
  exact from17 a0 a1 a2 a3 _ (step17 a0 a1 a2 a3 V h)
theorem from15 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv15 a0 a1 a2 a3 V) :
    Inv114 a0 a1 a2 a3 (after (tail15 (F := F)) V) := by
  unfold tail15
  rewrite [after_cons]
  exact from16 a0 a1 a2 a3 _ (step16 a0 a1 a2 a3 V h)
theorem from14 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv14 a0 a1 a2 a3 V) :
    Inv114 a0 a1 a2 a3 (after (tail14 (F := F)) V) := by
  unfold tail14
  rewrite [after_cons]
  exact from15 a0 a1 a2 a3 _ (step15 a0 a1 a2 a3 V h)
theorem from13 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv13 a0 a1 a2 a3 V) :
    Inv114 a0 a1 a2 a3 (after (tail13 (F := F)) V) := by
  unfold tail13
  rewrite [after_cons]
  exact from14 a0 a1 a2 a3 _ (step14 a0 a1 a2 a3 V h)
theorem from12 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv12 a0 a1 a2 a3 V) :
    Inv114 a0 a1 a2 a3 (after (tail12 (F := F)) V) := by
  unfold tail12
  rewrite [after_cons]
  exact from13 a0 a1 a2 a3 _ (step13 a0 a1 a2 a3 V h)
theorem from11 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv11 a0 a1 a2 a3 V) :
    Inv114 a0 a1 a2 a3 (after (tail11 (F := F)) V) := by
  unfold tail11
  rewrite [after_cons]
  exact from12 a0 a1 a2 a3 _ (step12 a0 a1 a2 a3 V h)
theorem from10 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv10 a0 a1 a2 a3 V) :
    Inv114 a0 a1 a2 a3 (after (tail10 (F := F)) V) := by
  unfold tail10
  rewrite [after_cons]
  exact from11 a0 a1 a2 a3 _ (step11 a0 a1 a2 a3 V h)
theorem from9 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv9 a0 a1 a2 a3 V) :
    Inv114 a0 a1 a2 a3 (after (tail9 (F := F)) V) := by
  unfold tail9
  rewrite [after_cons]
  exact from10 a0 a1 a2 a3 _ (step10 a0 a1 a2 a3 V h)
theorem from8 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv8 a0 a1 a2 a3 V) :
    Inv114 a0 a1 a2 a3 (after (tail8 (F := F)) V) := by
  unfold tail8
  rewrite [after_cons]
  exact from9 a0 a1 a2 a3 _ (step9 a0 a1 a2 a3 V h)
theorem from7 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv7 a0 a1 a2 a3 V) :
    Inv114 a0 a1 a2 a3 (after (tail7 (F := F)) V) := by
  unfold tail7
  rewrite [after_cons]
  exact from8 a0 a1 a2 a3 _ (step8 a0 a1 a2 a3 V h)
theorem from6 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv6 a0 a1 a2 a3 V) :
    Inv114 a0 a1 a2 a3 (after (tail6 (F := F)) V) := by
  unfold tail6
  rewrite [after_cons]
  exact from7 a0 a1 a2 a3 _ (step7 a0 a1 a2 a3 V h)
theorem from5 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv5 a0 a1 a2 a3 V) :
    Inv114 a0 a1 a2 a3 (after (tail5 (F := F)) V) := by
  unfold tail5
  rewrite [after_cons]
  exact from6 a0 a1 a2 a3 _ (step6 a0 a1 a2 a3 V h)
theorem from4 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv4 a0 a1 a2 a3 V) :
    Inv114 a0 a1 a2 a3 (after (tail4 (F := F)) V) := by
  unfold tail4
  rewrite [after_cons]
  exact from5 a0 a1 a2 a3 _ (step5 a0 a1 a2 a3 V h)
theorem from3 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv3 a0 a1 a2 a3 V) :
    Inv114 a0 a1 a2 a3 (after (tail3 (F := F)) V) := by
  unfold tail3
  rewrite [after_cons]
  exact from4 a0 a1 a2 a3 _ (step4 a0 a1 a2 a3 V h)
theorem from2 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv2 a0 a1 a2 a3 V) :
    Inv114 a0 a1 a2 a3 (after (tail2 (F := F)) V) := by
  unfold tail2
  rewrite [after_cons]
  exact from3 a0 a1 a2 a3 _ (step3 a0 a1 a2 a3 V h)
theorem from1 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv1 a0 a1 a2 a3 V) :
    Inv114 a0 a1 a2 a3 (after (tail1 (F := F)) V) := by
  unfold tail1
  rewrite [after_cons]
  exact from2 a0 a1 a2 a3 _ (step2 a0 a1 a2 a3 V h)
theorem from0 (a0 : (⟨S32x2048x4, .f32⟩ : BufTy).Contents (Elt F)) (a1 : (⟨S32x2048, .f32⟩ : BufTy).Contents (Elt F)) (a2 : (⟨S32x2048, .i32⟩ : BufTy).Contents (Elt F)) (a3 : (⟨S32x128x4, .f32⟩ : BufTy).Contents (Elt F)) (V : Valuation τ sig (Elt F)) (h : Inv0 a0 a1 a2 a3 V) :
    Inv114 a0 a1 a2 a3 (after (tail0 (F := F)) V) := by
  unfold tail0
  rewrite [after_cons]
  exact from1 a0 a1 a2 a3 _ (step1 a0 a1 a2 a3 V h)

theorem ops_eq_tail0 : (ops : List (HloOp τ sig (Elt F))) = tail0 := rfl

/-- After all 114 operations: the two results hold their stages of the arguments' launch contents, the arguments unchanged. -/
theorem inv_all (V : Valuation τ sig (Elt F)) :
    Inv114 (V (Proc.devRef .tc main_arg0)) (V (Proc.devRef .tc main_arg1)) (V (Proc.devRef .tc main_arg2)) (V (Proc.devRef .tc main_arg3))
      (after (ops (F := F)) V) := by
  rw [ops_eq_tail0]
  exact from0 _ _ _ _ V (inv_start V)

end Cert.RefSide

end
-- ==== Proof.RefRun.lean ====
/-
  The reference program's run: on every device every weakly fair execution of @main terminates with the two results at
  their stages of the arguments' launch contents, the arguments unchanged.

  For a straight line of host operations the final contents of every buffer are the fold of the operations' results
  over the launch contents. That fold is followed one operation at a time under an invariant: after k operations every
  buffer that a later operation or a result still reads holds its stage of the four arguments. An operation changes
  only its own result buffer, and there its function's value at operands that hold their stages is, by the stage's
  definition, the result's stage. So no term larger than one operation is ever compared. The invariants and the one
  step per operation are the imported table; here the last invariant is read against the run.
-/
import proofs.«131841_j54657753808935_1_alg».proof.Proof.RefRunSteps

noncomputable section

namespace Cert.RefSide

open Cert.ReferenceIdeal Cert.ReferenceIdeal.Gen Cert.ReferenceIdeal.OpsP Cert.ReferenceIdeal.ReadP Idealize.ShloMosaic Idealize.ShloMosaic.TcCoe Idealize.SL.Sem Idealize.ShloMosaic.StableHlo

/-- On every device, from any memory with zero counters: every weakly fair execution of @main terminates with the two
    results at their stages of the arguments' launch contents and the four arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v87) = val_main_v87 (F := Ideal) (m ((c.tc : Thread nD τ).loc main_arg1)) (m ((c.tc : Thread nD τ).loc main_arg2))
      ∧ r.2.mem ((c.tc : Thread nD τ).loc main_v88) = val_main_v88 (F := Ideal) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
      obtain ⟨h0, h1, h2, h3, h87, h88⟩ := inv_all (F := Ideal) (launchContents m c)
      exact ⟨(h c main_v87).trans h87, (h c main_v88).trans h88, (h c main_arg0).trans h0, (h c main_arg1).trans h1,
        (h c main_arg2).trans h2, (h c main_arg3).trans h3⟩)
    (run_seq scopedRefs_eq scopedSems_eq defs main (fun _ => ops) main_eq (fun _ => ops_sub) m ρ)

end Cert.RefSide

end
-- ==== Proof.RefValue.lean ====
/-
  The reference program's two results, index by index, are the specification's second spelling: masks read as truth
  values, plain maxima.

  The program is read one stage at a time at an explicit index. A box coordinate reaches the pairwise [32, 2048, 128]
  grid through a broadcast, a slice and a reshape, each of which only renames the index, so at (b, p, g) it is the
  input's entry (b, g, k) or (b, p, k). From there the intersection, the two areas, the union and the quotient are the
  specification's terms in the same operand order. The two masks are one-bit words that are 1 exactly when the
  specification's propositions hold, and a selection on such a word is the specification's case split. The three
  reductions are folds over finite sets: the "or" from 0 is 1 exactly when some entry is, and a fold of `max` from -∞ is
  the supremum, both maxima having the same upper bounds.
-/
import proofs.«131841_j54657753808935_1_alg».proof.Proof.Spec
import proofs.«131841_j54657753808935_1_alg».proof.Proof.RefReadP
import Idealize.ShloMosaic.Lib.ValueIdx
import Idealize.ShloMosaic.Lib.Pipeline.Value
import Idealize.ShloMosaic.Lib.Affine
import Idealize.ShloMosaic.PureOps.Ideal.Laws
import Idealize.ShloMosaic.PureOps.Reduce

noncomputable section

open scoped BigOperators
open Classical

namespace Cert.RefSide

open Idealize.ShloMosaic Idealize.ShloMosaic.ValueIdx Cert.IouSpec
open Cert.ReferenceIdeal Cert.ReferenceIdeal.ReadP

/-! ## Folds over a finite set -/

/-- A fold of "or" from 0 over one-bit words is 1 exactly when some word is 1. -/
theorem fold_ori_eq_one {ι : Type*} (s : Finset ι) (f : ι → BitVec 1) :
    s.fold IntOp.ori 0#1 f = 1#1 ↔ ∃ i ∈ s, f i = 1#1 := by
  induction s using Finset.induction_on with
  | empty => simp
  | insert a s ha ih =>
    rw [Finset.fold_insert ha, IntOp.ori_eq_one, ih]
    simp [Finset.exists_mem_insert]

/-- A fold from `a` of an operation that is `max` lies below `c` exactly when `a` and every term do. -/
theorem fold_le_iff {ι : Type*} (op : EReal → EReal → EReal) [Std.Commutative op] [Std.Associative op]
    (hop : ∀ x y, op x y = max x y) (s : Finset ι) (a : EReal) (f : ι → EReal) (c : EReal) :
    s.fold op a f ≤ c ↔ a ≤ c ∧ ∀ i ∈ s, f i ≤ c := by
  induction s using Finset.induction_on with
  | empty => simp
  | insert x s hx ih =>
    rw [Finset.fold_insert hx, hop, max_le_iff, ih]
    simp only [Finset.forall_mem_insert]
    tauto

/-! ## The three reductions, at a row -/

/-- "Any" along a row: the reduction by "or" from 0 over axis 1 is 1 at row `b` exactly when some entry of the row is 1. -/
theorem reduce_ori_row (y : (⟨2, ![32, 2048]⟩ : Shape).Idx → BitVec 1) (init : (⟨0, ![]⟩ : Shape).Idx → BitVec 1)
    (h' : (⟨2, ![32, 2048]⟩ : Shape).ReducesTo [1] ⟨1, ![32]⟩) (hu : 0 < (⟨0, ![]⟩ : Shape).numel)
    (hinit : init (Shape.Idx.first hu) = 0#1) (b : Fin 32) :
    Host.reduce IntOp.ori y init h' hu (ix1 b) = 1#1 ↔ ∃ p : Fin 2048, y (ix2 b p) = 1#1 := by
  have h : (⟨2, ![32, 2048]⟩ : Shape).Reduces [1] ⟨1, ![32]⟩ := by decide
  rw [Host.reduce_eq_fold_single IntOp.ori y init h' h hu (ix1 b), hinit, fold_ori_eq_one]
  have hl : ∀ p : Fin 2048, h.lift (ix1 b) p = ix2 b p := fun p =>
    funext fun a => Fin.ext (by match a with | ⟨0, _⟩ => rfl | ⟨1, _⟩ => rfl)
  constructor
  · rintro ⟨p, -, hp⟩
    exact ⟨p, by rw [← hl p]; exact hp⟩
  · rintro ⟨p, hp⟩
    exact ⟨p, Finset.mem_univ _, by show y (h.lift (ix1 b) p) = 1#1; rw [hl p]; exact hp⟩

/-- The maximum along a row: the reduction by `max` from -∞ over axis 1 is, at row `b`, the supremum of the row. -/
theorem reduce_max_row (y : (⟨2, ![32, 2048]⟩ : Shape).Idx → EReal) (init : (⟨0, ![]⟩ : Shape).Idx → EReal)
    (h' : (⟨2, ![32, 2048]⟩ : Shape).ReducesTo [1] ⟨1, ![32]⟩) (hu : 0 < (⟨0, ![]⟩ : Shape).numel)
    (hinit : init (Shape.Idx.first hu) = ⊥) (b : Fin 32) :
    Host.reduce (FloatOps.maximumf (F := Ideal) (φ := .f32)) y init h' hu (ix1 b)
      = Finset.univ.sup fun p : Fin 2048 => y (ix2 b p) := by
  have h : (⟨2, ![32, 2048]⟩ : Shape).Reduces [1] ⟨1, ![32]⟩ := by decide
  rw [Host.reduce_eq_fold_single (FloatOps.maximumf (F := Ideal) (φ := .f32)) y init h' h hu (ix1 b), hinit]
  have hl : ∀ p : Fin 2048, h.lift (ix1 b) p = ix2 b p := fun p =>
    funext fun a => Fin.ext (by match a with | ⟨0, _⟩ => rfl | ⟨1, _⟩ => rfl)
  refine eq_of_forall_ge_iff fun c => ?_
  rw [fold_le_iff (FloatOps.maximumf (F := Ideal) (φ := .f32)) (fun _ _ => rfl), sup_le_iff']
  simp only [bot_le, true_and, Finset.mem_univ, forall_const, Function.comp]
  exact ⟨fun H p => by rw [← hl p]; exact H p, fun H p => by rw [hl p]; exact H p⟩

/-- The maximum over a row's plane: the reduction by `max` from -∞ over axes 1 and 2 is, at row `b`, the supremum over
    the pairs of the two reduced coordinates. -/
theorem reduce_max_plane (y : (⟨3, ![32, 2048, 128]⟩ : Shape).Idx → EReal) (init : (⟨0, ![]⟩ : Shape).Idx → EReal)
    (h' : (⟨3, ![32, 2048, 128]⟩ : Shape).ReducesTo [1, 2] ⟨1, ![32]⟩) (hu : 0 < (⟨0, ![]⟩ : Shape).numel)
    (hinit : init (Shape.Idx.first hu) = ⊥) (b : Fin 32) :
    Host.reduce (FloatOps.maximumf (F := Ideal) (φ := .f32)) y init h' hu (ix1 b)
      = Finset.univ.sup fun pg : Fin 2048 × Fin 128 => y (ix3 b pg.1 pg.2) := by
  rw [Host.reduce_eq_fold (FloatOps.maximumf (F := Ideal) (φ := .f32)) y init h' hu (ix1 b), hinit]
  have hd : ∀ i : (⟨3, ![32, 2048, 128]⟩ : Shape).Idx, h'.drop i = ix1 b ↔ i 0 = b := fun i => by
    have e : ((h'.drop i 0 : Fin 32) : Nat) = (i 0 : Fin 32) := h'.drop_apply_val_of_eq i 0 0
    constructor
    · intro H
      have := congrFun H 0
      exact Fin.ext (by rw [← e, this])
    · intro H
      funext d
      match d with
      | ⟨0, _⟩ => exact Fin.ext (e.trans (congrArg Fin.val H))
  refine eq_of_forall_ge_iff fun c => ?_
  rw [fold_le_iff (FloatOps.maximumf (F := Ideal) (φ := .f32)) (fun _ _ => rfl), sup_le_iff']
  simp only [bot_le, true_and, Finset.mem_filter, Finset.mem_univ]
  constructor
  · intro H pg
    exact H (ix3 b pg.1 pg.2) ((hd _).2 rfl)
  · intro H i hi
    have hb : i 0 = b := (hd i).1 hi
    have := H (i 1, i 2)
    rw [eq_ix3 i, hb]
    exact this

/-! ## One-bit words and selections -/

/-- The "not equal" comparison of two extended reals is the word 1 exactly when they differ. -/
theorem cmp_une_eq_one (x y : EReal) : Ideal.cmp .une x y = 1#1 ↔ x ≠ y := by
  by_cases h : x = y <;> simp [Ideal.cmp, h]

/-- Selecting `a` where `u` equals 0 and `u` elsewhere. -/
theorem select_oeq_zero (u a : EReal) : Scalar.select (Ideal.cmp .oeq u 0) a u = if u = 0 then a else u := by
  by_cases h : u = 0
  · rw [if_pos h]; simp [Ideal.cmp, Scalar.select, h]
  · rw [if_neg h]; simp [Ideal.cmp, Scalar.select, h]

/-! ## A box coordinate on the pairwise grid, and on its own grid

Each of the sixteen chains below is a broadcast, a reshape and a slice (or a reshape and a slice) of an input; none
changes a value, and the composed index is the input's own. -/

theorem gb_0 (x3 : (⟨S32x128x4, .f32⟩ : BufTy).Contents (Elt Ideal)) (b : Fin 32) (p : Fin 2048) (g : Fin 128) :
    val_main_v11 (F := Ideal) x3 (ix3 b p g) = x3 (ix3 b g 0) := by
  rw [val_main_v11_apply, val_main_v8_apply, val_main_v7_apply, val_main_v6_apply]
  refine congrArg x3 (funext fun a => Fin.ext ?_)
  have hg := g.isLt
  match a with
  | ⟨0, _⟩ => show ((b.val * 1 + 0) * 128 + g.val) / 128 = b.val; omega
  | ⟨1, _⟩ => show ((b.val * 1 + 0) * 128 + g.val) / 1 % 128 = g.val; omega
  | ⟨2, _⟩ => rfl

theorem gb_1 (x3 : (⟨S32x128x4, .f32⟩ : BufTy).Contents (Elt Ideal)) (b : Fin 32) (p : Fin 2048) (g : Fin 128) :
    val_main_v18 (F := Ideal) x3 (ix3 b p g) = x3 (ix3 b g 1) := by
  rw [val_main_v18_apply, val_main_v15_apply, val_main_v14_apply, val_main_v6_apply]
  refine congrArg x3 (funext fun a => Fin.ext ?_)
  have hg := g.isLt
  match a with
  | ⟨0, _⟩ => show ((b.val * 1 + 0) * 128 + g.val) / 128 = b.val; omega
  | ⟨1, _⟩ => show ((b.val * 1 + 0) * 128 + g.val) / 1 % 128 = g.val; omega
  | ⟨2, _⟩ => rfl

theorem gb_2 (x3 : (⟨S32x128x4, .f32⟩ : BufTy).Contents (Elt Ideal)) (b : Fin 32) (p : Fin 2048) (g : Fin 128) :
    val_main_v25 (F := Ideal) x3 (ix3 b p g) = x3 (ix3 b g 2) := by
  rw [val_main_v25_apply, val_main_v22_apply, val_main_v21_apply, val_main_v6_apply]
  refine congrArg x3 (funext fun a => Fin.ext ?_)
  have hg := g.isLt
  match a with
  | ⟨0, _⟩ => show ((b.val * 1 + 0) * 128 + g.val) / 128 = b.val; omega
  | ⟨1, _⟩ => show ((b.val * 1 + 0) * 128 + g.val) / 1 % 128 = g.val; omega
  | ⟨2, _⟩ => rfl

theorem gb_3 (x3 : (⟨S32x128x4, .f32⟩ : BufTy).Contents (Elt Ideal)) (b : Fin 32) (p : Fin 2048) (g : Fin 128) :
    val_main_v32 (F := Ideal) x3 (ix3 b p g) = x3 (ix3 b g 3) := by
  rw [val_main_v32_apply, val_main_v29_apply, val_main_v28_apply, val_main_v6_apply]
  refine congrArg x3 (funext fun a => Fin.ext ?_)
  have hg := g.isLt
  match a with
  | ⟨0, _⟩ => show ((b.val * 1 + 0) * 128 + g.val) / 128 = b.val; omega
  | ⟨1, _⟩ => show ((b.val * 1 + 0) * 128 + g.val) / 1 % 128 = g.val; omega
  | ⟨2, _⟩ => rfl

theorem pb_0 (x0 : (⟨S32x2048x4, .f32⟩ : BufTy).Contents (Elt Ideal)) (b : Fin 32) (p : Fin 2048) (g : Fin 128) :
    val_main_v12 (F := Ideal) x0 (ix3 b p g) = x0 (ix3 b p 0) := by
  rw [val_main_v12_apply, val_main_v10_apply, val_main_v9_apply, val_main_v5_apply]
  refine congrArg x0 (funext fun a => Fin.ext ?_)
  have hp := p.isLt
  match a with
  | ⟨0, _⟩ => show ((b.val * 2048 + p.val) * 1 + 0) / 2048 = b.val; omega
  | ⟨1, _⟩ => show ((b.val * 2048 + p.val) * 1 + 0) / 1 % 2048 = p.val; omega
  | ⟨2, _⟩ => rfl

theorem pb_1 (x0 : (⟨S32x2048x4, .f32⟩ : BufTy).Contents (Elt Ideal)) (b : Fin 32) (p : Fin 2048) (g : Fin 128) :
    val_main_v19 (F := Ideal) x0 (ix3 b p g) = x0 (ix3 b p 1) := by
  rw [val_main_v19_apply, val_main_v17_apply, val_main_v16_apply, val_main_v5_apply]
  refine congrArg x0 (funext fun a => Fin.ext ?_)
  have hp := p.isLt
  match a with
  | ⟨0, _⟩ => show ((b.val * 2048 + p.val) * 1 + 0) / 2048 = b.val; omega
  | ⟨1, _⟩ => show ((b.val * 2048 + p.val) * 1 + 0) / 1 % 2048 = p.val; omega
  | ⟨2, _⟩ => rfl

theorem pb_2 (x0 : (⟨S32x2048x4, .f32⟩ : BufTy).Contents (Elt Ideal)) (b : Fin 32) (p : Fin 2048) (g : Fin 128) :
    val_main_v26 (F := Ideal) x0 (ix3 b p g) = x0 (ix3 b p 2) := by
  rw [val_main_v26_apply, val_main_v24_apply, val_main_v23_apply, val_main_v5_apply]
  refine congrArg x0 (funext fun a => Fin.ext ?_)
  have hp := p.isLt
  match a with
  | ⟨0, _⟩ => show ((b.val * 2048 + p.val) * 1 + 0) / 2048 = b.val; omega
  | ⟨1, _⟩ => show ((b.val * 2048 + p.val) * 1 + 0) / 1 % 2048 = p.val; omega
  | ⟨2, _⟩ => rfl

theorem pb_3 (x0 : (⟨S32x2048x4, .f32⟩ : BufTy).Contents (Elt Ideal)) (b : Fin 32) (p : Fin 2048) (g : Fin 128) :
    val_main_v33 (F := Ideal) x0 (ix3 b p g) = x0 (ix3 b p 3) := by
  rw [val_main_v33_apply, val_main_v31_apply, val_main_v30_apply, val_main_v5_apply]
  refine congrArg x0 (funext fun a => Fin.ext ?_)
  have hp := p.isLt
  match a with
  | ⟨0, _⟩ => show ((b.val * 2048 + p.val) * 1 + 0) / 2048 = b.val; omega
  | ⟨1, _⟩ => show ((b.val * 2048 + p.val) * 1 + 0) / 1 % 2048 = p.val; omega
  | ⟨2, _⟩ => rfl

theorem ap_0 (x0 : (⟨S32x2048x4, .f32⟩ : BufTy).Contents (Elt Ideal)) (b : Fin 32) (p : Fin 2048) :
    val_main_v45 (F := Ideal) x0 (ix2 b p) = x0 (ix3 b p 0) := by
  rw [val_main_v45_apply, val_main_v44_apply]
  refine congrArg x0 (funext fun a => Fin.ext ?_)
  have hp := p.isLt
  match a with
  | ⟨0, _⟩ => show (b.val * 2048 + p.val) / 2048 = b.val; omega
  | ⟨1, _⟩ => show (b.val * 2048 + p.val) / 1 % 2048 = p.val; omega
  | ⟨2, _⟩ => rfl

theorem ap_1 (x0 : (⟨S32x2048x4, .f32⟩ : BufTy).Contents (Elt Ideal)) (b : Fin 32) (p : Fin 2048) :
    val_main_v50 (F := Ideal) x0 (ix2 b p) = x0 (ix3 b p 1) := by
  rw [val_main_v50_apply, val_main_v49_apply]
  refine congrArg x0 (funext fun a => Fin.ext ?_)
  have hp := p.isLt
  match a with
  | ⟨0, _⟩ => show (b.val * 2048 + p.val) / 2048 = b.val; omega
  | ⟨1, _⟩ => show (b.val * 2048 + p.val) / 1 % 2048 = p.val; omega
  | ⟨2, _⟩ => rfl

theorem ap_2 (x0 : (⟨S32x2048x4, .f32⟩ : BufTy).Contents (Elt Ideal)) (b : Fin 32) (p : Fin 2048) :
    val_main_v43 (F := Ideal) x0 (ix2 b p) = x0 (ix3 b p 2) := by
  rw [val_main_v43_apply, val_main_v42_apply]
  refine congrArg x0 (funext fun a => Fin.ext ?_)
  have hp := p.isLt
  match a with
  | ⟨0, _⟩ => show (b.val * 2048 + p.val) / 2048 = b.val; omega
  | ⟨1, _⟩ => show (b.val * 2048 + p.val) / 1 % 2048 = p.val; omega
  | ⟨2, _⟩ => rfl

theorem ap_3 (x0 : (⟨S32x2048x4, .f32⟩ : BufTy).Contents (Elt Ideal)) (b : Fin 32) (p : Fin 2048) :
    val_main_v48 (F := Ideal) x0 (ix2 b p) = x0 (ix3 b p 3) := by
  rw [val_main_v48_apply, val_main_v47_apply]
  refine congrArg x0 (funext fun a => Fin.ext ?_)
  have hp := p.isLt
  match a with
  | ⟨0, _⟩ => show (b.val * 2048 + p.val) / 2048 = b.val; omega
  | ⟨1, _⟩ => show (b.val * 2048 + p.val) / 1 % 2048 = p.val; omega
  | ⟨2, _⟩ => rfl

theorem ag_0 (x3 : (⟨S32x128x4, .f32⟩ : BufTy).Contents (Elt Ideal)) (b : Fin 32) (g : Fin 128) :
    val_main_v56 (F := Ideal) x3 (ix2 b g) = x3 (ix3 b g 0) := by
  rw [val_main_v56_apply, val_main_v55_apply]
  refine congrArg x3 (funext fun a => Fin.ext ?_)
  have hg := g.isLt
  match a with
  | ⟨0, _⟩ => show (b.val * 128 + g.val) / 128 = b.val; omega
  | ⟨1, _⟩ => show (b.val * 128 + g.val) / 1 % 128 = g.val; omega
  | ⟨2, _⟩ => rfl

theorem ag_1 (x3 : (⟨S32x128x4, .f32⟩ : BufTy).Contents (Elt Ideal)) (b : Fin 32) (g : Fin 128) :
    val_main_v61 (F := Ideal) x3 (ix2 b g) = x3 (ix3 b g 1) := by
  rw [val_main_v61_apply, val_main_v60_apply]
  refine congrArg x3 (funext fun a => Fin.ext ?_)
  have hg := g.isLt
  match a with
  | ⟨0, _⟩ => show (b.val * 128 + g.val) / 128 = b.val; omega
  | ⟨1, _⟩ => show (b.val * 128 + g.val) / 1 % 128 = g.val; omega
  | ⟨2, _⟩ => rfl

theorem ag_2 (x3 : (⟨S32x128x4, .f32⟩ : BufTy).Contents (Elt Ideal)) (b : Fin 32) (g : Fin 128) :
    val_main_v54 (F := Ideal) x3 (ix2 b g) = x3 (ix3 b g 2) := by
  rw [val_main_v54_apply, val_main_v53_apply]
  refine congrArg x3 (funext fun a => Fin.ext ?_)
  have hg := g.isLt
  match a with
  | ⟨0, _⟩ => show (b.val * 128 + g.val) / 128 = b.val; omega
  | ⟨1, _⟩ => show (b.val * 128 + g.val) / 1 % 128 = g.val; omega
  | ⟨2, _⟩ => rfl

theorem ag_3 (x3 : (⟨S32x128x4, .f32⟩ : BufTy).Contents (Elt Ideal)) (b : Fin 32) (g : Fin 128) :
    val_main_v59 (F := Ideal) x3 (ix2 b g) = x3 (ix3 b g 3) := by
  rw [val_main_v59_apply, val_main_v58_apply]
  refine congrArg x3 (funext fun a => Fin.ext ?_)
  have hg := g.isLt
  match a with
  | ⟨0, _⟩ => show (b.val * 128 + g.val) / 128 = b.val; omega
  | ⟨1, _⟩ => show (b.val * 128 + g.val) / 1 % 128 = g.val; omega
  | ⟨2, _⟩ => rfl

/-! ## The masks -/

/-- The person bit at (b, p) is 1 exactly when prediction `p` of row `b` is a person. -/
theorem person_bit (x2 : (⟨S32x2048, .i32⟩ : BufTy).Contents (Elt Ideal)) (b : Fin 32) (p : Fin 2048) :
    val_main_v1 (F := Ideal) x2 (ix2 b p) = 1#1 ↔ isPerson x2 b p := by
  rw [val_main_v1_apply, val_main_v0_apply, val_main_c_apply, IntOp.cmpi_eq]
  rfl

/-- The ground-truth bit at (b, g) is 1 exactly when row `g`'s coordinates do not sum to 0. -/
theorem gt_bit (x3 : (⟨S32x128x4, .f32⟩ : BufTy).Contents (Elt Ideal)) (b : Fin 32) (g : Fin 128) :
    val_main_v4 (F := Ideal) x3 (ix2 b g) = 1#1 ↔ isGt x3 b g := by
  have e : ∀ k : Fin 4, idx_main_v2 (ix2 b g) k = ix3 b g k := fun k =>
    funext fun a => Fin.ext (by match a with | ⟨0, _⟩ => rfl | ⟨1, _⟩ => rfl | ⟨2, _⟩ => rfl)
  rw [val_main_v4_apply, val_main_v2_apply, val_main_v3_apply, val_main_cst_apply, val_main_cst_0_apply,
    Ideal.cmpf_def, Ideal.ofBits_def, word_zero, cmp_une_eq_one]
  simp only [e]
  rfl

/-! ## The quotient -/

/-- The product of the two clipped overlaps at (b, p, g) is the intersection's area. -/
theorem inter_at (x0 : (⟨S32x2048x4, .f32⟩ : BufTy).Contents (Elt Ideal)) (x3 : (⟨S32x128x4, .f32⟩ : BufTy).Contents (Elt Ideal)) (b : Fin 32) (p : Fin 2048) (g : Fin 128) :
    val_main_v41 (F := Ideal) x0 x3 (ix3 b p g) = inter x0 x3 b p g := by
  rw [val_main_v41_apply, val_main_v37_apply, val_main_v40_apply, val_main_v35_apply, val_main_v38_apply,
    val_main_v27_apply, val_main_v13_apply, val_main_v34_apply, val_main_v20_apply, val_main_v36_apply,
    val_main_v39_apply, val_main_cst_1_apply, val_main_cst_2_apply, gb_0, gb_1, gb_2, gb_3, pb_0, pb_1, pb_2, pb_3]
  simp only [Ideal.mulf_def, Ideal.maximumf_def, Ideal.minimumf_def, Ideal.subf_def, Ideal.ofBits_def, word_zero]
  rfl

/-- The predicted box's area at (b, p). -/
theorem areaP_at (x0 : (⟨S32x2048x4, .f32⟩ : BufTy).Contents (Elt Ideal)) (b : Fin 32) (p : Fin 2048) :
    val_main_v52 (F := Ideal) x0 (ix2 b p) = areaP x0 b p := by
  rw [val_main_v52_apply, val_main_v46_apply, val_main_v51_apply, ap_0, ap_1, ap_2, ap_3]
  simp only [Ideal.mulf_def, Ideal.subf_def]
  rfl

/-- The ground-truth box's area at (b, g). -/
theorem areaG_at (x3 : (⟨S32x128x4, .f32⟩ : BufTy).Contents (Elt Ideal)) (b : Fin 32) (g : Fin 128) :
    val_main_v63 (F := Ideal) x3 (ix2 b g) = areaG x3 b g := by
  rw [val_main_v63_apply, val_main_v57_apply, val_main_v62_apply, ag_0, ag_1, ag_2, ag_3]
  simp only [Ideal.mulf_def, Ideal.subf_def]
  rfl

/-- The two areas minus the intersection at (b, p, g) is the union's area. -/
theorem union_at (x0 : (⟨S32x2048x4, .f32⟩ : BufTy).Contents (Elt Ideal)) (x3 : (⟨S32x128x4, .f32⟩ : BufTy).Contents (Elt Ideal)) (b : Fin 32) (p : Fin 2048) (g : Fin 128) :
    val_main_v69 (F := Ideal) x0 x3 (ix3 b p g) = union x0 x3 b p g := by
  have e1 : idx_main_v64 (idx_main_v66 (ix3 b p g)) = ix2 b p :=
    funext fun a => Fin.ext (by match a with | ⟨0, _⟩ => rfl | ⟨1, _⟩ => rfl)
  have e2 : idx_main_v65 (idx_main_v67 (ix3 b p g)) = ix2 b g :=
    funext fun a => Fin.ext (by match a with | ⟨0, _⟩ => rfl | ⟨1, _⟩ => rfl)
  rw [val_main_v69_apply, val_main_v68_apply, val_main_v66_apply, val_main_v64_apply, val_main_v67_apply,
    val_main_v65_apply, e1, e2, areaP_at, areaG_at, inter_at]
  simp only [Ideal.addf_def, Ideal.subf_def]
  rfl

/-- The quotient at (b, p, g): the intersection over the union, the union replaced by 1 where it is 0. -/
theorem quot_at (x0 : (⟨S32x2048x4, .f32⟩ : BufTy).Contents (Elt Ideal)) (x3 : (⟨S32x128x4, .f32⟩ : BufTy).Contents (Elt Ideal)) (b : Fin 32) (p : Fin 2048) (g : Fin 128) :
    val_main_v78 (F := Ideal) x0 x3 (ix3 b p g) = quot x0 x3 b p g := by
  rw [val_main_v78_apply, val_main_v77_apply, val_main_v76_apply, val_main_v75_apply, val_main_cst_3_apply,
    val_main_call0_v1_apply, val_main_call0_v0_apply, val_main_cst_4_apply, inter_at, union_at]
  simp only [Ideal.hostDivf_def, Ideal.cmpf_def, Ideal.ofBits_def, word_zero, word_one, select_oeq_zero]
  rfl

/-- The selected quotient at (b, p, g): the quotient where both masks hold, else 0. -/
theorem iou_at (x0 : (⟨S32x2048x4, .f32⟩ : BufTy).Contents (Elt Ideal)) (x2 : (⟨S32x2048, .i32⟩ : BufTy).Contents (Elt Ideal)) (x3 : (⟨S32x128x4, .f32⟩ : BufTy).Contents (Elt Ideal)) (b : Fin 32) (p : Fin 2048) (g : Fin 128) :
    val_main_v79 (F := Ideal) x0 x2 x3 (ix3 b p g) = iouR x0 x2 x3 b p g := by
  have e1 : idx_main_v70 (idx_main_v72 (ix3 b p g)) = ix2 b p :=
    funext fun a => Fin.ext (by match a with | ⟨0, _⟩ => rfl | ⟨1, _⟩ => rfl)
  have e2 : idx_main_v71 (idx_main_v73 (ix3 b p g)) = ix2 b g :=
    funext fun a => Fin.ext (by match a with | ⟨0, _⟩ => rfl | ⟨1, _⟩ => rfl)
  rw [val_main_v79_apply, val_main_v74_apply, val_main_v72_apply, val_main_v70_apply, val_main_v73_apply,
    val_main_v71_apply, e1, e2, quot_at, val_main_call1_v1_apply, val_main_call1_v0_apply, val_main_cst_5_apply,
    Ideal.ofBits_def, word_zero]
  unfold iouR
  by_cases h : isPerson x2 b p ∧ isGt x3 b g
  · rw [if_pos h, IntOp.andi_eq_one.2 ⟨(person_bit x2 b p).2 h.1, (gt_bit x3 b g).2 h.2⟩, select_one]
  · have hne : ¬ IntOp.andi (val_main_v1 (F := Ideal) x2 (ix2 b p)) (val_main_v4 (F := Ideal) x3 (ix2 b g)) = 1#1 :=
      fun H => h ⟨(person_bit x2 b p).1 (IntOp.andi_eq_one.1 H).1, (gt_bit x3 b g).1 (IntOp.andi_eq_one.1 H).2⟩
    rw [if_neg h, eq_zero_of_ne_one hne, select_zero]

/-! ## The selected score -/

/-- The selected score at (b, p): the score of a person, else -1. -/
theorem masked_at (x1 : (⟨S32x2048, .f32⟩ : BufTy).Contents (Elt Ideal)) (x2 : (⟨S32x2048, .i32⟩ : BufTy).Contents (Elt Ideal)) (b : Fin 32) (p : Fin 2048) :
    val_main_v82 (F := Ideal) x1 x2 (ix2 b p) = maskedR x1 x2 b p := by
  rw [val_main_v82_apply, val_main_call2_v1_apply, val_main_call2_v0_apply, val_main_cst_8_apply, Ideal.ofBits_def,
    word_negOne]
  unfold maskedR
  by_cases h : isPerson x2 b p
  · rw [if_pos h, (person_bit x2 b p).2 h, select_one]
  · rw [if_neg h, eq_zero_of_ne_one (fun H => h ((person_bit x2 b p).1 H)), select_zero]

/-! ## The three reductions of the program -/

/-- "Row `b` has a person": the "or" along the row of the person bits. -/
theorem any_at (x2 : (⟨S32x2048, .i32⟩ : BufTy).Contents (Elt Ideal)) (b : Fin 32) :
    val_main_v81 (F := Ideal) x2 (ix1 b) = 1#1 ↔ hasR x2 b := by
  unfold val_main_v81
  rw [reduce_ori_row _ _ _ _ (val_main_c_7_apply _) b]
  exact exists_congr fun p => person_bit x2 b p

/-- The largest selected score of row `b`. -/
theorem score_at (x1 : (⟨S32x2048, .f32⟩ : BufTy).Contents (Elt Ideal)) (x2 : (⟨S32x2048, .i32⟩ : BufTy).Contents (Elt Ideal)) (b : Fin 32) :
    val_main_v83 (F := Ideal) x1 x2 (ix1 b) = scoreR x1 x2 b := by
  unfold val_main_v83
  rw [reduce_max_row _ _ _ _ ((val_main_cst_9_apply _).trans word_negInf) b]
  unfold scoreR
  exact congrArg _ (funext fun p => masked_at x1 x2 b p)

/-- The largest selected quotient of row `b`. -/
theorem iouMax_at (x0 : (⟨S32x2048x4, .f32⟩ : BufTy).Contents (Elt Ideal)) (x2 : (⟨S32x2048, .i32⟩ : BufTy).Contents (Elt Ideal)) (x3 : (⟨S32x128x4, .f32⟩ : BufTy).Contents (Elt Ideal)) (b : Fin 32) :
    val_main_v80 (F := Ideal) x0 x2 x3 (ix1 b) = iouMaxR x0 x2 x3 b := by
  unfold val_main_v80
  rw [reduce_max_plane _ _ _ _ ((val_main_cst_6_apply _).trans word_negInf) b]
  unfold iouMaxR
  exact congrArg _ (funext fun pg => iou_at x0 x2 x3 b pg.1 pg.2)

/-! ## The two results -/

/-- The first result: the root of the largest selected score plus one where the row has a person, else 0. -/
theorem prob_eq (x1 : (⟨Cert.ReferenceIdeal.S32x2048, .f32⟩ : BufTy).Contents (Elt Ideal)) (x2 : (⟨Cert.ReferenceIdeal.S32x2048, .i32⟩ : BufTy).Contents (Elt Ideal)) :
    Cert.ReferenceIdeal.ReadP.val_main_v87 (F := Ideal) x1 x2 = fun i => Cert.IouSpec.probR x1 x2 (i 0) := by
  funext i
  obtain ⟨b, rfl⟩ : ∃ b : Fin 32, i = ix1 b := ⟨i 0, eq_ix1 i⟩
  show val_main_v87 (F := Ideal) x1 x2 (ix1 b) = probR x1 x2 b
  rw [val_main_v87_apply]
  unfold probR
  by_cases hh : hasR x2 b
  · rw [if_pos hh, (any_at x2 b).2 hh, select_one, val_main_v86_apply, val_main_v85_apply, Ideal.hostUnary_sqrt_def,
      Ideal.addf_def, val_main_v84_apply, val_main_cst_10_apply, Ideal.ofBits_def, word_one, score_at]
  · rw [if_neg hh, eq_zero_of_ne_one (fun H => hh ((any_at x2 b).1 H)), select_zero, val_main_call3_v1_apply,
      val_main_call3_v0_apply, val_main_cst_11_apply, Ideal.ofBits_def, word_zero]

/-- The second result: the largest selected quotient where the row has a person, else 0. -/
theorem iou_eq (x0 : (⟨Cert.ReferenceIdeal.S32x2048x4, .f32⟩ : BufTy).Contents (Elt Ideal)) (x2 : (⟨Cert.ReferenceIdeal.S32x2048, .i32⟩ : BufTy).Contents (Elt Ideal)) (x3 : (⟨Cert.ReferenceIdeal.S32x128x4, .f32⟩ : BufTy).Contents (Elt Ideal)) :
    Cert.ReferenceIdeal.ReadP.val_main_v88 (F := Ideal) x0 x2 x3 = fun i => Cert.IouSpec.outIouR x0 x2 x3 (i 0) := by
  funext i
  obtain ⟨b, rfl⟩ : ∃ b : Fin 32, i = ix1 b := ⟨i 0, eq_ix1 i⟩
  show val_main_v88 (F := Ideal) x0 x2 x3 (ix1 b) = outIouR x0 x2 x3 b
  rw [val_main_v88_apply]
  unfold outIouR
  by_cases hh : hasR x2 b
  · rw [if_pos hh, (any_at x2 b).2 hh, select_one, iouMax_at]
  · rw [if_neg hh, eq_zero_of_ne_one (fun H => hh ((any_at x2 b).1 H)), select_zero, val_main_call4_v1_apply,
      val_main_call4_v0_apply, val_main_cst_12_apply, Ideal.ofBits_def, word_zero]

end Cert.RefSide

end
-- ==== Proof.Algebra.lean ====
/-
  The two spellings of the pairwise box intersection-over-union results agree.

  The first spelling reads the masks as the numbers 0 and 1 and starts its running maxima from 0 and from -1; the second
  selects on the masks as truth values and takes plain maxima. On the extended reals 0 * x = 0 and 1 * x = x for
  every x, so the masked quotient is the selected quotient term by term. A running maximum from a is the plain
  maximum as soon as the plain maximum is at least a: for the scores that is the hypothesis, and for the quotients it
  holds because every selected quotient of finite boxes is nonnegative, which is a statement about eight real numbers.
-/
import proofs.«131841_j54657753808935_1_alg».proof.Proof.Spec

noncomputable section

open scoped BigOperators
open Classical

namespace Cert.IouAlgebra

open Idealize.ShloMosaic Idealize.ShloMosaic.ValueIdx Cert.IouSpec

/-! ## The masks as numbers -/

section Masks

variable (ps : (⟨2, ![32, 2048]⟩ : Shape).Idx → EReal) (pc : (⟨2, ![32, 2048]⟩ : Shape).Idx → BitVec 32)

/-- The person mask, 0 or 1, exceeds 1/2 exactly on a person. -/
theorem half_lt_personF (b : Fin 32) (p : Fin 2048) :
    ((1 / 2 : ℝ) : EReal) < personF pc b p ↔ isPerson pc b p := by
  unfold personF
  by_cases h : isPerson pc b p
  · simp only [h, if_true, iff_true]
    rw [← EReal.coe_one, EReal.coe_lt_coe_iff]
    norm_num
  · simp only [h, if_false, iff_false, not_lt]
    rw [← EReal.coe_zero, EReal.coe_le_coe_iff]
    norm_num

/-- The masked score is the selected score. -/
theorem maskedK_eq_maskedR (b : Fin 32) (p : Fin 2048) : maskedK ps pc b p = maskedR ps pc b p := by
  unfold maskedK maskedR
  simp only [half_lt_personF]

/-- The running "has a person" maximum exceeds 1/2 exactly when the row has a person. -/
theorem half_lt_hasMaxK (b : Fin 32) : ((1 / 2 : ℝ) : EReal) < hasMaxK pc b ↔ hasR pc b := by
  unfold hasMaxK hasR
  rw [lt_max_iff, Finset.lt_sup_iff]
  constructor
  · rintro (h | ⟨p, _, hp⟩)
    · exfalso
      rw [← EReal.coe_zero, EReal.coe_lt_coe_iff] at h
      norm_num at h
    · exact ⟨p, (half_lt_personF pc b p).1 hp⟩
  · rintro ⟨p, hp⟩
    exact Or.inr ⟨p, Finset.mem_univ _, (half_lt_personF pc b p).2 hp⟩

/-- The running score maximum from -1 is the plain maximum once that is at least -1. -/
theorem scoreK_eq_scoreR (b : Fin 32) (hscore : ((-1 : ℝ) : EReal) ≤ scoreR ps pc b) :
    scoreK ps pc b = scoreR ps pc b := by
  unfold scoreK
  have h : (Finset.univ.sup fun p : Fin 2048 => maskedK ps pc b p) = scoreR ps pc b := by
    unfold scoreR
    simp only [maskedK_eq_maskedR]
  rw [h]
  exact max_eq_right hscore

end Masks

theorem probK_eq_probR (ps : (⟨2, ![32, 2048]⟩ : Shape).Idx → EReal) (pc : (⟨2, ![32, 2048]⟩ : Shape).Idx → BitVec 32)
    (b : Fin 32) (hscore : ((-1 : ℝ) : EReal) ≤ Cert.IouSpec.scoreR ps pc b) :
    Cert.IouSpec.probK ps pc b = Cert.IouSpec.probR ps pc b := by
  unfold probK probR
  simp only [half_lt_hasMaxK, scoreK_eq_scoreR ps pc b hscore]

/-! ## The masked quotient is the selected quotient -/

section Quot

variable (pb : (⟨3, ![32, 2048, 4]⟩ : Shape).Idx → EReal) (pc : (⟨2, ![32, 2048]⟩ : Shape).Idx → BitVec 32)
  (gb : (⟨3, ![32, 128, 4]⟩ : Shape).Idx → EReal)

/-- The product of the two masks is 1 where both hold and has a factor 0 otherwise; on the extended reals
    1 * x = x and 0 * x = 0 for every x. -/
theorem iouK_eq_iouR (b : Fin 32) (p : Fin 2048) (g : Fin 128) : iouK pb pc gb b p g = iouR pb pc gb b p g := by
  unfold iouK iouR personF gtF
  by_cases hp : isPerson pc b p <;> by_cases hg : isGt gb b g <;> simp [hp, hg]

end Quot

/-! ## The real-number fact: a quotient of finite boxes is nonnegative -/

/-- With iw, ih the clipped overlaps, the intersection iw * ih is nonnegative; where it is positive both overlaps are
    positive, each is at most the matching side of either box, so both areas are at least iw * ih and the union is at
    least iw * ih, hence positive. So the intersection times the reciprocal of the divisor is nonnegative. -/
theorem real_quot_nonneg (gx1 gy1 gx2 gy2 px1 py1 px2 py2 : ℝ) :
    0 ≤ (max (min gx2 px2 - max gx1 px1) 0 * max (min gy2 py2 - max gy1 py1) 0) *
      (1 / (if (px2 - px1) * (py2 - py1) + (gx2 - gx1) * (gy2 - gy1)
              - max (min gx2 px2 - max gx1 px1) 0 * max (min gy2 py2 - max gy1 py1) 0 = 0 then 1
            else (px2 - px1) * (py2 - py1) + (gx2 - gx1) * (gy2 - gy1)
              - max (min gx2 px2 - max gx1 px1) 0 * max (min gy2 py2 - max gy1 py1) 0)) := by
  set iw := max (min gx2 px2 - max gx1 px1) 0 with hiw
  set ih := max (min gy2 py2 - max gy1 py1) 0 with hih
  have hiw0 : 0 ≤ iw := le_max_right _ _
  have hih0 : 0 ≤ ih := le_max_right _ _
  rcases (mul_nonneg hiw0 hih0).eq_or_lt with h0 | hpos
  · rw [← h0, zero_mul]
  · have hiwpos : 0 < iw := by
      rcases hiw0.eq_or_lt with h | h
      · rw [← h, zero_mul] at hpos; exact absurd hpos (lt_irrefl _)
      · exact h
    have hihpos : 0 < ih := by
      rcases hih0.eq_or_lt with h | h
      · rw [← h, mul_zero] at hpos; exact absurd hpos (lt_irrefl _)
      · exact h
    have hiwe : iw = min gx2 px2 - max gx1 px1 := by
      rcases le_total (min gx2 px2 - max gx1 px1) 0 with h | h
      · rw [hiw, max_eq_right h] at hiwpos; exact absurd hiwpos (lt_irrefl _)
      · rw [hiw, max_eq_left h]
    have hihe : ih = min gy2 py2 - max gy1 py1 := by
      rcases le_total (min gy2 py2 - max gy1 py1) 0 with h | h
      · rw [hih, max_eq_right h] at hihpos; exact absurd hihpos (lt_irrefl _)
      · rw [hih, max_eq_left h]
    have hwp : iw ≤ px2 - px1 := by
      rw [hiwe]; linarith [min_le_right gx2 px2, le_max_right gx1 px1]
    have hwg : iw ≤ gx2 - gx1 := by
      rw [hiwe]; linarith [min_le_left gx2 px2, le_max_left gx1 px1]
    have hhp : ih ≤ py2 - py1 := by
      rw [hihe]; linarith [min_le_right gy2 py2, le_max_right gy1 py1]
    have hhg : ih ≤ gy2 - gy1 := by
      rw [hihe]; linarith [min_le_left gy2 py2, le_max_left gy1 py1]
    have hap : iw * ih ≤ (px2 - px1) * (py2 - py1) :=
      mul_le_mul hwp hhp hih0 (le_trans hiw0 hwp)
    have hag : iw * ih ≤ (gx2 - gx1) * (gy2 - gy1) :=
      mul_le_mul hwg hhg hih0 (le_trans hiw0 hwg)
    have hu : 0 < (px2 - px1) * (py2 - py1) + (gx2 - gx1) * (gy2 - gy1) - iw * ih := by linarith
    rw [if_neg (ne_of_gt hu)]
    exact mul_nonneg hpos.le (one_div_nonneg.2 hu.le)

/-! ## From finite extended reals to reals -/

/-- A finite extended real is a real. -/
theorem exists_real {x : EReal} (h : x ≠ ⊤ ∧ x ≠ ⊥) : ∃ r : ℝ, x = (r : EReal) :=
  ⟨x.toReal, (EReal.coe_toReal h.1 h.2).symm⟩

/-- A quotient of reals, the divisor replaced by 1 where it is 0, is nonnegative on the extended reals as soon as it is
    nonnegative on the reals: the divisor is a nonzero real, so the quotient is the product with its reciprocal. -/
theorem div_coe_nonneg (I u : ℝ) (h : 0 ≤ I * (1 / (if u = 0 then 1 else u))) :
    0 ≤ Ideal.div (I : EReal) (if (u : EReal) = 0 then 1 else (u : EReal)) := by
  have hd : (if (u : EReal) = 0 then (1 : EReal) else (u : EReal)) = (((if u = 0 then 1 else u : ℝ)) : EReal) := by
    by_cases hu : u = 0
    · simp [hu]
    · have hu' : (u : EReal) ≠ 0 := by exact_mod_cast hu
      rw [if_neg hu', if_neg hu]
  have hne : (if u = 0 then (1 : ℝ) else u) ≠ 0 := by
    by_cases hu : u = 0
    · rw [if_pos hu]; exact one_ne_zero
    · rw [if_neg hu]; exact hu
  rw [hd, Ideal.div_coe hne, ← EReal.coe_mul]
  exact EReal.coe_nonneg.2 h

section Nonneg

variable (pb : (⟨3, ![32, 2048, 4]⟩ : Shape).Idx → EReal) (pc : (⟨2, ![32, 2048]⟩ : Shape).Idx → BitVec 32)
  (gb : (⟨3, ![32, 128, 4]⟩ : Shape).Idx → EReal)

/-- Every quotient of finite boxes is nonnegative. -/
theorem quot_nonneg (b : Fin 32) (p : Fin 2048) (g : Fin 128)
    (hpb : ∀ i, pb i ≠ ⊤ ∧ pb i ≠ ⊥) (hgb : ∀ i, gb i ≠ ⊤ ∧ gb i ≠ ⊥) : 0 ≤ quot pb gb b p g := by
  obtain ⟨gx1, hgx1⟩ := exists_real (hgb (ix3 b g 0))
  obtain ⟨gy1, hgy1⟩ := exists_real (hgb (ix3 b g 1))
  obtain ⟨gx2, hgx2⟩ := exists_real (hgb (ix3 b g 2))
  obtain ⟨gy2, hgy2⟩ := exists_real (hgb (ix3 b g 3))
  obtain ⟨px1, hpx1⟩ := exists_real (hpb (ix3 b p 0))
  obtain ⟨py1, hpy1⟩ := exists_real (hpb (ix3 b p 1))
  obtain ⟨px2, hpx2⟩ := exists_real (hpb (ix3 b p 2))
  obtain ⟨py2, hpy2⟩ := exists_real (hpb (ix3 b p 3))
  unfold quot union areaP areaG inter
  rw [hgx1, hgy1, hgx2, hgy2, hpx1, hpy1, hpx2, hpy2]
  have hI : max (min (gx2 : EReal) px2 - max (gx1 : EReal) px1) 0
        * max (min (gy2 : EReal) py2 - max (gy1 : EReal) py1) 0
      = ((max (min gx2 px2 - max gx1 px1) 0 * max (min gy2 py2 - max gy1 py1) 0 : ℝ) : EReal) := by
    push_cast
    rfl
  have hU : ((px2 : EReal) - px1) * ((py2 : EReal) - py1) + ((gx2 : EReal) - gx1) * ((gy2 : EReal) - gy1)
        - ((max (min gx2 px2 - max gx1 px1) 0 * max (min gy2 py2 - max gy1 py1) 0 : ℝ) : EReal)
      = (((px2 - px1) * (py2 - py1) + (gx2 - gx1) * (gy2 - gy1)
          - max (min gx2 px2 - max gx1 px1) 0 * max (min gy2 py2 - max gy1 py1) 0 : ℝ) : EReal) := by
    push_cast
    rfl
  rw [hI, hU]
  exact div_coe_nonneg _ _ (real_quot_nonneg gx1 gy1 gx2 gy2 px1 py1 px2 py2)

/-- Every selected quotient of finite boxes is nonnegative. -/
theorem iouR_nonneg (b : Fin 32) (p : Fin 2048) (g : Fin 128)
    (hpb : ∀ i, pb i ≠ ⊤ ∧ pb i ≠ ⊥) (hgb : ∀ i, gb i ≠ ⊤ ∧ gb i ≠ ⊥) : 0 ≤ iouR pb pc gb b p g := by
  unfold iouR
  by_cases h : isPerson pc b p ∧ isGt gb b g
  · rw [if_pos h]; exact quot_nonneg pb gb b p g hpb hgb
  · rw [if_neg h]

/-- The running quotient maximum from 0 is the plain maximum: the plain maximum is at least its first term, which is
    nonnegative. -/
theorem iouMaxK_eq_iouMaxR (b : Fin 32)
    (hpb : ∀ i, pb i ≠ ⊤ ∧ pb i ≠ ⊥) (hgb : ∀ i, gb i ≠ ⊤ ∧ gb i ≠ ⊥) :
    iouMaxK pb pc gb b = iouMaxR pb pc gb b := by
  unfold iouMaxK
  have h : (Finset.univ.sup fun pg : Fin 2048 × Fin 128 => iouK pb pc gb b pg.1 pg.2) = iouMaxR pb pc gb b := by
    unfold iouMaxR
    simp only [iouK_eq_iouR]
  rw [h]
  apply max_eq_right
  unfold iouMaxR
  exact le_trans (iouR_nonneg pb pc gb b 0 0 hpb hgb)
    (Finset.le_sup (f := fun pg : Fin 2048 × Fin 128 => iouR pb pc gb b pg.1 pg.2)
      (Finset.mem_univ ((0, 0) : Fin 2048 × Fin 128)))

end Nonneg

theorem outIouK_eq_outIouR (pb : (⟨3, ![32, 2048, 4]⟩ : Shape).Idx → EReal)
    (pc : (⟨2, ![32, 2048]⟩ : Shape).Idx → BitVec 32) (gb : (⟨3, ![32, 128, 4]⟩ : Shape).Idx → EReal) (b : Fin 32)
    (hpb : ∀ i, pb i ≠ ⊤ ∧ pb i ≠ ⊥) (hgb : ∀ i, gb i ≠ ⊤ ∧ gb i ≠ ⊥) :
    Cert.IouSpec.outIouK pb pc gb b = Cert.IouSpec.outIouR pb pc gb b := by
  unfold outIouK outIouR
  simp only [half_lt_hasMaxK, iouMaxK_eq_iouMaxR pb pc gb b hpb hgb]

end Cert.IouAlgebra

end
-- ==== Proof.PreFacts.lean ====
/-
  The precondition read back as plain facts.

  The precondition is a conjunction of four tests. Three say that every entry of an input array has absolute value
  below +∞, which on the extended reals says the entry is neither +∞ nor -∞. The fourth says that in every batch row the
  maximum, from -∞, of the scores selected on "the class word is 0" (and -1 elsewhere) is at least -1; a maximum from -∞
  over a whole axis is the supremum over that axis, and the selected score is the specification's `maskedR`, so the
  fourth test says that -1 lies below the specification's `scoreR` of every row.
-/
import proofs.«131841_j54657753808935_1_alg».proof.Pre_finite_inputs
import proofs.«131841_j54657753808935_1_alg».proof.Proof.Gen.Pre_finite_inputs
import proofs.«131841_j54657753808935_1_alg».proof.Proof.Spec
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws
import Idealize.ShloMosaic.PureOps.Reduce

noncomputable section

open Classical

namespace Cert.PreFacts

open Idealize.ShloMosaic Idealize.ShloMosaic.ValueIdx Cert.Pre_finite_inputs

/-- The shape of rank 0 has one index. -/
instance : Subsingleton S_.Idx := ⟨fun a b => funext fun d => d.elim0⟩

/-! ## The words and comparisons at an element -/

/-- The word 0x7F800000 is +∞. -/
theorem word_posInf : Ideal.ofBits .f32 0x7F800000#32 = ⊤ := by
  simp [Ideal.ofBits, Ideal.ieee]

/-- A "less than" that came out 1 holds. -/
theorem lt_of_cmp_olt (x y : EReal) (h : Ideal.cmp .olt x y = 1#1) : x < y := by
  by_contra hn
  have h0 : Ideal.cmp .olt x y = 0#1 := by simp [Ideal.cmp, hn]
  rw [h0] at h
  exact absurd h (by decide)

/-- An "at least" that came out 1 holds. -/
theorem le_of_cmp_oge (x y : EReal) (h : Ideal.cmp .oge x y = 1#1) : y ≤ x := by
  by_contra hn
  have h0 : Ideal.cmp .oge x y = 0#1 := by simp [Ideal.cmp, hn]
  rw [h0] at h
  exact absurd h (by decide)

/-- An extended real whose absolute value max x (-x) lies strictly below +∞ is neither infinity. -/
theorem finite_of_abs_lt (x : EReal) (h : max x (-x) < ⊤) : x ≠ ⊤ ∧ x ≠ ⊥ := by
  induction x using EReal.rec with
  | bot => simp at h
  | coe r => exact ⟨EReal.coe_ne_top r, EReal.coe_ne_bot r⟩
  | top => simp at h

/-- A rank-0 operand broadcast to any shape reads its one element at every index. -/
theorem bcast0_apply {α : Type} {t : Shape} (h : S_.BroadcastsInDim t (![] : Fin 0 → Fin t.rank)) (x : S_.Idx → α)
    (j : t.Idx) : broadcastInDim t ![] h x j = x ix0 :=
  broadcastInDim_apply _ h x j ix0 (fun a => a.elim0)

/-! ## One finiteness test -/

/-- If the test "every |a i| < +∞" came out 1, every entry of `a` is neither infinity. -/
theorem finite_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi
        (cmpf .olt (Host.absf a) (broadcastInDim s ![] hb (constant (F := Ideal) S_ .f32 0x7F800000#32)))
        (constantI S_ 1 1#1) hr hu ix0 = 1#1)
    (i : s.Idx) : a i ≠ ⊤ ∧ a i ≠ ⊥ := by
  have h1 := Host.reduce_andi_all _ _ hr hu ix0 e i
  have h2 : Ideal.cmp .olt (max (a i) (-(a i))) (Ideal.ofBits .f32 0x7F800000#32) = 1#1 := h1
  have h3 := lt_of_cmp_olt _ _ h2
  rw [word_posInf] at h3
  exact finite_of_abs_lt (a i) h3

/-! ## The row maximum -/

/-- Row `b` with column `k` put back is (b, k). -/
theorem lift_ix2 (h : S32x2048.Reduces [1] S32) (b : Fin 32) (k : Fin (S32x2048.size 1)) :
    h.lift (ix1 b) k = ix2 b (⟨k.val, k.isLt⟩ : Fin 2048) := by
  funext c; apply Fin.ext
  fin_cases c <;> rfl

/-- A running maximum from -∞ over a whole finite type is the supremum. -/
theorem fold_max_bot_eq_sup {ι : Type*} [Fintype ι] (f : ι → EReal) :
    (Finset.univ : Finset ι).fold max ⊥ f = (Finset.univ : Finset ι).sup f := by
  refine eq_of_forall_ge_iff fun c => ?_
  rw [Cert.IouSpec.fold_max_le_iff, Cert.IouSpec.sup_le_iff']
  exact ⟨fun h => h.2, fun h => ⟨bot_le, h⟩⟩

/-- From the word of -∞, the maximum over the second axis at row `b` is the supremum of the row. -/
theorem rowMax_eq_sup (x : FVec Ideal S32x2048 .f32) (h' : S32x2048.ReducesTo [1] S32) (hu : 0 < S_.numel) (b : Fin 32) :
    Host.reduce FloatOps.maximumf x (constant (F := Ideal) S_ .f32 0xFF800000#32) h' hu (ix1 b)
      = (Finset.univ : Finset (Fin 2048)).sup fun p => x (ix2 b p) := by
  have h : S32x2048.Reduces [1] S32 := by decide
  rw [Host.reduce_eq_fold_single FloatOps.maximumf x _ h' h hu]
  have hf : (x ∘ h.lift (ix1 b)) = fun p : Fin 2048 => x (ix2 b p) := funext fun k => congrArg x (lift_ix2 h b k)
  refine (congrArg (fun f => Finset.fold max (Ideal.ofBits .f32 0xFF800000#32) f (Finset.univ : Finset (Fin 2048))) hf).trans ?_
  rw [Cert.IouSpec.word_negInf]
  exact fold_max_bot_eq_sup _

/-! ## The selected score -/

/-- The score selected on "the class word equals the broadcast 0", else the word of -1, is the specification's
    selected score. -/
theorem select_eq_maskedR (ps : FVec Ideal S32x2048 .f32) (pc : IVec S32x2048 32)
    (hb : S_.BroadcastsInDim S32x2048 (![] : Fin 0 → Fin S32x2048.rank)) (b : Fin 32) (p : Fin 2048) :
    select (cmpi .eq pc (broadcastInDim S32x2048 ![] hb (constantI S_ 32 0#32))) ps
        (broadcastInDim S32x2048 ![] hb (constant (F := Ideal) S_ .f32 0xBF800000#32)) (ix2 b p)
      = Cert.IouSpec.maskedR ps pc b p := by
  show Scalar.select (IntOp.cmpi .eq (pc (ix2 b p)) 0#32) (ps (ix2 b p)) (Ideal.ofBits .f32 0xBF800000#32) = _
  unfold Cert.IouSpec.maskedR Cert.IouSpec.isPerson
  rw [Cert.IouSpec.word_negOne]
  by_cases hc : pc (ix2 b p) = 0#32
  · rw [if_pos hc, IntOp.cmpi_eq.2 hc]
    exact select_one _ _
  · rw [if_neg hc, eq_zero_of_ne_one (fun h1 => hc (IntOp.cmpi_eq.1 h1))]
    exact select_zero _ _

/-! ## The precondition, decoded -/

theorem of_pre [Cert.Pre_finite_inputs.Facts]
    (a0 : FVec Ideal Cert.Pre_finite_inputs.S32x2048x4 .f32) (a1 : FVec Ideal Cert.Pre_finite_inputs.S32x2048 .f32)
    (a2 : IVec Cert.Pre_finite_inputs.S32x2048 32) (a3 : FVec Ideal Cert.Pre_finite_inputs.S32x128x4 .f32)
    (h : Cert.Pre_finite_inputs.fn (F := Ideal) a0 a1 a2 a3 = fun _ => 1#1) :
    (∀ i, a0 i ≠ ⊤ ∧ a0 i ≠ ⊥) ∧ (∀ i, a1 i ≠ ⊤ ∧ a1 i ≠ ⊥) ∧ (∀ i, a3 i ≠ ⊤ ∧ a3 i ≠ ⊥)
      ∧ ∀ b : Fin 32, ((-1 : ℝ) : EReal) ≤ Cert.IouSpec.scoreR a1 a2 b := by
  have h0 := congrFun h ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  refine ⟨fun i => finite_of_all _ _ _ a0 h1 i, fun i => finite_of_all _ _ _ a1 h2 i,
    fun i => finite_of_all _ _ _ a3 h3 i, fun b => ?_⟩
  have h5 := Host.reduce_andi_all _ _ _ _ ix0 h4 (ix1 b)
  rw [cmpf_apply, Ideal.cmpf_def, bcast0_apply, constant_apply, Cert.IouSpec.word_negOne, rowMax_eq_sup] at h5
  have h6 := le_of_cmp_oge _ _ h5
  unfold Cert.IouSpec.scoreR
  refine h6.trans (le_of_eq ?_)
  exact Finset.sup_congr rfl fun p _ => select_eq_maskedR a1 a2 _ b p

end Cert.PreFacts

end
-- ==== Proof.lean ====
/-
  Pairwise box-IoU max-reduction: a Pallas kernel against its jnp reference, over the extended reals.

  For each of 32 batch rows, over 2048 predicted boxes and 128 ground-truth boxes: the largest intersection-over-union
  among the pairs of a person prediction (class 0) and a ground-truth row that is not padding, and the square root of
  one plus the largest person score — both 0 for a row without a person. The kernel walks the predictions in eight tiles
  of 256 per block of sixteen batch rows, keeps three running maxima in scratch rows (quotients from 0, scores from -1,
  the person mask from 0), multiplies by the masks as numbers, and writes the results at the last tile; the reference
  selects on the masks as truth values and takes plain maxima. The two agree where every float input is finite and, in
  every batch row, the largest person score (-1 without a person) is at least -1, which is what keeps the reference's
  square root inside its domain: that is the precondition. The quotients being non-negative on finite inputs is what
  makes the kernel's start from 0 harmless.

  The modules: Spec (the mathematics, two spellings), Algebra (the spellings agree), PreFacts (the precondition read as
  facts), TileSpec / Payloads (the body's arithmetic at an index), Pieces (what each run of the body leaves), Blocks /
  HostPrefix / Tiles (a tile in terms of the whole arrays), InvDef / Accum (the running maxima, by induction along the
  grid), LastTile / Final (the outputs, the arrays, @main's results), RefValue / RefRun (the reference's results).
-/
import proofs.«131841_j54657753808935_1_alg».proof.Defs
import proofs.«131841_j54657753808935_1_alg».proof.Proof.Gen.Kernel
import proofs.«131841_j54657753808935_1_alg».proof.Proof.Gen.Kernel.Frame
import proofs.«131841_j54657753808935_1_alg».proof.Proof.Gen.KernelIdeal
import proofs.«131841_j54657753808935_1_alg».proof.Proof.Gen.KernelIdeal.Frame
import proofs.«131841_j54657753808935_1_alg».proof.Proof.Gen.ReferenceIdeal
import proofs.«131841_j54657753808935_1_alg».proof.Proof.Gen.Pre_finite_inputs
import proofs.«131841_j54657753808935_1_alg».proof.Proof.Final
import proofs.«131841_j54657753808935_1_alg».proof.Proof.RefRun
import proofs.«131841_j54657753808935_1_alg».proof.Proof.RefValue
import proofs.«131841_j54657753808935_1_alg».proof.Proof.Algebra
import proofs.«131841_j54657753808935_1_alg».proof.Proof.PreFacts
import Idealize.ShloMosaic.Adequacy
import Idealize.ShloMosaic.Init

noncomputable section

/-! The five claims. The two kernel frames are the generated frame certificates; the reference's frame is its run with
    the results dropped; the ideal pass rewrote nothing. For the value claim the idealized kernel ends with its two
    results at the first spelling of the specification (masks as the numbers 0 and 1, running maxima from 0 and -1) and
    the reference at the second (masks as truth values, plain maxima), of argument arrays that agree; on inputs that
    are finite and whose row-wise largest person score is at least -1 — the precondition — the two spellings are equal. -/

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run (Cert.ReferenceIdeal.defs (F := Ideal)) _ _).mono (fun _ h c => (h c).2.2) (Cert.RefSide.run m ρ)

theorem preserves : Cert.preserves_Kernel_KernelIdeal := trivial

theorem algebraic : Cert.algebraic_KernelIdeal_ReferenceIdeal := by
  intro m ρ m' ρ' hpre hagree
  refine ⟨fun c => fun i => Cert.IouSpec.probK (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (i 0),
    fun c => fun i => Cert.IouSpec.outIouK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (i 0),
    Cert.KernelIdeal.Final.run m ρ, ?_⟩
  refine (θ_run (Cert.ReferenceIdeal.defs (F := Ideal)) _ _).mono (fun _ h c => ?_) (Cert.RefSide.run m' ρ')
  obtain ⟨hfin0, _, hfin3, hscore⟩ := Cert.PreFacts.of_pre _ _ _ _ (hpre c)
  obtain ⟨e0, e1, e2, e3⟩ := hagree c
  refine ⟨(h c).1.trans ?_, (h c).2.1.trans ?_, (h c).2.2⟩
  · rw [Cert.RefSide.prob_eq, e1, e2]
    funext i
    exact (Cert.IouAlgebra.probK_eq_probR _ _ _ (hscore (i 0))).symm
  · rw [Cert.RefSide.iou_eq, e0, e2, e3]
    funext i
    exact (Cert.IouAlgebra.outIouK_eq_outIouR _ _ _ _ hfin0 hfin3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
